-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S256x4096 : Shape := ⟨2, ![256, 4096]⟩
abbrev S8192x4096 : Shape := ⟨2, ![8192, 4096]⟩
abbrev S1x4096 : Shape := ⟨2, ![1, 4096]⟩
abbrev S512x4096 : Shape := ⟨2, ![512, 4096]⟩
abbrev S1x512 : Shape := ⟨2, ![1, 512]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  iota_S256x4096_d1_w32 : S256x4096.Iotas .tc 32 [1]
  rotates_S256x4096_d1 : S256x4096.Rotates 1 none
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .bf16 = 32 ∨ (Rect.block (s := S4096x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x4096.size a
  hwx1_3 : ∀ i : grid1.Coords, EltTy.bits .f32 = 32 ∨ (Rect.block (s := S8192x4096) S512x512.size (cc1_transform_3 i) (hinb1_3 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S8192x2048x2x1 : Shape := ⟨4, ![8192, 2048, 2, 1]⟩
abbrev S8192x2048x1x1 : Shape := ⟨4, ![8192, 2048, 1, 1]⟩
abbrev S8192x1024x2x2 : Shape := ⟨4, ![8192, 1024, 2, 2]⟩
abbrev S8192x1024x1x2 : Shape := ⟨4, ![8192, 1024, 1, 2]⟩
abbrev S8192x512x2x4 : Shape := ⟨4, ![8192, 512, 2, 4]⟩
abbrev S8192x512x1x4 : Shape := ⟨4, ![8192, 512, 1, 4]⟩
abbrev S8192x256x2x8 : Shape := ⟨4, ![8192, 256, 2, 8]⟩
abbrev S8192x256x1x8 : Shape := ⟨4, ![8192, 256, 1, 8]⟩
abbrev S8192x128x2x16 : Shape := ⟨4, ![8192, 128, 2, 16]⟩
abbrev S8192x128x1x16 : Shape := ⟨4, ![8192, 128, 1, 16]⟩
abbrev S8192x64x2x32 : Shape := ⟨4, ![8192, 64, 2, 32]⟩
abbrev S8192x64x1x32 : Shape := ⟨4, ![8192, 64, 1, 32]⟩
abbrev S8192x32x2x64 : Shape := ⟨4, ![8192, 32, 2, 64]⟩
abbrev S8192x32x1x64 : Shape := ⟨4, ![8192, 32, 1, 64]⟩
abbrev S8192x16x2x128 : Shape := ⟨4, ![8192, 16, 2, 128]⟩
abbrev S8192x16x1x128 : Shape := ⟨4, ![8192, 16, 1, 128]⟩
abbrev S8192x8x2x256 : Shape := ⟨4, ![8192, 8, 2, 256]⟩
abbrev S8192x8x1x256 : Shape := ⟨4, ![8192, 8, 1, 256]⟩
abbrev S8192x4x2x512 : Shape := ⟨4, ![8192, 4, 2, 512]⟩
abbrev S8192x4x1x512 : Shape := ⟨4, ![8192, 4, 1, 512]⟩
abbrev S8192x2x2x1024 : Shape := ⟨4, ![8192, 2, 2, 1024]⟩
abbrev S8192x2x1x1024 : Shape := ⟨4, ![8192, 2, 1, 1024]⟩
abbrev S8192x1x2x2048 : Shape := ⟨4, ![8192, 1, 2, 2048]⟩
abbrev S8192x1x1x2048 : Shape := ⟨4, ![8192, 1, 1, 2048]⟩
abbrev S_ : Shape := ⟨0, ![]⟩
abbrev S1x1x4096 : Shape := ⟨3, ![1, 1, 4096]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x2048x2x1, .f32⟩
  | .hbm, ⟨5, _⟩ => ⟨S8192x2048x1x1, .f32⟩
  | .hbm, ⟨6, _⟩ => ⟨S8192x2048x1x1, .f32⟩
  | .hbm, ⟨7, _⟩ => ⟨S8192x2048x1x1, .f32⟩
  | .hbm, ⟨8, _⟩ => ⟨S8192x2048x1x1, .f32⟩
  | .hbm, ⟨9, _⟩ => ⟨S8192x2048x2x1, .f32⟩
  | .hbm, ⟨10, _⟩ => ⟨S8192x4096, .f32⟩
  | .hbm, ⟨11, _⟩ => ⟨S8192x1024x2x2, .f32⟩
  | .hbm, ⟨12, _⟩ => ⟨S8192x1024x1x2, .f32⟩
  | .hbm, ⟨13, _⟩ => ⟨S8192x1024x1x2, .f32⟩
  | .hbm, ⟨14, _⟩ => ⟨S8192x1024x1x2, .f32⟩
  | .hbm, ⟨15, _⟩ => ⟨S8192x1024x1x2, .f32⟩
  | .hbm, ⟨16, _⟩ => ⟨S8192x1024x2x2, .f32⟩
  | .hbm, ⟨17, _⟩ => ⟨S8192x4096, .f32⟩
  | .hbm, ⟨18, _⟩ => ⟨S8192x512x2x4, .f32⟩
  | .hbm, ⟨19, _⟩ => ⟨S8192x512x1x4, .f32⟩
  | .hbm, ⟨20, _⟩ => ⟨S8192x512x1x4, .f32⟩
  | .hbm, ⟨21, _⟩ => ⟨S8192x512x1x4, .f32⟩
  | .hbm, ⟨22, _⟩ => ⟨S8192x512x1x4, .f32⟩
  | .hbm, ⟨23, _⟩ => ⟨S8192x512x2x4, .f32⟩
  | .hbm, ⟨24, _⟩ => ⟨S8192x4096, .f32⟩
  | .hbm, ⟨25, _⟩ => ⟨S8192x256x2x8, .f32⟩
  | .hbm, ⟨26, _⟩ => ⟨S8192x256x1x8, .f32⟩
  | .hbm, ⟨27, _⟩ => ⟨S8192x256x1x8, .f32⟩
  | .hbm, ⟨28, _⟩ => ⟨S8192x256x1x8, .f32⟩
  | .hbm, ⟨29, _⟩ => ⟨S8192x256x1x8, .f32⟩
  | .hbm, ⟨30, _⟩ => ⟨S8192x256x2x8, .f32⟩
  | .hbm, ⟨31, _⟩ => ⟨S8192x4096, .f32⟩
  | .hbm, ⟨32, _⟩ => ⟨S8192x128x2x16, .f32⟩
  | .hbm, ⟨33, _⟩ => ⟨S8192x128x1x16, .f32⟩
  | .hbm, ⟨34, _⟩ => ⟨S8192x128x1x16, .f32⟩
  | .hbm, ⟨35, _⟩ => ⟨S8192x128x1x16, .f32⟩
  | .hbm, ⟨36, _⟩ => ⟨S8192x128x1x16, .f32⟩
  | .hbm, ⟨37, _⟩ => ⟨S8192x128x2x16, .f32⟩
  | .hbm, ⟨38, _⟩ => ⟨S8192x4096, .f32⟩
  | .hbm, ⟨39, _⟩ => ⟨S8192x64x2x32, .f32⟩
  | .hbm, ⟨40, _⟩ => ⟨S8192x64x1x32, .f32⟩
  | .hbm, ⟨41, _⟩ => ⟨S8192x64x1x32, .f32⟩
  | .hbm, ⟨42, _⟩ => ⟨S8192x64x1x32, .f32⟩
  | .hbm, ⟨43, _⟩ => ⟨S8192x64x1x32, .f32⟩
  | .hbm, ⟨44, _⟩ => ⟨S8192x64x2x32, .f32⟩
  | .hbm, ⟨45, _⟩ => ⟨S8192x4096, .f32⟩
  | .hbm, ⟨46, _⟩ => ⟨S8192x32x2x64, .f32⟩
  | .hbm, ⟨47, _⟩ => ⟨S8192x32x1x64, .f32⟩
  | .hbm, ⟨48, _⟩ => ⟨S8192x32x1x64, .f32⟩
  | .hbm, ⟨49, _⟩ => ⟨S8192x32x1x64, .f32⟩
  | .hbm, ⟨50, _⟩ => ⟨S8192x32x1x64, .f32⟩
  | .hbm, ⟨51, _⟩ => ⟨S8192x32x2x64, .f32⟩
  | .hbm, ⟨52, _⟩ => ⟨S8192x4096, .f32⟩
  | .hbm, ⟨53, _⟩ => ⟨S8192x16x2x128, .f32⟩
  | .hbm, ⟨54, _⟩ => ⟨S8192x16x1x128, .f32⟩
  | .hbm, ⟨55, _⟩ => ⟨S8192x16x1x128, .f32⟩
  | .hbm, ⟨56, _⟩ => ⟨S8192x16x1x128, .f32⟩
  | .hbm, ⟨57, _⟩ => ⟨S8192x16x1x128, .f32⟩
  | .hbm, ⟨58, _⟩ => ⟨S8192x16x2x128, .f32⟩
  | .hbm, ⟨59, _⟩ => ⟨S8192x4096, .f32⟩
  | .hbm, ⟨60, _⟩ => ⟨S8192x8x2x256, .f32⟩
  | .hbm, ⟨61, _⟩ => ⟨S8192x8x1x256, .f32⟩
  | .hbm, ⟨62, _⟩ => ⟨S8192x8x1x256, .f32⟩
  | .hbm, ⟨63, _⟩ => ⟨S8192x8x1x256, .f32⟩
  | .hbm, ⟨64, _⟩ => ⟨S8192x8x1x256, .f32⟩
  | .hbm, ⟨65, _⟩ => ⟨S8192x8x2x256, .f32⟩
  | .hbm, ⟨66, _⟩ => ⟨S8192x4096, .f32⟩
  | .hbm, ⟨67, _⟩ => ⟨S8192x4x2x512, .f32⟩
  | .hbm, ⟨68, _⟩ => ⟨S8192x4x1x512, .f32⟩
  | .hbm, ⟨69, _⟩ => ⟨S8192x4x1x512, .f32⟩
  | .hbm, ⟨70, _⟩ => ⟨S8192x4x1x512, .f32⟩
  | .hbm, ⟨71, _⟩ => ⟨S8192x4x1x512, .f32⟩
  | .hbm, ⟨72, _⟩ => ⟨S8192x4x2x512, .f32⟩
  | .hbm, ⟨73, _⟩ => ⟨S8192x4096, .f32⟩
  | .hbm, ⟨74, _⟩ => ⟨S8192x2x2x1024, .f32⟩
  | .hbm, ⟨75, _⟩ => ⟨S8192x2x1x1024, .f32⟩
  | .hbm, ⟨76, _⟩ => ⟨S8192x2x1x1024, .f32⟩
  | .hbm, ⟨77, _⟩ => ⟨S8192x2x1x1024, .f32⟩
  | .hbm, ⟨78, _⟩ => ⟨S8192x2x1x1024, .f32⟩
  | .hbm, ⟨79, _⟩ => ⟨S8192x2x2x1024, .f32⟩
  | .hbm, ⟨80, _⟩ => ⟨S8192x4096, .f32⟩
  | .hbm, ⟨81, _⟩ => ⟨S8192x1x2x2048, .f32⟩
  | .hbm, ⟨82, _⟩ => ⟨S8192x1x1x2048, .f32⟩
  | .hbm, ⟨83, _⟩ => ⟨S8192x1x1x2048, .f32⟩
  | .hbm, ⟨84, _⟩ => ⟨S8192x1x1x2048, .f32⟩
  | .hbm, ⟨85, _⟩ => ⟨S8192x1x1x2048, .f32⟩
  | .hbm, ⟨86, _⟩ => ⟨S8192x1x2x2048, .f32⟩
  | .hbm, ⟨87, _⟩ => ⟨S8192x4096, .f32⟩
  | .hbm, ⟨88, _⟩ => ⟨S_, .f32⟩
  | .hbm, ⟨89, _⟩ => ⟨S8192x4096, .f32⟩
  | .hbm, ⟨90, _⟩ => ⟨S8192x4096, .f32⟩
  | .hbm, ⟨91, _⟩ => ⟨S4x2048x4096, .f32⟩
  | .hbm, ⟨92, _⟩ => ⟨S4x2048x4096, .f32⟩
  | .hbm, ⟨93, _⟩ => ⟨S1x1x4096, .f32⟩
  | .hbm, ⟨94, _⟩ => ⟨S4x2048x4096, .f32⟩
  | .hbm, ⟨95, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_cst : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩
abbrev main_v91 : Ref sig .tc := ⟨.hbm, 95, rfl⟩

abbrev nD : Nat := 1
abbrev τ : Topo := Topo.v7x

variable {F : FTy → Type} [FloatOps F]

class Facts₀ : Prop where
  shapeCasts_S4x2048x4096_S8192x4096 : S4x2048x4096.ShapeCasts S8192x4096
  shapeCasts_S8192x4096_S8192x2048x2x1 : S8192x4096.ShapeCasts S8192x2048x2x1
  slices_S8192x2048x2x1_S8192x2048x1x1_0_0_0_0 : S8192x2048x2x1.Slices ![0, 0, 0, 0] S8192x2048x1x1
  slices_S8192x2048x2x1_S8192x2048x1x1_0_0_1_0 : S8192x2048x2x1.Slices ![0, 0, 1, 0] S8192x2048x1x1
  concatenates_S8192x2048x1x1_S8192x2048x1x1_S8192x2048x2x1_d2 : Shape.Concatenates [S8192x2048x1x1, S8192x2048x1x1] S8192x2048x2x1 2
  shapeCasts_S8192x2048x2x1_S8192x4096 : S8192x2048x2x1.ShapeCasts S8192x4096
  shapeCasts_S8192x4096_S8192x1024x2x2 : S8192x4096.ShapeCasts S8192x1024x2x2
  slices_S8192x1024x2x2_S8192x1024x1x2_0_0_0_0 : S8192x1024x2x2.Slices ![0, 0, 0, 0] S8192x1024x1x2
  slices_S8192x1024x2x2_S8192x1024x1x2_0_0_1_0 : S8192x1024x2x2.Slices ![0, 0, 1, 0] S8192x1024x1x2
  concatenates_S8192x1024x1x2_S8192x1024x1x2_S8192x1024x2x2_d2 : Shape.Concatenates [S8192x1024x1x2, S8192x1024x1x2] S8192x1024x2x2 2
  shapeCasts_S8192x1024x2x2_S8192x4096 : S8192x1024x2x2.ShapeCasts S8192x4096
  shapeCasts_S8192x4096_S8192x512x2x4 : S8192x4096.ShapeCasts S8192x512x2x4
  slices_S8192x512x2x4_S8192x512x1x4_0_0_0_0 : S8192x512x2x4.Slices ![0, 0, 0, 0] S8192x512x1x4
  slices_S8192x512x2x4_S8192x512x1x4_0_0_1_0 : S8192x512x2x4.Slices ![0, 0, 1, 0] S8192x512x1x4
  concatenates_S8192x512x1x4_S8192x512x1x4_S8192x512x2x4_d2 : Shape.Concatenates [S8192x512x1x4, S8192x512x1x4] S8192x512x2x4 2
  shapeCasts_S8192x512x2x4_S8192x4096 : S8192x512x2x4.ShapeCasts S8192x4096
  shapeCasts_S8192x4096_S8192x256x2x8 : S8192x4096.ShapeCasts S8192x256x2x8
  slices_S8192x256x2x8_S8192x256x1x8_0_0_0_0 : S8192x256x2x8.Slices ![0, 0, 0, 0] S8192x256x1x8
  slices_S8192x256x2x8_S8192x256x1x8_0_0_1_0 : S8192x256x2x8.Slices ![0, 0, 1, 0] S8192x256x1x8
  concatenates_S8192x256x1x8_S8192x256x1x8_S8192x256x2x8_d2 : Shape.Concatenates [S8192x256x1x8, S8192x256x1x8] S8192x256x2x8 2
  shapeCasts_S8192x256x2x8_S8192x4096 : S8192x256x2x8.ShapeCasts S8192x4096
  shapeCasts_S8192x4096_S8192x128x2x16 : S8192x4096.ShapeCasts S8192x128x2x16
  slices_S8192x128x2x16_S8192x128x1x16_0_0_0_0 : S8192x128x2x16.Slices ![0, 0, 0, 0] S8192x128x1x16
  slices_S8192x128x2x16_S8192x128x1x16_0_0_1_0 : S8192x128x2x16.Slices ![0, 0, 1, 0] S8192x128x1x16
  concatenates_S8192x128x1x16_S8192x128x1x16_S8192x128x2x16_d2 : Shape.Concatenates [S8192x128x1x16, S8192x128x1x16] S8192x128x2x16 2
  shapeCasts_S8192x128x2x16_S8192x4096 : S8192x128x2x16.ShapeCasts S8192x4096
  shapeCasts_S8192x4096_S8192x64x2x32 : S8192x4096.ShapeCasts S8192x64x2x32
  slices_S8192x64x2x32_S8192x64x1x32_0_0_0_0 : S8192x64x2x32.Slices ![0, 0, 0, 0] S8192x64x1x32
  slices_S8192x64x2x32_S8192x64x1x32_0_0_1_0 : S8192x64x2x32.Slices ![0, 0, 1, 0] S8192x64x1x32
  concatenates_S8192x64x1x32_S8192x64x1x32_S8192x64x2x32_d2 : Shape.Concatenates [S8192x64x1x32, S8192x64x1x32] S8192x64x2x32 2
  shapeCasts_S8192x64x2x32_S8192x4096 : S8192x64x2x32.ShapeCasts S8192x4096
  shapeCasts_S8192x4096_S8192x32x2x64 : S8192x4096.ShapeCasts S8192x32x2x64
  slices_S8192x32x2x64_S8192x32x1x64_0_0_0_0 : S8192x32x2x64.Slices ![0, 0, 0, 0] S8192x32x1x64
  slices_S8192x32x2x64_S8192x32x1x64_0_0_1_0 : S8192x32x2x64.Slices ![0, 0, 1, 0] S8192x32x1x64
  concatenates_S8192x32x1x64_S8192x32x1x64_S8192x32x2x64_d2 : Shape.Concatenates [S8192x32x1x64, S8192x32x1x64] S8192x32x2x64 2
  shapeCasts_S8192x32x2x64_S8192x4096 : S8192x32x2x64.ShapeCasts S8192x4096
  shapeCasts_S8192x4096_S8192x16x2x128 : S8192x4096.ShapeCasts S8192x16x2x128
  slices_S8192x16x2x128_S8192x16x1x128_0_0_0_0 : S8192x16x2x128.Slices ![0, 0, 0, 0] S8192x16x1x128
  slices_S8192x16x2x128_S8192x16x1x128_0_0_1_0 : S8192x16x2x128.Slices ![0, 0, 1, 0] S8192x16x1x128
  concatenates_S8192x16x1x128_S8192x16x1x128_S8192x16x2x128_d2 : Shape.Concatenates [S8192x16x1x128, S8192x16x1x128] S8192x16x2x128 2
  shapeCasts_S8192x16x2x128_S8192x4096 : S8192x16x2x128.ShapeCasts S8192x4096
  shapeCasts_S8192x4096_S8192x8x2x256 : S8192x4096.ShapeCasts S8192x8x2x256
  slices_S8192x8x2x256_S8192x8x1x256_0_0_0_0 : S8192x8x2x256.Slices ![0, 0, 0, 0] S8192x8x1x256
  slices_S8192x8x2x256_S8192x8x1x256_0_0_1_0 : S8192x8x2x256.Slices ![0, 0, 1, 0] S8192x8x1x256
  concatenates_S8192x8x1x256_S8192x8x1x256_S8192x8x2x256_d2 : Shape.Concatenates [S8192x8x1x256, S8192x8x1x256] S8192x8x2x256 2
  shapeCasts_S8192x8x2x256_S8192x4096 : S8192x8x2x256.ShapeCasts S8192x4096
  shapeCasts_S8192x4096_S8192x4x2x512 : S8192x4096.ShapeCasts S8192x4x2x512
  slices_S8192x4x2x512_S8192x4x1x512_0_0_0_0 : S8192x4x2x512.Slices ![0, 0, 0, 0] S8192x4x1x512
  slices_S8192x4x2x512_S8192x4x1x512_0_0_1_0 : S8192x4x2x512.Slices ![0, 0, 1, 0] S8192x4x1x512
  concatenates_S8192x4x1x512_S8192x4x1x512_S8192x4x2x512_d2 : Shape.Concatenates [S8192x4x1x512, S8192x4x1x512] S8192x4x2x512 2
  shapeCasts_S8192x4x2x512_S8192x4096 : S8192x4x2x512.ShapeCasts S8192x4096
  shapeCasts_S8192x4096_S8192x2x2x1024 : S8192x4096.ShapeCasts S8192x2x2x1024
  slices_S8192x2x2x1024_S8192x2x1x1024_0_0_0_0 : S8192x2x2x1024.Slices ![0, 0, 0, 0] S8192x2x1x1024
  slices_S8192x2x2x1024_S8192x2x1x1024_0_0_1_0 : S8192x2x2x1024.Slices ![0, 0, 1, 0] S8192x2x1x1024
  concatenates_S8192x2x1x1024_S8192x2x1x1024_S8192x2x2x1024_d2 : Shape.Concatenates [S8192x2x1x1024, S8192x2x1x1024] S8192x2x2x1024 2
  shapeCasts_S8192x2x2x1024_S8192x4096 : S8192x2x2x1024.ShapeCasts S8192x4096
  shapeCasts_S8192x4096_S8192x1x2x2048 : S8192x4096.ShapeCasts S8192x1x2x2048
  slices_S8192x1x2x2048_S8192x1x1x2048_0_0_0_0 : S8192x1x2x2048.Slices ![0, 0, 0, 0] S8192x1x1x2048
  slices_S8192x1x2x2048_S8192x1x1x2048_0_0_1_0 : S8192x1x2x2048.Slices ![0, 0, 1, 0] S8192x1x1x2048
  concatenates_S8192x1x1x2048_S8192x1x1x2048_S8192x1x2x2048_d2 : Shape.Concatenates [S8192x1x1x2048, S8192x1x1x2048] S8192x1x2x2048 2
  shapeCasts_S8192x1x2x2048_S8192x4096 : S8192x1x2x2048.ShapeCasts S8192x4096
  bcast_S_S8192x4096 : S_.BroadcastsInDim S8192x4096 (![] : Fin 0 → Fin S8192x4096.rank)
  shapeCasts_S8192x4096_S4x2048x4096 : S8192x4096.ShapeCasts S4x2048x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibWalshDef.lean ====
/-
  Butterfly passes over a vector of length n = 2^K: the definitions.

  One pass at bit k replaces the entry at i by  v i + v (i xor 2^k)  where bit k of i is clear and by
  v (i xor 2^k) - v i  where it is set.  The passes at bits 0 … K-1, in that order, are the unnormalized
  Walsh-Hadamard transform in Sylvester's ordering.
-/
import Mathlib.Data.EReal.Operations
import Mathlib.Algebra.BigOperators.Group.Finset.Basic

namespace Walsh

/-- The partner of position i at bit k: i with bit k flipped (i itself if that leaves the range, which does not
    happen when n = 2^K and k < K). -/
def flip (n k : ℕ) (i : Fin n) : Fin n :=
  if h : i.val ^^^ 2 ^ k < n then ⟨i.val ^^^ 2 ^ k, h⟩ else i

/-- One butterfly pass at bit k. -/
def pass {α : Type} [Add α] [Sub α] {n : ℕ} (k : ℕ) (v : Fin n → α) (i : Fin n) : α :=
  if i.val.testBit k then v (flip n k i) - v i else v i + v (flip n k i)

/-- The passes at bits 0, 1, …, j-1, in that order. -/
def passes {α : Type} [Add α] [Sub α] {n : ℕ} : ℕ → (Fin n → α) → (Fin n → α)
  | 0, v => v
  | j + 1, v => pass j (passes j v)

end Walsh
-- ==== Proof.LibWalsh.lean ====
/-
  Butterfly passes over a vector of length n = 2^K (definitions: LibWalshDef), and the law that lets the whole
  transform move from one side of a dot product to the other.

  Each pass is self-adjoint for the dot product (the partner map is an involution), passes at different bits commute,
  so the composite of the passes at bits 0 .. K-1 followed by a common scale is self-adjoint on real vectors:
      sum_d u d * (T v) d = sum_d (T u) d * v d.
  Stated over the reals and, for real data read as extended reals, over EReal.
-/
import proofs.«113425_j17712445129289_2_alg».proof.Proof.LibWalshDef
import Mathlib.Tactic

namespace Walsh

/-! ### The partner index as plain arithmetic -/

/-- Xor with 1 adds 1 to an even number. -/
theorem xor_one_of_even (m : ℕ) (h : m % 2 = 0) : m ^^^ 1 = m + 1 := by
  have h1 : (m ^^^ 1) / 2 = m / 2 := by rw [Nat.xor_div_two]; simp
  have h2 : (m ^^^ 1) % 2 = 1 := by rw [Nat.xor_mod_two_eq_one]; omega
  omega

/-- Flipping a clear bit k adds 2^k: the quotient by 2^k is even and gains 1, the remainder is untouched. -/
theorem xor_two_pow_of_not_testBit (i k : ℕ) (hb : i.testBit k = false) : i ^^^ 2 ^ k = i + 2 ^ k := by
  have hm : i / 2 ^ k % 2 = 0 := by
    rw [Nat.testBit_eq_decide_div_mod_eq] at hb
    simp at hb; omega
  have h1 : (i ^^^ 2 ^ k) / 2 ^ k = i / 2 ^ k + 1 := by
    rw [Nat.xor_div_two_pow, Nat.div_self (Nat.two_pow_pos k), xor_one_of_even _ hm]
  have h2 : (i ^^^ 2 ^ k) % 2 ^ k = i % 2 ^ k := by
    rw [Nat.xor_mod_two_pow, Nat.mod_self, Nat.xor_zero]
  have e1 := Nat.div_add_mod (i ^^^ 2 ^ k) (2 ^ k)
  have e2 := Nat.div_add_mod i (2 ^ k)
  rw [h1, h2, Nat.mul_add, Nat.mul_one] at e1
  omega

/-- For n = 2^K and k < K the partner stays in range, so it is literally i xor 2^k. -/
theorem flip_val {n K k : ℕ} (hn : n = 2 ^ K) (hk : k < K) (i : Fin n) :
    (flip n k i).val = i.val ^^^ 2 ^ k := by
  have h : i.val ^^^ 2 ^ k < n := by
    have hi : i.val < 2 ^ K := by have := i.isLt; omega
    have := Nat.xor_lt_two_pow hi (Nat.pow_lt_pow_right (by norm_num) hk)
    omega
  simp [flip, h]

/-- Where bit k of i is clear, the partner of i is i + 2^k. -/
theorem flip_val_add {n K k : ℕ} (hn : n = 2 ^ K) (hk : k < K) (i : Fin n)
    (hb : i.val.testBit k = false) : (flip n k i).val = i.val + 2 ^ k := by
  rw [flip_val hn hk, xor_two_pow_of_not_testBit _ _ hb]

/-- Where bit k of i is set, the partner of i is i - 2^k. -/
theorem flip_val_sub {n K k : ℕ} (hn : n = 2 ^ K) (hk : k < K) (i : Fin n)
    (hb : i.val.testBit k = true) : (flip n k i).val + 2 ^ k = i.val := by
  rw [flip_val hn hk]
  have hc : (i.val ^^^ 2 ^ k).testBit k = false := by
    rw [Nat.testBit_xor, hb, Nat.testBit_two_pow_self]; rfl
  rw [← xor_two_pow_of_not_testBit _ _ hc, Nat.xor_assoc, Nat.xor_self, Nat.xor_zero]

/-! ### Real data read as extended reals -/

/-- A pass of real data read as extended reals is the real pass read as extended reals. -/
theorem pass_coe {n : ℕ} (k : ℕ) (v : Fin n → ℝ) :
    pass k (fun i => ((v i : ℝ) : EReal)) = fun i => ((pass k v i : ℝ) : EReal) := by
  funext i
  unfold pass
  split
  · rw [EReal.coe_sub]
  · rw [EReal.coe_add]

/-- The same for any number of passes. -/
theorem passes_coe {n : ℕ} (j : ℕ) (v : Fin n → ℝ) :
    passes j (fun i => ((v i : ℝ) : EReal)) = fun i => ((passes j v i : ℝ) : EReal) := by
  induction j with
  | zero => rfl
  | succ j ih =>
    show pass j (passes j fun i => ((v i : ℝ) : EReal)) = fun i => ((pass j (passes j v) i : ℝ) : EReal)
    rw [ih, pass_coe]

/-! ### Self-adjointness over the reals -/

/-- The sign attached to position i by bit k: -1 where the bit is set, +1 where it is clear. -/
def sgn (k : ℕ) {n : ℕ} (i : Fin n) : ℝ := if i.val.testBit k then -1 else 1

/-- A pass is  v ↦ (sign · v) + (v read at the partner). -/
theorem pass_eq {n : ℕ} (k : ℕ) (v : Fin n → ℝ) (i : Fin n) :
    pass k v i = sgn k i * v i + v (flip n k i) := by
  unfold pass sgn
  split <;> ring

/-- The partner map is an involution (xor twice with the same mask). -/
theorem flip_flip {n K k : ℕ} (hn : n = 2 ^ K) (hk : k < K) (i : Fin n) :
    flip n k (flip n k i) = i := by
  apply Fin.ext
  rw [flip_val hn hk, flip_val hn hk, Nat.xor_assoc, Nat.xor_self, Nat.xor_zero]

/-- Partner maps at two bits commute. -/
theorem flip_comm {n K j k : ℕ} (hn : n = 2 ^ K) (hj : j < K) (hk : k < K) (i : Fin n) :
    flip n j (flip n k i) = flip n k (flip n j i) := by
  apply Fin.ext
  rw [flip_val hn hj, flip_val hn hk, flip_val hn hk, flip_val hn hj, Nat.xor_assoc,
    Nat.xor_comm (2 ^ k), ← Nat.xor_assoc]

/-- Flipping bit k leaves every other bit alone. -/
theorem testBit_flip_of_ne {n K j k : ℕ} (hn : n = 2 ^ K) (hk : k < K) (h : k ≠ j) (i : Fin n) :
    (flip n k i).val.testBit j = i.val.testBit j := by
  rw [flip_val hn hk, Nat.testBit_xor, Nat.testBit_two_pow_of_ne h, Bool.xor_false]

/-- So the sign of bit j is unchanged by the partner map at another bit k. -/
theorem sgn_flip_of_ne {n K j k : ℕ} (hn : n = 2 ^ K) (hk : k < K) (h : k ≠ j) (i : Fin n) :
    sgn j (flip n k i) = sgn j i := by
  unfold sgn
  rw [testBit_flip_of_ne hn hk h]

/-- Summing over partners is summing over everything (reindexing by an involution). -/
theorem sum_flip {n K k : ℕ} (hn : n = 2 ^ K) (hk : k < K) (f : Fin n → ℝ) :
    ∑ i, f (flip n k i) = ∑ i, f i :=
  Equiv.sum_comp (Function.Involutive.toPerm (flip n k) (flip_flip hn hk)) f

/-- One pass is self-adjoint for the dot product. -/
theorem pass_adjoint {n K k : ℕ} (hn : n = 2 ^ K) (hk : k < K) (u v : Fin n → ℝ) :
    ∑ i, u i * pass k v i = ∑ i, pass k u i * v i := by
  have h : ∑ i, u i * v (flip n k i) = ∑ i, u (flip n k i) * v i :=
    calc ∑ i, u i * v (flip n k i)
        = ∑ i, (fun i => u i * v (flip n k i)) (flip n k i) := (sum_flip hn hk _).symm
      _ = ∑ i, u (flip n k i) * v i := by simp only [flip_flip hn hk]
  simp only [pass_eq, mul_add, add_mul, Finset.sum_add_distrib, h]
  congr 1
  apply Finset.sum_congr rfl
  intros
  ring

/-- Passes at two different bits commute. -/
theorem pass_comm {n K j k : ℕ} (hn : n = 2 ^ K) (hj : j < K) (hk : k < K) (hjk : j ≠ k)
    (v : Fin n → ℝ) : pass j (pass k v) = pass k (pass j v) := by
  funext i
  simp only [pass_eq, sgn_flip_of_ne hn hj hjk, sgn_flip_of_ne hn hk hjk.symm, flip_comm hn hj hk i]
  ring

/-- The passes at bits j-1, …, 1, 0, in that (opposite) order. -/
def passesRev {n : ℕ} : ℕ → (Fin n → ℝ) → (Fin n → ℝ)
  | 0, v => v
  | j + 1, v => passesRev j (pass j v)

/-- The pass at bit j commutes with the composite of the passes at bits below m ≤ j. -/
theorem pass_passes_comm {n K j : ℕ} (hn : n = 2 ^ K) (hj : j < K) (m : ℕ) (hm : m ≤ j)
    (v : Fin n → ℝ) : pass j (passes m v) = passes m (pass j v) := by
  induction m with
  | zero => rfl
  | succ m ih =>
    show pass j (pass m (passes m v)) = pass m (passes m (pass j v))
    rw [pass_comm hn hj (by omega) (by omega), ih (by omega)]

/-- The composite in increasing bit order equals the composite in decreasing bit order. -/
theorem passes_eq_passesRev {n K : ℕ} (hn : n = 2 ^ K) (j : ℕ) (hj : j ≤ K) (v : Fin n → ℝ) :
    passes j v = passesRev j v := by
  induction j generalizing v with
  | zero => rfl
  | succ j ih =>
    show pass j (passes j v) = passesRev j (pass j v)
    rw [pass_passes_comm hn (by omega) j le_rfl, ih (by omega)]

/-- Moving the composite across the dot product reverses the order of the passes. -/
theorem passes_adjoint_rev {n K : ℕ} (hn : n = 2 ^ K) (j : ℕ) (hj : j ≤ K) (u v : Fin n → ℝ) :
    ∑ d, u d * passes j v d = ∑ d, passesRev j u d * v d := by
  induction j generalizing u with
  | zero => rfl
  | succ j ih =>
    show ∑ d, u d * pass j (passes j v) d = ∑ d, passesRev j (pass j u) d * v d
    rw [pass_adjoint hn (by omega), ih (by omega)]

/-- The full composite of passes is self-adjoint for the dot product. -/
theorem passes_adjoint {n K : ℕ} (hn : n = 2 ^ K) (u v : Fin n → ℝ) :
    ∑ d, u d * passes K v d = ∑ d, passes K u d * v d := by
  rw [passes_adjoint_rev hn K le_rfl, ← passes_eq_passesRev hn K le_rfl]

/-- The scaled transform moves from one side of a dot product to the other. -/
theorem dot_passes {n K : ℕ} (hn : n = 2 ^ K) (u v : Fin n → ℝ) (c : ℝ) :
    ∑ d : Fin n, u d * (passes K v d * c) = ∑ d : Fin n, (passes K u d * c) * v d := by
  calc ∑ d : Fin n, u d * (passes K v d * c)
      = (∑ d : Fin n, u d * passes K v d) * c := by
        rw [Finset.sum_mul]; apply Finset.sum_congr rfl; intros; ring
    _ = (∑ d : Fin n, passes K u d * v d) * c := by rw [passes_adjoint hn]
    _ = ∑ d : Fin n, (passes K u d * c) * v d := by
        rw [Finset.sum_mul]; apply Finset.sum_congr rfl; intros; ring

/-! ### The same law over the extended reals -/

/-- Reading a finite real sum as an extended real is the sum of the readings. -/
theorem coe_sum {ι : Type} (s : Finset ι) (f : ι → ℝ) :
    ((∑ d ∈ s, f d : ℝ) : EReal) = ∑ d ∈ s, ((f d : ℝ) : EReal) := by
  classical
  induction s using Finset.induction_on with
  | empty => simp
  | insert a s ha ih => rw [Finset.sum_insert ha, Finset.sum_insert ha, EReal.coe_add, ih]

/-- For real data read as extended reals, the scaled transform moves across the dot product: every term is the
    reading of a real number, so the identity is the reading of the real one. -/
theorem dot_passes_ereal {n K : ℕ} (hn : n = 2 ^ K) (u v : Fin n → ℝ) (c : ℝ) :
    ∑ d : Fin n, ((u d : ℝ) : EReal) * (passes K (fun i => ((v i : ℝ) : EReal)) d * ((c : ℝ) : EReal))
      = ∑ d : Fin n, (passes K (fun i => ((u i : ℝ) : EReal)) d * ((c : ℝ) : EReal)) * ((v d : ℝ) : EReal) := by
  rw [passes_coe, passes_coe]
  simp only [← EReal.coe_mul, ← coe_sum]
  exact congrArg _ (dot_passes hn u v c)

end Walsh
-- ==== Proof.Spec.lean ====
/-
  What the two programs compute, as whole-array functions of the argument arrays over the extended reals.

  Both apply the same linear map T to a row of length 4096: the twelve butterfly passes at bits 0 … 11 followed by the
  scale 2^-6 (the word 0x3C800000).  The reference transforms the rows of x and contracts with the rows of W,
      y[b,s,o] = (sum_d T(x[b,s,:])[d] * W[o,d]) + bias[o];
  the kernel transforms the rows of W and contracts them with the rows of x,
      y[b,s,o] = (sum_d x[b,s,d] * T(W[o,:])[d]) + bias[o].
-/
import proofs.«113425_j17712445129289_2_alg».proof.Proof.LibWalshDef
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 2048, 4096]⟩
abbrev SW : Shape := ⟨2, ![4096, 4096]⟩
abbrev SB : Shape := ⟨1, ![4096]⟩

/-- The common scale 2^-6 = 1/sqrt(4096), as both programs write it. -/
def scale : EReal := Ideal.ofBits .f32 0x3C800000#32

/-- Row (b, s) of the activations. -/
def rowX (x : SX.Idx → EReal) (b : Fin 4) (s : Fin 2048) : Fin 4096 → EReal := fun d => x (ix3 b s d)

/-- Row o of the weights. -/
def rowW (W : SW.Idx → EReal) (o : Fin 4096) : Fin 4096 → EReal := fun d => W (ix2 o d)

/-- The transformed row: twelve passes, then the scale. -/
def rot (v : Fin 4096 → EReal) : Fin 4096 → EReal := fun d => Walsh.passes 12 v d * scale

/-- The reference's result: rotate the activations' rows, contract with the weights' rows, add the bias. -/
def refOut (x : SX.Idx → EReal) (W : SW.Idx → EReal) (b : SB.Idx → EReal) : SX.Idx → EReal := fun j =>
  (∑ d : Fin 4096, rot (rowX x (j 0) (j 1)) d * W (ix2 (j 2) d)) + b (ix1 (j 2))

/-- The kernel's result: rotate the weights' rows, contract the activations' rows with them, add the bias. -/
def kerOut (x : SX.Idx → EReal) (W : SW.Idx → EReal) (b : SB.Idx → EReal) : SX.Idx → EReal := fun j =>
  (∑ d : Fin 4096, x (ix3 (j 0) (j 1) d) * rot (rowW W (j 2)) d) + b (ix1 (j 2))

end Cert.Spec

end
-- ==== Proof.SpecEq.lean ====
/-
  The two programs' whole-array results agree on real data.

  Row by row, both results are a dot product of a row of the activations with a row of the weights in which one of
  the two rows has been transformed by the twelve butterfly passes and the scale 2^-6.  The scaled transform is
  self-adjoint for the dot product of real vectors, so it may sit on either row; the bias is added to both unchanged
  and needs no finiteness.
-/
import proofs.«113425_j17712445129289_2_alg».proof.Proof.Spec
import proofs.«113425_j17712445129289_2_alg».proof.Proof.LibWalsh

noncomputable section

namespace Cert.Spec

open Idealize.ShloMosaic Idealize.ShloMosaic.ValueIdx

/-- The scale word 0x3C800000 is a finite pattern, so it denotes a real number (2^-6). -/
theorem scale_real : ∃ c : ℝ, scale = ((c : ℝ) : EReal) := by
  simp [scale, Ideal.ofBits, Ideal.ieee, -EReal.coe_mul]

/-- On real activations and weights the two programs' results agree: row by row, the scaled transform moves from
    the weights' row to the activations' row of the dot product; the bias is added on both sides unchanged. -/
theorem kerOut_eq_refOut (x : SX.Idx → EReal) (W : SW.Idx → EReal) (b : SB.Idx → EReal)
    (hx : ∀ j, ∃ r : ℝ, x j = ((r : ℝ) : EReal)) (hW : ∀ j, ∃ r : ℝ, W j = ((r : ℝ) : EReal)) :
    kerOut x W b = refOut x W b := by
  choose xr hxr using hx
  choose Wr hWr using hW
  obtain ⟨c, hc⟩ := scale_real
  have ex : x = fun j => ((xr j : ℝ) : EReal) := funext hxr
  have eW : W = fun j => ((Wr j : ℝ) : EReal) := funext hWr
  subst ex eW
  funext j
  have key := Walsh.dot_passes_ereal (n := 4096) (K := 12) (by norm_num)
    (fun d => xr (ix3 (j 0) (j 1) d)) (fun d => Wr (ix2 (j 2) d)) c
  unfold kerOut refOut rot rowX rowW
  dsimp only
  rw [hc]
  exact congrArg (· + b (ix1 (j 2))) key

end Cert.Spec

end
-- ==== Proof.LibFiniteEntry.lean ====
/-
  An extended real whose absolute value is below the float +infinity is a real number.

  A "every input is finite" precondition compares |v| = max(v, -v) with the f32 word 0x7F800000, which denotes
  +infinity. On the extended reals |v| < +inf fails exactly at v = +inf and at v = -inf (whose absolute value is
  +inf), so it holds exactly of the real numbers.
-/
import Idealize.ShloMosaic.PureOps.Ideal

noncomputable section

namespace Cert.FiniteEntry

open Idealize.ShloMosaic

/-- The f32 word 0x7F800000 is +infinity. -/
theorem ofBits_pos_inf : Ideal.ofBits .f32 0x7F800000#32 = ⊤ := by simp [Ideal.ofBits, Ideal.ieee]

/-- An extended real whose absolute value max(v, -v) is below the float +infinity is a real number. -/
theorem real_of_abs_lt {v : EReal}
    (h : Ideal.cmp .olt (max v (-v)) (Ideal.ofBits .f32 0x7F800000#32) = 1#1) : ∃ r : ℝ, v = r := by
  rw [ofBits_pos_inf] at h
  induction v using EReal.rec with
  | bot => simp [Ideal.cmp] at h
  | coe r => exact ⟨r, rfl⟩
  | top => simp [Ideal.cmp] at h

end Cert.FiniteEntry

end
-- ==== Proof.Finite.lean ====
/-
  From the certificate's precondition to "every entry of the activations and of the weights is a real number".

  The precondition is the conjunction of three tests "all |entry| < +inf", one per argument array, evaluated on
  extended reals.  A conjunction of one-bit words is 1 only if each is; an "all" (a reduction by AND over every
  axis) is 1 only if the comparison is 1 at every index; and |v| = max(v, -v) < +inf fails at both infinities, so
  it holds only of real numbers.  The bias array's test is not needed.
-/
import proofs.«113425_j17712445129289_2_alg».proof.Defs
import proofs.«113425_j17712445129289_2_alg».proof.Proof.Gen.Pre_finite_inputs
import proofs.«113425_j17712445129289_2_alg».proof.Proof.LibFiniteEntry
import Idealize.ShloMosaic.Lib.ReduceAll
import Idealize.ShloMosaic.Lib.ValueIdx

noncomputable section

namespace Cert.Finite

open Idealize.ShloMosaic

/-- The result of a reduction over all axes has exactly one index. -/
instance : Subsingleton Cert.Pre_finite_inputs.S_.Idx := ⟨fun _ _ => funext fun d => d.elim0⟩

/-- If the precondition "all |x| < +inf, all |W| < +inf, all |b| < +inf" evaluates to true on extended-real arrays,
    then every entry of x and every entry of W is a real number: the conjunction gives each "all", each "all" gives
    the comparison at every index, and |v| < +inf holds of an extended real only if it is real. -/
theorem real_of_pre (x : FVec Ideal Cert.Pre_finite_inputs.S4x2048x4096 .f32)
    (W : FVec Ideal Cert.Pre_finite_inputs.S4096x4096 .f32) (b : FVec Ideal Cert.Pre_finite_inputs.S4096 .f32)
    (h : Cert.Pre_finite_inputs.fn (F := Ideal) x W b = fun _ => 1#1) :
    (∀ j, ∃ r : ℝ, x j = ((r : ℝ) : EReal)) ∧ (∀ j, ∃ r : ℝ, W j = ((r : ℝ) : EReal)) := by
  have h0 := congrFun h ValueIdx.ix0
  dsimp only [Cert.Pre_finite_inputs.fn] at h0
  obtain ⟨h38, _⟩ := IntOp.andi_eq_one.1 h0
  obtain ⟨h3, h7⟩ := IntOp.andi_eq_one.1 h38
  constructor
  · intro j
    exact Cert.FiniteEntry.real_of_abs_lt (Host.reduce_andi_all _ _ _ _ _ h3 j)
  · intro j
    exact Cert.FiniteEntry.real_of_abs_lt (Host.reduce_andi_all _ _ _ _ _ h7 j)

end Cert.Finite

end
-- ==== Proof.LibRollStage.lean ====
/-
  A butterfly stage written with lane rolls and selects, read at an index.

  On a block of R rows of 4096 lanes a roll-and-select kernel computes, for the bit of weight 2^k,
      sign * y + partner,   sign = -1 where bit k of the lane number is set and 1 elsewhere,
                            partner = y rolled by 2^k where the bit is set, y rolled by 4096 - 2^k elsewhere.
  A roll by s moves lane i - s to lane i (around the end), so under the mask the partner is the lane 2^k to the left and
  elsewhere the lane 2^k to the right, neither of which wraps: this is the butterfly pass at bit k (LibWalshDef),
  row by row, over the extended reals (-1 * a + b = b - a and 1 * a + b = a + b hold for all extended reals).
-/
import proofs.«113425_j17712445129289_2_alg».proof.Proof.LibWalshDef
import Idealize.ShloMosaic.Lib.KernelVsHost
import Idealize.ShloMosaic.Lib.Pipeline.Value
import Idealize.ShloMosaic.Lib.ValueIdx
import Idealize.ShloMosaic.PureOps.Ideal.Laws
import Mathlib.Tactic

noncomputable section
namespace Cert.RollStage
open Idealize.ShloMosaic Idealize.ShloMosaic.ValueIdx

/-- The f32 word 0x3F800000 is 1. -/
theorem ofBits_one : Ideal.ofBits .f32 0x3F800000#32 = 1 := by
  simp [Ideal.ofBits, Ideal.ieee]
  rw [← EReal.coe_mul, ← EReal.coe_one]
  exact congrArg _ (by norm_num)

/-- The f32 word 0xBF800000 is -1. -/
theorem ofBits_neg_one : Ideal.ofBits .f32 0xBF800000#32 = -1 := by
  simp [Ideal.ofBits, Ideal.ieee]
  rw [← EReal.coe_mul, ← EReal.coe_one]
  exact congrArg _ (by norm_num)

variable {R : ℕ}

/-- The mask "bit of the column number is set", for the bit whose weight is the word hw. -/
def bitMask (hi : (⟨2, ![R, 4096]⟩ : Shape).Iotas .tc 32 [1]) (hw : BitVec 32) : IVec ⟨2, ![R, 4096]⟩ 1 :=
  cmpi .ne (andi (iota .tc ⟨2, ![R, 4096]⟩ 32 [1] hi) (broadcast ⟨2, ![R, 4096]⟩ hw)) (broadcast ⟨2, ![R, 4096]⟩ 0#32)

/-- One butterfly stage as a roll-and-select kernel writes it on an [R, 4096] block: with the mask m of the bit,
    sign * y + partner, where sign is -1 under the mask and 1 elsewhere, and partner is y rolled by hw under the mask
    (the entry 2^k to the left) and y rolled by sp = 4096 - 2^k elsewhere (the entry 2^k to the right). -/
def kstage (hi : (⟨2, ![R, 4096]⟩ : Shape).Iotas .tc 32 [1]) (hr : (⟨2, ![R, 4096]⟩ : Shape).Rotates 1 none)
    (hw sp : BitVec 32) (y : FVec Ideal ⟨2, ![R, 4096]⟩ .f32) : FVec Ideal ⟨2, ![R, 4096]⟩ .f32 :=
  addf (mulf (select (bitMask hi hw)
        (broadcast ⟨2, ![R, 4096]⟩ (Scalar.ofBits (F := Ideal) .f32 0xBF800000#32))
        (broadcast ⟨2, ![R, 4096]⟩ (Scalar.ofBits (F := Ideal) .f32 0x3F800000#32))) y)
    (select (bitMask hi hw) (dynamicRotate 1 hw none y hr) (dynamicRotate 1 sp none y hr))

/-- The stage at (r, i) is the butterfly pass at bit k of row r: y(r,i) + y(r, i + 2^k) where bit k of i is clear,
    y(r, i - 2^k) - y(r,i) where it is set. The two facts about the partner position and the reading of the mask's
    word are hypotheses. -/
theorem kstage_apply (k : ℕ) (hk : k < 12) (hw sp : BitVec 32) (hhw : hw.toNat = 2 ^ k) (hsp : sp.toNat = 4096 - 2 ^ k)
    (hadd : ∀ i : Fin 4096, i.val.testBit k = false → (Walsh.flip 4096 k i).val = i.val + 2 ^ k)
    (hsub : ∀ i : Fin 4096, i.val.testBit k = true → (Walsh.flip 4096 k i).val + 2 ^ k = i.val)
    (hsel : ∀ (i : ℕ) (a b : EReal), i < 4096 →
      Scalar.select (IntOp.cmpi .ne (IntOp.andi (BitVec.ofNat 32 i) hw) 0#32) a b = if i.testBit k then a else b)
    (hi : (⟨2, ![R, 4096]⟩ : Shape).Iotas .tc 32 [1]) (hr : (⟨2, ![R, 4096]⟩ : Shape).Rotates 1 none)
    (y : FVec Ideal ⟨2, ![R, 4096]⟩ .f32) (v : Fin 4096 → EReal) (r : Fin R) (hrow : ∀ d, y (ix2 r d) = v d) (i : Fin 4096) :
    kstage hi hr hw sp y (ix2 r i) = Walsh.pass k v i := by
  have h2 : 2 ^ k < 4096 := by
    calc 2 ^ k < 2 ^ 12 := Nat.pow_lt_pow_right (by norm_num) hk
      _ = 4096 := by norm_num
  have h1 : 1 ≤ 2 ^ k := Nat.one_le_two_pow
  have hiota : iota .tc ⟨2, ![R, 4096]⟩ 32 [1] hi (ix2 r i) = BitVec.ofNat 32 i.val :=
    iota_single_apply .tc _ 32 1 hi (ix2 r i)
  show Scalar.select (IntOp.cmpi .ne (IntOp.andi (iota .tc ⟨2, ![R, 4096]⟩ 32 [1] hi (ix2 r i)) hw) 0#32)
        (Ideal.ofBits .f32 0xBF800000#32) (Ideal.ofBits .f32 0x3F800000#32) * y (ix2 r i)
      + Scalar.select (IntOp.cmpi .ne (IntOp.andi (iota .tc ⟨2, ![R, 4096]⟩ 32 [1] hi (ix2 r i)) hw) 0#32)
        (dynamicRotate 1 hw none y hr (ix2 r i)) (dynamicRotate 1 sp none y hr (ix2 r i)) = _
  rw [hiota, hsel _ _ _ i.isLt, hsel _ _ _ i.isLt, ofBits_one, ofBits_neg_one, hrow i]
  unfold Walsh.pass
  by_cases hb : i.val.testBit k = true
  · rw [if_pos hb, if_pos hb, if_pos hb]
    have hs := hsub i hb
    have hlt := (Walsh.flip 4096 k i).isLt
    rw [dynamicRotate_apply (1 : Fin 2) hw y hr (ix2 r i) (ix2 r (Walsh.flip 4096 k i)) (by
      intro b
      match b with
      | ⟨0, _⟩ => rfl
      | ⟨1, _⟩ =>
        show (Walsh.flip 4096 k i).val = (i.val + 4096 - hw.toNat % 4096) % 4096
        rw [hhw]; generalize 2 ^ k = H at *; omega), hrow]
    rw [neg_one_mul, sub_eq_add_neg, add_comm]
  · have hb' : i.val.testBit k = false := by simpa using hb
    rw [if_neg hb, if_neg hb, if_neg hb]
    have ha := hadd i hb'
    have hlt := (Walsh.flip 4096 k i).isLt
    rw [dynamicRotate_apply (1 : Fin 2) sp y hr (ix2 r i) (ix2 r (Walsh.flip 4096 k i)) (by
      intro b
      match b with
      | ⟨0, _⟩ => rfl
      | ⟨1, _⟩ =>
        show (Walsh.flip 4096 k i).val = (i.val + 4096 - sp.toNat % 4096) % 4096
        rw [hsp]; generalize 2 ^ k = H at *; omega), hrow]
    rw [one_mul]

end Cert.RollStage
end
-- ==== Proof.LibBitWord.lean ====
/-
  Testing one bit of a column number on 32-bit words.

  The bit k of a number i < 2^32 is set exactly when the bitwise AND of the word of i with the word 2^k is not the
  zero word: the AND keeps bit k of i and clears every other bit.
-/
import Idealize.ShloMosaic.PureOps
import Mathlib.Tactic

namespace Cert.BitWord

open Idealize.ShloMosaic

/-- The AND of i with 2^k vanishes exactly when bit k of i is clear. -/
theorem and_two_pow_eq_zero_iff (i k : ℕ) : i &&& 2 ^ k = 0 ↔ i.testBit k = false := by
  constructor
  · intro h
    have h' := congrArg (fun x => x.testBit k) h
    simpa [Nat.testBit_and, Nat.testBit_two_pow_self] using h'
  · intro h
    apply Nat.eq_of_testBit_eq
    intro j
    rw [Nat.testBit_and, Nat.testBit_two_pow, Nat.zero_testBit]
    by_cases hj : k = j
    · subst hj; simp [h]
    · simp [hj]

/-- On 32-bit words, (i AND 2^k) ≠ 0 is the truth value of bit k of i. -/
theorem ne_zero_word (i k : ℕ) (hi : i < 2 ^ 32) (hk : k < 32) (h : BitVec 32) (hh : h.toNat = 2 ^ k) :
    IntOp.cmpi .ne (IntOp.andi (BitVec.ofNat 32 i) h) 0#32 = BitVec.ofBool (i.testBit k) := by
  have _ := hk
  have hz : (BitVec.ofNat 32 i &&& h = 0#32) ↔ i.testBit k = false := by
    have hi' : i % 4294967296 = i := by omega
    rw [← and_two_pow_eq_zero_iff, ← BitVec.toNat_inj]
    simp [BitVec.toNat_and, BitVec.toNat_ofNat, hi', hh]
  unfold IntOp.cmpi IntOp.andi
  congr 1
  cases hb : i.testBit k
  · have e := hz.2 hb
    simp [e]
  · have e : BitVec.ofNat 32 i &&& h ≠ 0#32 := fun e => by
      have := hz.1 e
      simp [hb] at this
    simp [e]

/-- Selecting on that test is selecting on bit k of i. -/
theorem select_word_of_testBit {α : Type} (i k : ℕ) (hi : i < 2 ^ 32) (hk : k < 32) (h : BitVec 32)
    (hh : h.toNat = 2 ^ k) (a b : α) :
    Scalar.select (IntOp.cmpi .ne (IntOp.andi (BitVec.ofNat 32 i) h) 0#32) a b
      = if i.testBit k then a else b := by
  rw [ne_zero_word i k hi hk h hh]
  unfold Scalar.select
  cases i.testBit k <;> simp

end Cert.BitWord
-- ==== Proof.KerBody0.lean ====
/-
  The rotation kernel's body, row by row.

  The body loads its [256, 4096] block, applies twelve roll-and-select butterfly stages at the bits 0 … 11 of the lane
  number (weights 1, 2, …, 2048; the complementary roll amounts 4095, 4094, …, 2048), multiplies by 2^-6 and stores the
  result (the change of format is the identity over the extended reals).  Each stage is the butterfly pass at its bit,
  row by row (LibRollStage), so row r of the stored block is the rotated row r of the loaded block.
-/
import proofs.«113425_j17712445129289_2_alg».proof.Proof.Gen.KernelIdeal.Frame
import proofs.«113425_j17712445129289_2_alg».proof.Proof.LibRollStage
import proofs.«113425_j17712445129289_2_alg».proof.Proof.LibBitWord
import proofs.«113425_j17712445129289_2_alg».proof.Proof.LibWalsh
import proofs.«113425_j17712445129289_2_alg».proof.Proof.Spec
import Idealize.ShloMosaic.Lib.Pipeline.Value
import Idealize.ShloMosaic.Lib.ValueIdx

noncomputable section

namespace Cert.KerRot

open Cert.KernelIdeal Cert.KernelIdeal.Gen Idealize.ShloMosaic Idealize.ShloMosaic.ValueIdx
  Idealize.ShloMosaic.Pipeline Cert.RollStage

/-- The two zero offsets of a whole-block access. -/
theorem zeros2 : (![0, 0] : Fin 2 → ℕ) = fun _ => 0 :=
  funext fun a => match a with | ⟨0, _⟩ => rfl | ⟨1, _⟩ => rfl

/-- One stage on this kernel's block shape. -/
abbrev st (hw sp : BitVec 32) (y : FVec Ideal S256x4096 .f32) : FVec Ideal S256x4096 .f32 :=
  kstage (R := 256) Facts₀.iota_S256x4096_d1_w32 Facts₀.rotates_S256x4096_d1 hw sp y

/-- The twelve stages, bit 0 first. -/
def twelve (x0 : FVec Ideal S256x4096 .f32) : FVec Ideal S256x4096 .f32 :=
  st 2048#32 2048#32 (st 1024#32 3072#32 (st 512#32 3584#32 (st 256#32 3840#32 (st 128#32 3968#32 (st 64#32 4032#32
    (st 32#32 4064#32 (st 16#32 4080#32 (st 8#32 4088#32 (st 4#32 4092#32 (st 2#32 4094#32 (st 1#32 4095#32 x0)))))))))))

set_option maxRecDepth 65536 in
/-- The stored value is the twelve stages of the loaded block, times the scale. -/
theorem payload_eq (x0 : Vec Ideal S256x4096 .f32) :
    k0_pay1 (F := Ideal) (iota .tc S256x4096 32 [1] Facts₀.iota_S256x4096_d1_w32)
        (k0_pay5 (iota .tc S256x4096 32 [1] Facts₀.iota_S256x4096_d1_w32) (k0_pay3 (iota .tc S256x4096 32 [1] Facts₀.iota_S256x4096_d1_w32) (k0_pay2 x0) 8#32) (k0_pay4 (iota .tc S256x4096 32 [1] Facts₀.iota_S256x4096_d1_w32)) 4032#32)
        (k0_pay6 (iota .tc S256x4096 32 [1] Facts₀.iota_S256x4096_d1_w32))
        (k0_pay7 (iota .tc S256x4096 32 [1] Facts₀.iota_S256x4096_d1_w32) (k0_pay3 (iota .tc S256x4096 32 [1] Facts₀.iota_S256x4096_d1_w32) (k0_pay2 x0) 8#32) (k0_pay4 (iota .tc S256x4096 32 [1] Facts₀.iota_S256x4096_d1_w32)) 4032#32)
        (k0_pay8 (iota .tc S256x4096 32 [1] Facts₀.iota_S256x4096_d1_w32) (k0_pay3 (iota .tc S256x4096 32 [1] Facts₀.iota_S256x4096_d1_w32) (k0_pay2 x0) 8#32) (k0_pay4 (iota .tc S256x4096 32 [1] Facts₀.iota_S256x4096_d1_w32)) 4032#32)
        (Scalar.ofBits .f32 0x3F800000#32) (k0_pay9 (F := Ideal))
      = truncf .bf16 (mulf (twelve x0) (broadcast S256x4096 (Scalar.ofBits (F := Ideal) .f32 0x3C800000#32))) Facts₀.bitsLt_bf16_f32 := rfl

/-- The twelve stages at (r, i) are the twelve passes of row r. -/
theorem twelve_apply (x0 : FVec Ideal S256x4096 .f32) (r : Fin 256) (i : Fin 4096) :
    twelve x0 (ix2 r i) = Walsh.passes 12 (fun d => x0 (ix2 r d)) i := by
  have A : ∀ k, k < 12 → ∀ i : Fin 4096, i.val.testBit k = false → (Walsh.flip 4096 k i).val = i.val + 2 ^ k :=
    fun k hk => Walsh.flip_val_add (n := 4096) (K := 12) (by norm_num) hk
  have S : ∀ k, k < 12 → ∀ i : Fin 4096, i.val.testBit k = true → (Walsh.flip 4096 k i).val + 2 ^ k = i.val :=
    fun k hk => Walsh.flip_val_sub (n := 4096) (K := 12) (by norm_num) hk
  have SEL : ∀ (k : ℕ), k < 12 → ∀ (hw : BitVec 32), hw.toNat = 2 ^ k → ∀ (i : ℕ) (a b : EReal), i < 4096 →
      Scalar.select (IntOp.cmpi .ne (IntOp.andi (BitVec.ofNat 32 i) hw) 0#32) a b = if i.testBit k then a else b :=
    fun k hk hw hh i a b hi => Cert.BitWord.select_word_of_testBit i k (by omega) (by omega) hw hh a b
  show twelve x0 (ix2 r i) = Walsh.pass 11 (Walsh.pass 10 (Walsh.pass 9 (Walsh.pass 8 (Walsh.pass 7 (Walsh.pass 6
    (Walsh.pass 5 (Walsh.pass 4 (Walsh.pass 3 (Walsh.pass 2 (Walsh.pass 1 (Walsh.pass 0 (fun d => x0 (ix2 r d))))))))))))) i
  unfold twelve st
  refine kstage_apply 11 (by norm_num) _ _ rfl rfl (A 11 (by norm_num)) (S 11 (by norm_num)) (SEL 11 (by norm_num) _ rfl) _ _ _ _ r (fun d => ?_) i
  refine kstage_apply 10 (by norm_num) _ _ rfl rfl (A 10 (by norm_num)) (S 10 (by norm_num)) (SEL 10 (by norm_num) _ rfl) _ _ _ _ r (fun d => ?_) d
  refine kstage_apply 9 (by norm_num) _ _ rfl rfl (A 9 (by norm_num)) (S 9 (by norm_num)) (SEL 9 (by norm_num) _ rfl) _ _ _ _ r (fun d => ?_) d
  refine kstage_apply 8 (by norm_num) _ _ rfl rfl (A 8 (by norm_num)) (S 8 (by norm_num)) (SEL 8 (by norm_num) _ rfl) _ _ _ _ r (fun d => ?_) d
  refine kstage_apply 7 (by norm_num) _ _ rfl rfl (A 7 (by norm_num)) (S 7 (by norm_num)) (SEL 7 (by norm_num) _ rfl) _ _ _ _ r (fun d => ?_) d
  refine kstage_apply 6 (by norm_num) _ _ rfl rfl (A 6 (by norm_num)) (S 6 (by norm_num)) (SEL 6 (by norm_num) _ rfl) _ _ _ _ r (fun d => ?_) d
  refine kstage_apply 5 (by norm_num) _ _ rfl rfl (A 5 (by norm_num)) (S 5 (by norm_num)) (SEL 5 (by norm_num) _ rfl) _ _ _ _ r (fun d => ?_) d
  refine kstage_apply 4 (by norm_num) _ _ rfl rfl (A 4 (by norm_num)) (S 4 (by norm_num)) (SEL 4 (by norm_num) _ rfl) _ _ _ _ r (fun d => ?_) d
  refine kstage_apply 3 (by norm_num) _ _ rfl rfl (A 3 (by norm_num)) (S 3 (by norm_num)) (SEL 3 (by norm_num) _ rfl) _ _ _ _ r (fun d => ?_) d
  refine kstage_apply 2 (by norm_num) _ _ rfl rfl (A 2 (by norm_num)) (S 2 (by norm_num)) (SEL 2 (by norm_num) _ rfl) _ _ _ _ r (fun d => ?_) d
  refine kstage_apply 1 (by norm_num) _ _ rfl rfl (A 1 (by norm_num)) (S 1 (by norm_num)) (SEL 1 (by norm_num) _ rfl) _ _ _ _ r (fun d => ?_) d
  exact kstage_apply 0 (by norm_num) _ _ rfl rfl (A 0 (by norm_num)) (S 0 (by norm_num)) (SEL 0 (by norm_num) _ rfl) _ _ _ _ r (fun _ => rfl) d

/-- The output staging buffer after the body: row r is the rotated row r of the input block. -/
theorem out0_1_apply (x0 : Vec Ideal S256x4096 .f32) (r : Fin 256) (i : Fin 4096) :
    out0_1 (F := Ideal) x0 (ix2 r i) = Cert.Spec.rot (fun d => x0 (ix2 r d)) i := by
  unfold out0_1
  rw [View.canon_unit_zero zeros2]
  simp only [View.ld_unit_zero (S := S256x4096) zeros2]
  refine (congrFun (payload_eq x0) (ix2 r i)).trans ?_
  show twelve x0 (ix2 r i) * Ideal.ofBits .f32 0x3C800000#32 = Walsh.passes 12 (fun d => x0 (ix2 r d)) i * Cert.Spec.scale
  rw [twelve_apply]
  rfl

end Cert.KerRot

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.KerBody1.lean ====
/-
  The matmul kernel's body at an entry.

  Its one store writes  (x-block · (rotated-W block)ᵀ) + bias row:  the matrix product contracts the last axis of
  both operands into the zero accumulator, the change of format on the left operand is the identity over the extended
  reals, and the [1,512] bias row is spread over the 512 rows.  So the output block's entry (p, q) is
      (sum_k xblock(p,k) * wblock(q,k)) + biasblock(0,q).
-/
import proofs.«113425_j17712445129289_2_alg».proof.Proof.Gen.KernelIdeal.Frame
import proofs.«113425_j17712445129289_2_alg».proof.Proof.LibMatmulNT
import Idealize.ShloMosaic.Lib.Pipeline.Value
import Idealize.ShloMosaic.Lib.ValueIdx

noncomputable section

open scoped BigOperators

namespace Cert.KerBody

open Cert.KernelIdeal Cert.KernelIdeal.Gen Idealize.ShloMosaic Idealize.ShloMosaic.ValueIdx Idealize.ShloMosaic.Pipeline

/-- The two zero offsets of a whole-block access. -/
theorem zeros2 : (![0, 0] : Fin 2 → ℕ) = fun _ => 0 :=
  funext fun a => match a with | ⟨0, _⟩ => rfl | ⟨1, _⟩ => rfl

/-- The stored value at (p, q): the dot product of row p of the x block with row q of the W block, plus the bias. -/
theorem pay1_apply (x0 : Vec Ideal S512x4096 .f32) (x1 : Vec Ideal S512x4096 .bf16) (x2 : Vec Ideal S1x512 .f32)
    (p q : Fin 512) :
    k1_pay1 (F := Ideal) x0 x1 x2 (ix2 p q)
      = (∑ k : Fin 4096, x0 (ix2 p k) * x1 (ix2 q k)) + x2 (ix2 (0 : Fin 1) q) := by
  unfold k1_pay1
  refine congrArg₂ (· + ·) ?_ ?_
  · refine (Cert.LibMatmulNT.matmul_nt_zero_apply _ rfl none _ _ p q).trans ?_
    refine Finset.sum_congr rfl fun k _ => ?_
    refine congrArg₂ (· * ·) ?_ ?_
    · exact congrFun (shapeCast_self x0 _) (ix2 p k)
    · exact congrFun (shapeCast_self x1 _) (ix2 q k)
  · refine (broadcastTo_apply _ _ (ix2 p q) (ix2 (0 : Fin 1) q) (fun a => ?_)).trans ?_
    · match a with
      | ⟨0, _⟩ => rfl
      | ⟨1, _⟩ => rfl
    · exact congrFun (shapeCast_self x2 _) (ix2 (0 : Fin 1) q)

/-- The output staging buffer after the body, at (p, q). -/
theorem out1_3_apply (x0 : Vec Ideal S512x4096 .f32) (x1 : Vec Ideal S512x4096 .bf16) (x2 : Vec Ideal S1x512 .f32)
    (p q : Fin 512) :
    out1_3 (F := Ideal) x0 x1 x2 (ix2 p q)
      = (∑ k : Fin 4096, x0 (ix2 p k) * x1 (ix2 q k)) + x2 (ix2 (0 : Fin 1) q) := by
  unfold out1_3
  rw [View.canon_unit_zero zeros2]
  simp only [View.ld_unit_zero (S := S512x4096) zeros2, View.ld_unit_zero (S := S1x512) zeros2]
  exact pay1_apply x0 x1 x2 p q

end Cert.KerBody

end
-- ==== Proof.KerValue.lean ====
/-
  The kernel's run read as a value: from the blocks each grid point writes back to the whole arrays, through both
  regions and the reshapes between them.

  Region 0 walks the weights in 16 blocks of 256 whole rows and writes back, for each row, its transformed row; region 1
  walks the [8192, 4096] activations in 16 row blocks of 512 and the transformed weights in 8 row blocks of 512 and writes
  back the [512, 512] block of dot products of the rows plus the bias block.  The arithmetic of the two bodies enters
  only through two hypotheses: what region 0's body makes of one row, and what region 1's body makes of one entry.
-/
import proofs.«113425_j17712445129289_2_alg».proof.Proof.Gen.KernelIdeal.Frame
import proofs.«113425_j17712445129289_2_alg».proof.Proof.Spec
import proofs.«113425_j17712445129289_2_alg».proof.Proof.LibWalshDef
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KerSide

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

/-! ## The run, with the result array named -/

section Run

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every weakly fair execution of @main terminates without a fault, the result buffer ends at the last boundary's
    contents `W4` and the three arguments end as launched. -/
theorem run_named : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Run

/-! ## Region 1: from the blocks to the array -/

section Region1

variable (V : (c : Dev nD) → (b : Ref sig .tc) → Buf (Elt Ideal) ((c : Thread nD τ).loc b))

/-- Region 1's whole result as a function of its three arrays: entry (r, o) is row r of the activations against row o
    of the transformed weights, plus entry o of the bias row. -/
def G1 (X : S8192x4096.Idx → EReal) (Wr : S4096x4096.Idx → EReal) (B : S1x4096.Idx → EReal) : S8192x4096.Idx → EReal :=
  fun j => (∑ k : Fin 4096, X (ix2 (j 0 : Fin 8192) k) * Wr (ix2 (j 1 : Fin 4096) k)) + B (ix2 (0 : Fin 1) (j 1 : Fin 4096))

theorem G1_apply (X : S8192x4096.Idx → EReal) (Wr : S4096x4096.Idx → EReal) (B : S1x4096.Idx → EReal) (r : Fin 8192) (o : Fin 4096) :
    G1 X Wr B (ix2 r o) = (∑ k : Fin 4096, X (ix2 r k) * Wr (ix2 o k)) + B (ix2 (0 : Fin 1) o) := rfl

/-- The block indices of region 1's four windows at grid point t = 8·a + b: the activations' row block a, the
    transformed weights' row block b, the bias' column block b, the result's block (a, b). -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = t.val % 8 :=
  (by decide +kernel : ∀ t : Fin grid1.N, _)

/-- One entry of the body's result at a point whose blocks sit at row block a of the activations and row block b of
    the transformed weights: the blocks' entries are the arrays' entries at the shifted coordinates, so the entry is
    the whole result's. -/
theorem point1
    (h1 : ∀ (x0 : Vec Ideal S512x4096 .f32) (x1 : Vec Ideal S512x4096 .bf16) (x2 : Vec Ideal S1x512 .f32) (p q : Fin 512),
      Gen.out1_3 (F := Ideal) x0 x1 x2 (ix2 p q) = (∑ k : Fin 4096, x0 (ix2 p k) * x1 (ix2 q k)) + x2 (ix2 (0 : Fin 1) q))
    (x0 : Vec Ideal S512x4096 .f32) (x1 : Vec Ideal S512x4096 .bf16) (x2 : Vec Ideal S1x512 .f32)
    (X : S8192x4096.Idx → EReal) (Wr : S4096x4096.Idx → EReal) (B : S1x4096.Idx → EReal) (a b : ℕ)
    (hx0 : ∀ (y : S512x4096.Idx) (i : S8192x4096.Idx), (i 0).val = a * 512 + (y 0).val → (i 1).val = (y 1).val → x0 y = X i)
    (hx1 : ∀ (y : S512x4096.Idx) (i : S4096x4096.Idx), (i 0).val = b * 512 + (y 0).val → (i 1).val = (y 1).val → x1 y = Wr i)
    (hx2 : ∀ (y : S1x512.Idx) (i : S1x4096.Idx), (i 1).val = b * 512 + (y 1).val → x2 y = B i)
    (y : S512x512.Idx) (j : S8192x4096.Idx) (hj0 : (j 0).val = a * 512 + (y 0).val) (hj1 : (j 1).val = b * 512 + (y 1).val) :
    Gen.out1_3 (F := Ideal) x0 x1 x2 y = G1 X Wr B j := by
  obtain ⟨p, q, rfl⟩ : ∃ (p : Fin 512) (q : Fin 512), y = ix2 p q := ⟨y 0, y 1, eq_ix2 y⟩
  obtain ⟨r, o, rfl⟩ : ∃ (r : Fin 8192) (o : Fin 4096), j = ix2 r o := ⟨j 0, j 1, eq_ix2 j⟩
  rw [h1 x0 x1 x2 p q, G1_apply]
  have hs : ∀ k : Fin 4096, x0 (ix2 p k) * x1 (ix2 q k) = X (ix2 r k) * Wr (ix2 o k) := fun k => by
    rw [hx0 (ix2 p k) (ix2 r k) hj0 rfl, hx1 (ix2 q k) (ix2 o k) hj1 rfl]
  rw [Finset.sum_congr rfl fun k _ => hs k, hx2 (ix2 (0 : Fin 1) q) (ix2 (0 : Fin 1) o) hj1]

/-- An entry of the activations' block at point t is the array's entry 512 · (block index) rows further down. -/
theorem iblk1_0_apply (c : Dev nD) (t : Fin cfg1.N) (y : S512x4096.Idx) (i : S8192x4096.Idx)
    (h0 : (i 0).val = win1_0.index t (0 : Fin 2) * 512 + (y 0).val) (h1 : (i 1).val = win1_0.index t (1 : Fin 2) * 4096 + (y 1).val) :
    (iblk1 V c 0 t : Vec Ideal S512x4096 .f32) y = (V c main_v1 : S8192x4096.Idx → EReal) i := by
  unfold iblk1
  rw [View.read_apply]
  show (V c main_v1 : S8192x4096.Idx → EReal) (((cfg1.win 0).blk t).view.emb y) = V c main_v1 i
  refine congrArg (V c main_v1 : S8192x4096.Idx → EReal) ?_
  funext a
  apply Fin.ext
  match a with
  | ⟨0, _⟩ => show win1_0.index t (0 : Fin 2) * 512 + 1 * (y 0).val = (i 0).val; omega
  | ⟨1, _⟩ => show win1_0.index t (1 : Fin 2) * 4096 + 1 * (y 1).val = (i 1).val; omega

/-- An entry of the transformed weights' block at point t, likewise. -/
theorem iblk1_1_apply (c : Dev nD) (t : Fin cfg1.N) (y : S512x4096.Idx) (i : S4096x4096.Idx)
    (h0 : (i 0).val = win1_1.index t (0 : Fin 2) * 512 + (y 0).val) (h1 : (i 1).val = win1_1.index t (1 : Fin 2) * 4096 + (y 1).val) :
    (iblk1 V c 1 t : Vec Ideal S512x4096 .bf16) y = (V c main_v0 : S4096x4096.Idx → EReal) i := by
  unfold iblk1
  rw [View.read_apply]
  show (V c main_v0 : S4096x4096.Idx → EReal) (((cfg1.win 1).blk t).view.emb y) = V c main_v0 i
  refine congrArg (V c main_v0 : S4096x4096.Idx → EReal) ?_
  funext a
  apply Fin.ext
  match a with
  | ⟨0, _⟩ => show win1_1.index t (0 : Fin 2) * 512 + 1 * (y 0).val = (i 0).val; omega
  | ⟨1, _⟩ => show win1_1.index t (1 : Fin 2) * 4096 + 1 * (y 1).val = (i 1).val; omega

/-- An entry of the bias row's block at point t, likewise (its one row is the array's one row). -/
theorem iblk1_2_apply (c : Dev nD) (t : Fin cfg1.N) (y : S1x512.Idx) (i : S1x4096.Idx)
    (h0 : (i 0).val = win1_2.index t (0 : Fin 2) * 1 + (y 0).val) (h1 : (i 1).val = win1_2.index t (1 : Fin 2) * 512 + (y 1).val) :
    (iblk1 V c 2 t : Vec Ideal S1x512 .f32) y = (V c main_v2 : S1x4096.Idx → EReal) i := by
  unfold iblk1
  rw [View.read_apply]
  show (V c main_v2 : S1x4096.Idx → EReal) (((cfg1.win 2).blk t).view.emb y) = V c main_v2 i
  refine congrArg (V c main_v2 : S1x4096.Idx → EReal) ?_
  funext a
  apply Fin.ext
  match a with
  | ⟨0, _⟩ => show win1_2.index t (0 : Fin 2) * 1 + 1 * (y 0).val = (i 0).val; omega
  | ⟨1, _⟩ => show win1_2.index t (1 : Fin 2) * 512 + 1 * (y 1).val = (i 1).val; omega

/-- What point t writes back is block t of `G1` of the arrays as the region finds them. -/
theorem flushed1_eq
    (h1 : ∀ (x0 : Vec Ideal S512x4096 .f32) (x1 : Vec Ideal S512x4096 .bf16) (x2 : Vec Ideal S1x512 .f32) (p q : Fin 512),
      Gen.out1_3 (F := Ideal) x0 x1 x2 (ix2 p q) = (∑ k : Fin 4096, x0 (ix2 p k) * x1 (ix2 q k)) + x2 (ix2 (0 : Fin 1) q))
    (c : Dev nD) (t : Fin cfg1.N) :
    (dat1 V c).flushed 3 t = ((cfg1.win 3).blk t).view.read (Elt Ideal) (G1 (V c main_v1) (V c main_v0) (V c main_v2)) := by
  show (cfg1.win 3).cut (grid1.coords t) ((dat1 V c).after 3 t) = _
  rw [after1_3]
  obtain ⟨e00, e01, e10, e11, e20, e21, e30, e31⟩ := idx_facts1 t
  funext y
  show out1_3 (iblk1 V c 0 t) (iblk1 V c 1 t) (iblk1 V c 2 t) ((cfg1.win 3).xinj (grid1.coords t) y)
    = G1 (V c main_v1) (V c main_v0) (V c main_v2) (((cfg1.win 3).blk t).view.emb y)
  have hy0 : (y 0).val < 512 := (y 0).isLt
  have hy1 : (y 1).val < 512 := (y 1).isLt
  refine point1 h1 (iblk1 V c 0 t) (iblk1 V c 1 t) (iblk1 V c 2 t) (V c main_v1) (V c main_v0) (V c main_v2)
    (t.val / 8) (t.val % 8)
    (fun y' i h0 h1' => iblk1_0_apply V c t y' i (by omega) (by omega))
    (fun y' i h0 h1' => iblk1_1_apply V c t y' i (by omega) (by omega))
    (fun y' i h1' => iblk1_2_apply V c t y' i (by have hi : (i 0).val < 1 := (i 0).isLt; have hy : (y' 0).val < 1 := (y' 0).isLt; omega) (by omega))
    ((cfg1.win 3).xinj (grid1.coords t) y) (((cfg1.win 3).blk t).view.emb y) ?_ ?_
  · show win1_3.index t (0 : Fin 2) * 512 + 1 * (y 0).val = t.val / 8 * 512 + (y 0).val; omega
  · show win1_3.index t (1 : Fin 2) * 512 + 1 * (y 1).val = t.val % 8 * 512 + (y 1).val; omega

/-- An index of the result array is in point t's block iff each coordinate is in the block's range on its axis. -/
theorem mem_blk1 (t : Fin cfg1.N) (i : S8192x4096.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v3).slice (win1_3.rect t)).set ↔ _
  rw [View.set_slice_whole, Rect.mem_set_unit]
  exact Iff.rfl

/-- Every entry (r, o) of the result is in the block of the point 8 · (r / 512) + o / 512. -/
theorem cover1 (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  let t : Fin cfg1.N := ⟨(i 0).val / 512 * 8 + (i 1).val / 512, by rw [hN]; omega⟩
  have ht : t.val = (i 0).val / 512 * 8 + (i 1).val / 512 := rfl
  obtain ⟨e00, e01, e10, e11, e20, e21, e30, e31⟩ := idx_facts1 t
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- Region 1's result array after its grid is `G1` of the arrays as the region finds them. -/
theorem final1
    (h1 : ∀ (x0 : Vec Ideal S512x4096 .f32) (x1 : Vec Ideal S512x4096 .bf16) (x2 : Vec Ideal S1x512 .f32) (p q : Fin 512),
      Gen.out1_3 (F := Ideal) x0 x1 x2 (ix2 p q) = (∑ k : Fin 4096, x0 (ix2 p k) * x1 (ix2 q k)) + x2 (ix2 (0 : Fin 1) q))
    (c : Dev nD) : (dat1 V c).arrAt 3 cfg1.N = G1 (V c main_v1) (V c main_v0) (V c main_v2) :=
  (dat1 V c).arrAt_eq_of_cover 3 (G1 (V c main_v1) (V c main_v0) (V c main_v2)) (fun t _ => flushed1_eq V h1 c t) cover1

end Region1

/-! ## Region 0: from the blocks to the array -/

section Region0

variable (V : (c : Dev nD) → (b : Ref sig .tc) → Buf (Elt Ideal) ((c : Thread nD τ).loc b))
-- what the body makes of one row: the transform of rows, a parameter here
variable (T : (Fin 4096 → EReal) → Fin 4096 → EReal)

/-- Region 0's whole result: row o is the transform of row o of the weights. -/
def G0 (Wt : S4096x4096.Idx → EReal) : S4096x4096.Idx → EReal :=
  fun j => T (fun d => Wt (ix2 (j 0 : Fin 4096) d)) (j 1 : Fin 4096)

theorem G0_apply (Wt : S4096x4096.Idx → EReal) (o d : Fin 4096) : G0 T Wt (ix2 o d) = T (fun d' => Wt (ix2 o d')) d := rfl

/-- Both windows of region 0 sit at row block t at grid point t. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- One entry of the body's result at a point whose block is row block a: a block holds whole rows, so row r of the block
    is row 256 · a + r of the array, and the entry is the whole result's. -/
theorem point0
    (h0 : ∀ (x0 : Vec Ideal S256x4096 .f32) (r : Fin 256) (i : Fin 4096),
      Gen.out0_1 (F := Ideal) x0 (ix2 r i) = T (fun d => x0 (ix2 r d)) i)
    (x0 : Vec Ideal S256x4096 .f32) (Wt : S4096x4096.Idx → EReal) (a : ℕ)
    (hx0 : ∀ (y : S256x4096.Idx) (i : S4096x4096.Idx), (i 0).val = a * 256 + (y 0).val → (i 1).val = (y 1).val → x0 y = Wt i)
    (y : S256x4096.Idx) (j : S4096x4096.Idx) (hj0 : (j 0).val = a * 256 + (y 0).val) (hj1 : (j 1).val = (y 1).val) :
    Gen.out0_1 (F := Ideal) x0 y = G0 T Wt j := by
  obtain ⟨r, i, rfl⟩ : ∃ (r : Fin 256) (i : Fin 4096), y = ix2 r i := ⟨y 0, y 1, eq_ix2 y⟩
  obtain ⟨o, d, rfl⟩ : ∃ (o : Fin 4096) (d : Fin 4096), j = ix2 o d := ⟨j 0, j 1, eq_ix2 j⟩
  obtain rfl : d = i := Fin.ext hj1
  rw [h0 x0 r d, G0_apply]
  exact congrArg (fun v => T v d) (funext fun d' => hx0 (ix2 r d') (ix2 o d') hj0 rfl)

/-- An entry of the weights' block at point t is the array's entry 256 · (block index) rows further down. -/
theorem iblk0_0_apply (c : Dev nD) (t : Fin cfg0.N) (y : S256x4096.Idx) (i : S4096x4096.Idx)
    (h0 : (i 0).val = win0_0.index t (0 : Fin 2) * 256 + (y 0).val) (h1 : (i 1).val = win0_0.index t (1 : Fin 2) * 4096 + (y 1).val) :
    (iblk0 V c 0 t : Vec Ideal S256x4096 .f32) y = (V c main_arg1 : S4096x4096.Idx → EReal) i := by
  unfold iblk0
  rw [View.read_apply]
  show (V c main_arg1 : S4096x4096.Idx → EReal) (((cfg0.win 0).blk t).view.emb y) = V c main_arg1 i
  refine congrArg (V c main_arg1 : S4096x4096.Idx → EReal) ?_
  funext a
  apply Fin.ext
  match a with
  | ⟨0, _⟩ => show win0_0.index t (0 : Fin 2) * 256 + 1 * (y 0).val = (i 0).val; omega
  | ⟨1, _⟩ => show win0_0.index t (1 : Fin 2) * 4096 + 1 * (y 1).val = (i 1).val; omega

/-- What point t writes back is block t of `G0` of the weights as the region finds them. -/
theorem flushed0_eq
    (h0 : ∀ (x0 : Vec Ideal S256x4096 .f32) (r : Fin 256) (i : Fin 4096),
      Gen.out0_1 (F := Ideal) x0 (ix2 r i) = T (fun d => x0 (ix2 r d)) i)
    (c : Dev nD) (t : Fin cfg0.N) :
    (dat0 V c).flushed 1 t = ((cfg0.win 1).blk t).view.read (Elt Ideal) (G0 T (V c main_arg1)) := by
  show (cfg0.win 1).cut (grid0.coords t) ((dat0 V c).after 1 t) = _
  rw [after0_1]
  obtain ⟨e00, e01, e10, e11⟩ := idx_facts0 t
  funext y
  show out0_1 (iblk0 V c 0 t) ((cfg0.win 1).xinj (grid0.coords t) y)
    = G0 T (V c main_arg1) (((cfg0.win 1).blk t).view.emb y)
  refine point0 T h0 (iblk0 V c 0 t) (V c main_arg1) t.val
    (fun y' i h0' h1' => iblk0_0_apply V c t y' i (by omega) (by omega))
    ((cfg0.win 1).xinj (grid0.coords t) y) (((cfg0.win 1).blk t).view.emb y) ?_ ?_
  · show win0_1.index t (0 : Fin 2) * 256 + 1 * (y 0).val = t.val * 256 + (y 0).val; omega
  · show win0_1.index t (1 : Fin 2) * 4096 + 1 * (y 1).val = (y 1).val; omega

/-- An index of the result array is in point t's block iff each coordinate is in the block's range on its axis. -/
theorem mem_blk0 (t : Fin cfg0.N) (i : S4096x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Every row o of the result is in the block of the point o / 256. -/
theorem cover0 (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  have hN : cfg0.N = 16 := N_0
  let t : Fin cfg0.N := ⟨(i 0).val / 256, by rw [hN]; omega⟩
  have ht : t.val = (i 0).val / 256 := rfl
  obtain ⟨e00, e01, e10, e11⟩ := idx_facts0 t
  refine ⟨t, flush0_1 t, ?_⟩
  rw [mem_blk0]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- Region 0's result array after its grid is `G0` of the weights as the region finds them. -/
theorem final0
    (h0 : ∀ (x0 : Vec Ideal S256x4096 .f32) (r : Fin 256) (i : Fin 4096),
      Gen.out0_1 (F := Ideal) x0 (ix2 r i) = T (fun d => x0 (ix2 r d)) i)
    (c : Dev nD) : (dat0 V c).arrAt 1 cfg0.N = G0 T (V c main_arg1) :=
  (dat0 V c).arrAt_eq_of_cover 1 (G0 T (V c main_arg1)) (fun t _ => flushed0_eq V T h0 c t) cover0

end Region0

/-! ## The reshapes between the regions, read at an index -/

section Casts

variable {α : Type}

/-- [8192, 4096] read as [4, 2048, 4096]: entry (b, s, o) is entry (2048 · b + s, o). -/
theorem cast_rows_apply (x : S8192x4096.Idx → α) (h : S8192x4096.ShapeCasts S4x2048x4096) (b : Fin 4) (s : Fin 2048) (o : Fin 4096)
    (r : Fin 8192) (hr : r.val = b.val * 2048 + s.val) : shapeCast S4x2048x4096 x h (ix3 b s o) = x (ix2 r o) :=
  shapeCast_apply x h _ _ (by
    rw [Shape.rowMajor_val_two, Shape.rowMajor_val_three]
    show r.val * 4096 + o.val = (b.val * 2048 + s.val) * 4096 + o.val
    rw [hr])

/-- [4, 2048, 4096] read as [8192, 4096]: entry (2048 · b + s, k) is entry (b, s, k). -/
theorem cast_flat_apply (x : S4x2048x4096.Idx → α) (h : S4x2048x4096.ShapeCasts S8192x4096) (b : Fin 4) (s : Fin 2048) (k : Fin 4096)
    (r : Fin 8192) (hr : r.val = b.val * 2048 + s.val) : shapeCast S8192x4096 x h (ix2 r k) = x (ix3 b s k) :=
  shapeCast_apply x h _ _ (by
    rw [Shape.rowMajor_val_three, Shape.rowMajor_val_two]
    show (b.val * 2048 + s.val) * 4096 + k.val = r.val * 4096 + k.val
    rw [hr])

end Casts

/-! ## The buffer contents through @main -/

section Fold

variable (m : (ℓ : Loc nD τ sig) → Buf (Elt Ideal) ℓ) (ρ : Dev nD → PrngReg)

/-- The result buffer at the end is the reshape of region 1's result array. -/
theorem W4_main_v4 (c : Dev nD) :
    (W4 m ρ c (Proc.devRef .tc main_v4) : S4x2048x4096.Idx → EReal)
      = shapeCast S4x2048x4096 (W3 m ρ c (Proc.devRef .tc main_v3) : S8192x4096.Idx → EReal) shapeCasts_S8192x4096_S4x2048x4096 := by
  show StableHlo.after hostOps2 (W3 m ρ c) (Proc.devRef .tc main_v4) = _
  after_results
  rfl

/-- Region 1 finds the activations reshaped to [8192, 4096], -/
theorem V2_main_v1 (c : Dev nD) :
    (V2 m ρ c main_v1 : S8192x4096.Idx → EReal)
      = shapeCast S8192x4096 (m ((c : Thread nD τ).loc main_arg0) : S4x2048x4096.Idx → EReal) shapeCasts_S4x2048x4096_S8192x4096 := by
  show StableHlo.after hostOps1 (W1 m ρ c) (Proc.devRef .tc main_v1) = _
  after_results
  rw [W1_of_ne m ρ c main_arg0 (by decide)]
  rfl

/-- the bias reshaped to [1, 4096], -/
theorem V2_main_v2 (c : Dev nD) :
    (V2 m ρ c main_v2 : S1x4096.Idx → EReal)
      = shapeCast S1x4096 (m ((c : Thread nD τ).loc main_arg2) : S4096.Idx → EReal) shapeCasts_S4096_S1x4096 := by
  show StableHlo.after hostOps1 (W1 m ρ c) (Proc.devRef .tc main_v2) = _
  after_results
  rw [W1_of_ne m ρ c main_arg2 (by decide)]
  rfl

/-- and region 0's result array untouched by the reshapes. -/
theorem V2_main_v0 (c : Dev nD) :
    (V2 m ρ c main_v0 : S4096x4096.Idx → EReal) = (dat0 (V0 m ρ) c).arrAt 1 cfg0.N := by
  show StableHlo.after hostOps1 (W1 m ρ c) (Proc.devRef .tc main_v0) = _
  after_results
  exact W1_arr m ρ c 1

/-- Region 0 finds the weights as launched. -/
theorem V0_main_arg1 (c : Dev nD) : (V0 m ρ c main_arg1 : S4096x4096.Idx → EReal) = m ((c : Thread nD τ).loc main_arg1) := rfl

variable (T : (Fin 4096 → EReal) → Fin 4096 → EReal)

/-- The three arguments as launched, as arrays of extended reals. -/
abbrev argX (c : Dev nD) : S4x2048x4096.Idx → EReal := m ((c : Thread nD τ).loc main_arg0)
abbrev argW (c : Dev nD) : S4096x4096.Idx → EReal := m ((c : Thread nD τ).loc main_arg1)
abbrev argB (c : Dev nD) : S4096.Idx → EReal := m ((c : Thread nD τ).loc main_arg2)

/-- THE RESULT at (b, s, o): row (b, s) of the activations against the transform of row o of the weights, plus the bias at o. -/
theorem W4_main_v4_apply
    (h0 : ∀ (x0 : Vec Ideal S256x4096 .f32) (r : Fin 256) (i : Fin 4096),
      Gen.out0_1 (F := Ideal) x0 (ix2 r i) = T (fun d => x0 (ix2 r d)) i)
    (h1 : ∀ (x0 : Vec Ideal S512x4096 .f32) (x1 : Vec Ideal S512x4096 .bf16) (x2 : Vec Ideal S1x512 .f32) (p q : Fin 512),
      Gen.out1_3 (F := Ideal) x0 x1 x2 (ix2 p q) = (∑ k : Fin 4096, x0 (ix2 p k) * x1 (ix2 q k)) + x2 (ix2 (0 : Fin 1) q))
    (c : Dev nD) (b : Fin 4) (s : Fin 2048) (o : Fin 4096) :
    (W4 m ρ c (Proc.devRef .tc main_v4) : S4x2048x4096.Idx → EReal) (ix3 b s o)
      = (∑ k : Fin 4096, argX m c (ix3 b s k) * T (fun d => argW m c (ix2 o d)) k) + argB m c (ix1 o) := by
  have hr : b.val * 2048 + s.val < 8192 := by have := b.isLt; have := s.isLt; omega
  rw [W4_main_v4, cast_rows_apply _ _ b s o ⟨b.val * 2048 + s.val, hr⟩ rfl]
  rw [show (W3 m ρ c (Proc.devRef .tc main_v3) : S8192x4096.Idx → EReal) = (dat1 (V2 m ρ) c).arrAt 3 cfg1.N from W3_arr m ρ c 3]
  rw [final1 (V2 m ρ) h1 c, G1_apply]
  rw [V2_main_v2, shapeCast_a_1a_apply]
  refine congrArg (· + _) (Finset.sum_congr rfl fun k _ => ?_)
  rw [V2_main_v1, cast_flat_apply _ _ b s k ⟨b.val * 2048 + s.val, hr⟩ rfl, V2_main_v0, final0 (V0 m ρ) T h0 c, G0_apply]

end Fold

/-! ## The kernel's run, read -/

/-- Every weakly fair execution of the kernel's @main terminates without a fault, the result array ends at
    `kerOut` of the three arguments, and the arguments end as launched — given what the two bodies compute: region 0's
    body transforms each row of its block, region 1's body contracts rows of its two blocks and adds the bias block. -/
theorem run
    (h0 : ∀ (x0 : Vec Ideal S256x4096 .f32) (r : Fin 256) (i : Fin 4096),
      Gen.out0_1 (F := Ideal) x0 (ix2 r i) = Cert.Spec.rot (fun d => x0 (ix2 r d)) i)
    (h1 : ∀ (x0 : Vec Ideal S512x4096 .f32) (x1 : Vec Ideal S512x4096 .bf16) (x2 : Vec Ideal S1x512 .f32) (p q : Fin 512),
      Gen.out1_3 (F := Ideal) x0 x1 x2 (ix2 p q) = (∑ k : Fin 4096, x0 (ix2 p k) * x1 (ix2 q k)) + x2 (ix2 (0 : Fin 1) q))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
        = Cert.Spec.kerOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (funext fun j => by
      obtain ⟨b, s, o, rfl⟩ : ∃ (b : Fin 4) (s : Fin 2048) (o : Fin 4096), j = ix3 b s o := ⟨j 0, j 1, j 2, eq_ix3 j⟩
      exact W4_main_v4_apply m ρ Cert.Spec.rot h0 h1 c b s o), (h c).2⟩) (run_named m ρ)

end Cert.KerSide

end
-- ==== Proof.LibLocalEq.lean ====
/- A straight line of host operations in single-assignment form, read one operation at a time.

   `StableHlo.after l V` is what the buffers hold once the operations `l` have run in order from contents `V`. When operation
   `n` of the line writes exactly the reference `W[n]`, and the references `W` carry strictly increasing numbers
   (`key`: a reference's index in its space), the final contents satisfy each operation's own equation: an operation
   `y := f x` whose operand has a smaller number than its result (so it is written earlier, or never) ends with
   `after l V y = f (after l V x)` — the operand is not written again after it is read, and the result is not written
   again after it is made. With one such equation per operation, what a buffer holds at the end is read back through
   exactly the operations that lead to it, by rewriting, without unfolding the rest of the line. Nothing here depends on a
   particular program, topology or signature. -/
import Idealize.ShloMosaic.Lib.StableHlo.Run

noncomputable section

namespace Cert.LibLocalEq

open Idealize.ShloMosaic Idealize.ShloMosaic.StableHlo Idealize.SL.Sem

variable {τ : Topo} {sig : RefSig} {Val : EltTy → Type}

/-- The fold over joined lists is the folds in turn. -/
theorem after_join (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- The operation writes exactly the reference `y`. -/
def WritesRef (op : HloOp τ sig Val) (y : Ref sig .tc) : Prop := op.writes = {Proc.devRef (τ := τ) .tc y}

/-- A line whose operations write, one each and in order, the references `W` leaves every other reference alone. -/
theorem after_keep {l : List (HloOp τ sig Val)} {W : List (Ref sig .tc)} (h : List.Forall₂ WritesRef l W) {r : Ref sig .tc}
    (hr : r ∉ W) (V : Valuation τ sig Val) : after l V (Proc.devRef .tc r) = V (Proc.devRef .tc r) := by
  induction h generalizing V with
  | nil => rfl
  | @cons op y l W hop _ ih =>
    rw [after_cons, ih (fun hm => hr (List.mem_cons_of_mem _ hm)),
      op.result_of_not_mem V (by
        rw [hop, Finset.mem_singleton]
        exact devRef_ne_of_ne fun e => hr (e ▸ List.mem_cons_self))]

/-- A reference's number: its index in its memory space. -/
def key (r : Ref sig .tc) : Nat := r.idx.val

/-- A line in single-assignment form: operation `n` writes exactly the reference `W[n]`, and the references' numbers
    increase strictly along `W`. -/
structure Numbered (l : List (HloOp τ sig Val)) (W : List (Ref sig .tc)) : Prop where
  writes : List.Forall₂ WritesRef l W
  keys : (W.map key).Pairwise (· < ·)

/-- The numbers `base, base + 1, …` in order are strictly increasing: the usual way to give `Numbered.keys` for a literal
    list (the equation by `decide`). -/
theorem Numbered.of_range {l : List (HloOp τ sig Val)} {W : List (Ref sig .tc)} (hw : List.Forall₂ WritesRef l W) (base : Nat)
    (hk : W.map key = List.range' base W.length) : Numbered l W :=
  ⟨hw, hk ▸ List.pairwise_lt_range'⟩

/-- A reference numbered no higher than the `n`-th written one is not written after it. -/
theorem not_mem_drop {W : List (Ref sig .tc)} (hk : (W.map key).Pairwise (· < ·)) {n : Nat} {y : Ref sig .tc} (hy : W[n]? = some y)
    {r : Ref sig .tc} (hr : key r ≤ key y) : r ∉ W.drop (n + 1) := by
  intro hm
  obtain ⟨i, hi⟩ := List.mem_iff_getElem?.mp hm
  rw [List.getElem?_drop] at hi
  obtain ⟨hn, rfl⟩ := List.getElem?_eq_some_iff.mp hy
  obtain ⟨hj, rfl⟩ := List.getElem?_eq_some_iff.mp hi
  have h := List.pairwise_iff_getElem.mp hk n (n + 1 + i) (by simpa using hn) (by simpa using hj) (by omega)
  simp only [List.getElem_map] at h
  omega

variable {l : List (HloOp τ sig Val)} {W : List (Ref sig .tc)}

/-- The contents of a lower-numbered reference when operation `n` runs are its final contents. -/
theorem after_take (hN : Numbered l W) {n : Nat} {y : Ref sig .tc} (hy : W[n]? = some y) {x : Ref sig .tc} (hx : key x < key y)
    (V : Valuation τ sig Val) : after (l.take n) V (Proc.devRef .tc x) = after l V (Proc.devRef .tc x) := by
  conv_rhs => rw [← List.take_append_drop n l, after_join]
  refine (after_keep (List.forall₂_drop n hN.writes) ?_ _).symm
  obtain ⟨hn, e⟩ := List.getElem?_eq_some_iff.mp hy
  rw [List.drop_eq_getElem_cons hn, e, List.mem_cons, not_or]
  exact ⟨fun h => by rw [h] at hx; exact Nat.lt_irrefl _ hx, not_mem_drop hN.keys hy (Nat.le_of_lt hx)⟩

/-- What operation `n` leaves at the reference it writes is that reference's final contents. -/
theorem after_at (hN : Numbered l W) {n : Nat} {op : HloOp τ sig Val} (hn : l[n]? = some op) {y : Ref sig .tc} (hy : W[n]? = some y)
    (V : Valuation τ sig Val) :
    after l V (Proc.devRef .tc y) = op.result (after (l.take n) V) (Proc.devRef .tc y) := by
  obtain ⟨hlt, rfl⟩ := List.getElem?_eq_some_iff.mp hn
  conv_lhs => rw [← List.take_append_drop n l, after_join, List.drop_eq_getElem_cons hlt, after_cons]
  exact after_keep (List.forall₂_drop (n + 1) hN.writes) (not_mem_drop hN.keys hy (Nat.le_refl _)) _

/-! ## One equation per operation, by the builder's arity

For operation `n` of a numbered line, given as a literal builder: `hn` and `hy` by `rfl` (the `n`-th operation and
the `n`-th written reference), each operand's `key x < key y` by `decide`. -/

theorem eq_nullary (hN : Numbered l W) {n : Nat} {y : Ref sig .tc} {v : y.ty.Contents Val} {hy'}
    (hn : l[n]? = some (nullary (τ := τ) y v hy')) (hy : W[n]? = some y) (V : Valuation τ sig Val) :
    after l V (Proc.devRef .tc y) = v := by
  rw [after_at hN hn hy, nullary_result]

theorem eq_unary (hN : Numbered l W) {n : Nat} {x y : Ref sig .tc} {f : x.ty.Contents Val → y.ty.Contents Val} {hx' hy'}
    (hn : l[n]? = some (unary (τ := τ) x y f hx' hy')) (hy : W[n]? = some y) (hx : key x < key y) (V : Valuation τ sig Val) :
    after l V (Proc.devRef .tc y) = f (after l V (Proc.devRef .tc x)) := by
  rw [after_at hN hn hy, unary_result, after_take hN hy hx]

theorem eq_binary (hN : Numbered l W) {n : Nat} {a b y : Ref sig .tc}
    {f : a.ty.Contents Val → b.ty.Contents Val → y.ty.Contents Val} {ha' hb' hy'}
    (hn : l[n]? = some (binary (τ := τ) a b y f ha' hb' hy')) (hy : W[n]? = some y) (ha : key a < key y) (hb : key b < key y)
    (V : Valuation τ sig Val) :
    after l V (Proc.devRef .tc y) = f (after l V (Proc.devRef .tc a)) (after l V (Proc.devRef .tc b)) := by
  rw [after_at hN hn hy, binary_result, after_take hN hy ha, after_take hN hy hb]

theorem eq_ternary (hN : Numbered l W) {n : Nat} {c a b y : Ref sig .tc}
    {f : c.ty.Contents Val → a.ty.Contents Val → b.ty.Contents Val → y.ty.Contents Val} {hc' ha' hb' hy'}
    (hn : l[n]? = some (ternary (τ := τ) c a b y f hc' ha' hb' hy')) (hy : W[n]? = some y) (hc : key c < key y) (ha : key a < key y)
    (hb : key b < key y) (V : Valuation τ sig Val) :
    after l V (Proc.devRef .tc y)
      = f (after l V (Proc.devRef .tc c)) (after l V (Proc.devRef .tc a)) (after l V (Proc.devRef .tc b)) := by
  rw [after_at hN hn hy, ternary_result, after_take hN hy hc, after_take hN hy ha, after_take hN hy hb]

theorem eq_quaternary (hN : Numbered l W) {n : Nat} {a b c e y : Ref sig .tc}
    {f : a.ty.Contents Val → b.ty.Contents Val → c.ty.Contents Val → e.ty.Contents Val → y.ty.Contents Val} {ha' hb' hc' he' hy'}
    (hn : l[n]? = some (quaternary (τ := τ) a b c e y f ha' hb' hc' he' hy')) (hy : W[n]? = some y) (ha : key a < key y)
    (hb : key b < key y) (hc : key c < key y) (he : key e < key y) (V : Valuation τ sig Val) :
    after l V (Proc.devRef .tc y)
      = f (after l V (Proc.devRef .tc a)) (after l V (Proc.devRef .tc b)) (after l V (Proc.devRef .tc c))
          (after l V (Proc.devRef .tc e)) := by
  rw [after_at hN hn hy, quaternary_result, after_take hN hy ha, after_take hN hy hb, after_take hN hy hc, after_take hN hy he]

theorem eq_reshape (hN : Numbered l W) {n : Nat} {x y : Ref sig .tc} {he : x.ty.elt = y.ty.elt}
    {hs : x.ty.shape.ShapeCasts y.ty.shape} {hx' hy'}
    (hn : l[n]? = some (reshape (τ := τ) (Val := Val) x y he hs hx' hy')) (hy : W[n]? = some y) (hx : key x < key y)
    (V : Valuation τ sig Val) :
    after l V (Proc.devRef .tc y) = fun i => he ▸ shapeCast y.ty.shape (after l V (Proc.devRef .tc x)) hs i := by
  rw [after_at hN hn hy, reshape_result, after_take hN hy hx]

end Cert.LibLocalEq

end
-- ==== Proof.RefRun.lean ====
/-
  The reference program's run, read one operation at a time.

  The reference's @main is a straight line of 93 host operations in single-assignment form: operation n writes one new
  buffer, and every operand was written earlier or is an argument.  Its run ends with every buffer at the fold of the
  operations' results over the launch contents.  Composing the operations into one term is hopeless here — each of the
  twelve butterfly stages reads its input four times, so the composed term grows like 4^12 — but the final contents
  satisfy each operation's own equation, with the operands' FINAL contents on the right-hand side:
      (final contents of y) = f (final contents of x …)            for the operation y := f x … .
  These 93 local equations are what the value proof rewrites with; the final contents themselves stay opaque.
  The three argument buffers are never written, so they end as launched.
-/
import proofs.«113425_j17712445129289_2_alg».proof.Proof.Gen.ReferenceIdeal
import proofs.«113425_j17712445129289_2_alg».proof.Proof.LibLocalEq
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.LibLocalEq

variable {F : FTy → Type} [FloatOps F]

/-- @main's 93 operations, in order. -/
abbrev ops : List (HloOp τ sig (Elt F)) :=
  [ reshape main_arg0 main_v0 rfl shapeCasts_S4x2048x4096_S8192x4096,
    reshape main_v0 main_v1 rfl shapeCasts_S8192x4096_S8192x2048x2x1,
    unary main_v1 main_v2 ((extractStridedSlice S8192x2048x1x1 ![0, 0, 0, 0] · slices_S8192x2048x2x1_S8192x2048x1x1_0_0_0_0) : (⟨S8192x2048x2x1, .f32⟩ : BufTy).Contents (Elt F) → (⟨S8192x2048x1x1, .f32⟩ : BufTy).Contents (Elt F)),
    unary main_v1 main_v3 ((extractStridedSlice S8192x2048x1x1 ![0, 0, 1, 0] · slices_S8192x2048x2x1_S8192x2048x1x1_0_0_1_0) : (⟨S8192x2048x2x1, .f32⟩ : BufTy).Contents (Elt F) → (⟨S8192x2048x1x1, .f32⟩ : BufTy).Contents (Elt F)),
    binary main_v2 main_v3 main_v4 (addf : (⟨S8192x2048x1x1, .f32⟩ : BufTy).Contents (Elt F) → (⟨S8192x2048x1x1, .f32⟩ : BufTy).Contents (Elt F) → (⟨S8192x2048x1x1, .f32⟩ : BufTy).Contents (Elt F)),
    binary main_v2 main_v3 main_v5 (subf : (⟨S8192x2048x1x1, .f32⟩ : BufTy).Contents (Elt F) → (⟨S8192x2048x1x1, .f32⟩ : BufTy).Contents (Elt F) → (⟨S8192x2048x1x1, .f32⟩ : BufTy).Contents (Elt F)),
    binary main_v4 main_v5 main_v6 ((fun a b => concatenate S8192x2048x2x1 2 [⟨S8192x2048x1x1, a⟩, ⟨S8192x2048x1x1, b⟩] concatenates_S8192x2048x1x1_S8192x2048x1x1_S8192x2048x2x1_d2) : (⟨S8192x2048x1x1, .f32⟩ : BufTy).Contents (Elt F) → (⟨S8192x2048x1x1, .f32⟩ : BufTy).Contents (Elt F) → (⟨S8192x2048x2x1, .f32⟩ : BufTy).Contents (Elt F)),
    reshape main_v6 main_v7 rfl shapeCasts_S8192x2048x2x1_S8192x4096,
    reshape main_v7 main_v8 rfl shapeCasts_S8192x4096_S8192x1024x2x2,
    unary main_v8 main_v9 ((extractStridedSlice S8192x1024x1x2 ![0, 0, 0, 0] · slices_S8192x1024x2x2_S8192x1024x1x2_0_0_0_0) : (⟨S8192x1024x2x2, .f32⟩ : BufTy).Contents (Elt F) → (⟨S8192x1024x1x2, .f32⟩ : BufTy).Contents (Elt F)),
    unary main_v8 main_v10 ((extractStridedSlice S8192x1024x1x2 ![0, 0, 1, 0] · slices_S8192x1024x2x2_S8192x1024x1x2_0_0_1_0) : (⟨S8192x1024x2x2, .f32⟩ : BufTy).Contents (Elt F) → (⟨S8192x1024x1x2, .f32⟩ : BufTy).Contents (Elt F)),
    binary main_v9 main_v10 main_v11 (addf : (⟨S8192x1024x1x2, .f32⟩ : BufTy).Contents (Elt F) → (⟨S8192x1024x1x2, .f32⟩ : BufTy).Contents (Elt F) → (⟨S8192x1024x1x2, .f32⟩ : BufTy).Contents (Elt F)),
    binary main_v9 main_v10 main_v12 (subf : (⟨S8192x1024x1x2, .f32⟩ : BufTy).Contents (Elt F) → (⟨S8192x1024x1x2, .f32⟩ : BufTy).Contents (Elt F) → (⟨S8192x1024x1x2, .f32⟩ : BufTy).Contents (Elt F)),
    binary main_v11 main_v12 main_v13 ((fun a b => concatenate S8192x1024x2x2 2 [⟨S8192x1024x1x2, a⟩, ⟨S8192x1024x1x2, b⟩] concatenates_S8192x1024x1x2_S8192x1024x1x2_S8192x1024x2x2_d2) : (⟨S8192x1024x1x2, .f32⟩ : BufTy).Contents (Elt F) → (⟨S8192x1024x1x2, .f32⟩ : BufTy).Contents (Elt F) → (⟨S8192x1024x2x2, .f32⟩ : BufTy).Contents (Elt F)),
    reshape main_v13 main_v14 rfl shapeCasts_S8192x1024x2x2_S8192x4096,
    reshape main_v14 main_v15 rfl shapeCasts_S8192x4096_S8192x512x2x4,
    unary main_v15 main_v16 ((extractStridedSlice S8192x512x1x4 ![0, 0, 0, 0] · slices_S8192x512x2x4_S8192x512x1x4_0_0_0_0) : (⟨S8192x512x2x4, .f32⟩ : BufTy).Contents (Elt F) → (⟨S8192x512x1x4, .f32⟩ : BufTy).Contents (Elt F)),
    unary main_v15 main_v17 ((extractStridedSlice S8192x512x1x4 ![0, 0, 1, 0] · slices_S8192x512x2x4_S8192x512x1x4_0_0_1_0) : (⟨S8192x512x2x4, .f32⟩ : BufTy).Contents (Elt F) → (⟨S8192x512x1x4, .f32⟩ : BufTy).Contents (Elt F)),
    binary main_v16 main_v17 main_v18 (addf : (⟨S8192x512x1x4, .f32⟩ : BufTy).Contents (Elt F) → (⟨S8192x512x1x4, .f32⟩ : BufTy).Contents (Elt F) → (⟨S8192x512x1x4, .f32⟩ : BufTy).Contents (Elt F)),
    binary main_v16 main_v17 main_v19 (subf : (⟨S8192x512x1x4, .f32⟩ : BufTy).Contents (Elt F) → (⟨S8192x512x1x4, .f32⟩ : BufTy).Contents (Elt F) → (⟨S8192x512x1x4, .f32⟩ : BufTy).Contents (Elt F)),
    binary main_v18 main_v19 main_v20 ((fun a b => concatenate S8192x512x2x4 2 [⟨S8192x512x1x4, a⟩, ⟨S8192x512x1x4, b⟩] concatenates_S8192x512x1x4_S8192x512x1x4_S8192x512x2x4_d2) : (⟨S8192x512x1x4, .f32⟩ : BufTy).Contents (Elt F) → (⟨S8192x512x1x4, .f32⟩ : BufTy).Contents (Elt F) → (⟨S8192x512x2x4, .f32⟩ : BufTy).Contents (Elt F)),
    reshape main_v20 main_v21 rfl shapeCasts_S8192x512x2x4_S8192x4096,
    reshape main_v21 main_v22 rfl shapeCasts_S8192x4096_S8192x256x2x8,
    unary main_v22 main_v23 ((extractStridedSlice S8192x256x1x8 ![0, 0, 0, 0] · slices_S8192x256x2x8_S8192x256x1x8_0_0_0_0) : (⟨S8192x256x2x8, .f32⟩ : BufTy).Contents (Elt F) → (⟨S8192x256x1x8, .f32⟩ : BufTy).Contents (Elt F)),
    unary main_v22 main_v24 ((extractStridedSlice S8192x256x1x8 ![0, 0, 1, 0] · slices_S8192x256x2x8_S8192x256x1x8_0_0_1_0) : (⟨S8192x256x2x8, .f32⟩ : BufTy).Contents (Elt F) → (⟨S8192x256x1x8, .f32⟩ : BufTy).Contents (Elt F)),
    binary main_v23 main_v24 main_v25 (addf : (⟨S8192x256x1x8, .f32⟩ : BufTy).Contents (Elt F) → (⟨S8192x256x1x8, .f32⟩ : BufTy).Contents (Elt F) → (⟨S8192x256x1x8, .f32⟩ : BufTy).Contents (Elt F)),
    binary main_v23 main_v24 main_v26 (subf : (⟨S8192x256x1x8, .f32⟩ : BufTy).Contents (Elt F) → (⟨S8192x256x1x8, .f32⟩ : BufTy).Contents (Elt F) → (⟨S8192x256x1x8, .f32⟩ : BufTy).Contents (Elt F)),
    binary main_v25 main_v26 main_v27 ((fun a b => concatenate S8192x256x2x8 2 [⟨S8192x256x1x8, a⟩, ⟨S8192x256x1x8, b⟩] concatenates_S8192x256x1x8_S8192x256x1x8_S8192x256x2x8_d2) : (⟨S8192x256x1x8, .f32⟩ : BufTy).Contents (Elt F) → (⟨S8192x256x1x8, .f32⟩ : BufTy).Contents (Elt F) → (⟨S8192x256x2x8, .f32⟩ : BufTy).Contents (Elt F)),
    reshape main_v27 main_v28 rfl shapeCasts_S8192x256x2x8_S8192x4096,
    reshape main_v28 main_v29 rfl shapeCasts_S8192x4096_S8192x128x2x16,
    unary main_v29 main_v30 ((extractStridedSlice S8192x128x1x16 ![0, 0, 0, 0] · slices_S8192x128x2x16_S8192x128x1x16_0_0_0_0) : (⟨S8192x128x2x16, .f32⟩ : BufTy).Contents (Elt F) → (⟨S8192x128x1x16, .f32⟩ : BufTy).Contents (Elt F)),
    unary main_v29 main_v31 ((extractStridedSlice S8192x128x1x16 ![0, 0, 1, 0] · slices_S8192x128x2x16_S8192x128x1x16_0_0_1_0) : (⟨S8192x128x2x16, .f32⟩ : BufTy).Contents (Elt F) → (⟨S8192x128x1x16, .f32⟩ : BufTy).Contents (Elt F)),
    binary main_v30 main_v31 main_v32 (addf : (⟨S8192x128x1x16, .f32⟩ : BufTy).Contents (Elt F) → (⟨S8192x128x1x16, .f32⟩ : BufTy).Contents (Elt F) → (⟨S8192x128x1x16, .f32⟩ : BufTy).Contents (Elt F)),
    binary main_v30 main_v31 main_v33 (subf : (⟨S8192x128x1x16, .f32⟩ : BufTy).Contents (Elt F) → (⟨S8192x128x1x16, .f32⟩ : BufTy).Contents (Elt F) → (⟨S8192x128x1x16, .f32⟩ : BufTy).Contents (Elt F)),
    binary main_v32 main_v33 main_v34 ((fun a b => concatenate S8192x128x2x16 2 [⟨S8192x128x1x16, a⟩, ⟨S8192x128x1x16, b⟩] concatenates_S8192x128x1x16_S8192x128x1x16_S8192x128x2x16_d2) : (⟨S8192x128x1x16, .f32⟩ : BufTy).Contents (Elt F) → (⟨S8192x128x1x16, .f32⟩ : BufTy).Contents (Elt F) → (⟨S8192x128x2x16, .f32⟩ : BufTy).Contents (Elt F)),
    reshape main_v34 main_v35 rfl shapeCasts_S8192x128x2x16_S8192x4096,
    reshape main_v35 main_v36 rfl shapeCasts_S8192x4096_S8192x64x2x32,
    unary main_v36 main_v37 ((extractStridedSlice S8192x64x1x32 ![0, 0, 0, 0] · slices_S8192x64x2x32_S8192x64x1x32_0_0_0_0) : (⟨S8192x64x2x32, .f32⟩ : BufTy).Contents (Elt F) → (⟨S8192x64x1x32, .f32⟩ : BufTy).Contents (Elt F)),
    unary main_v36 main_v38 ((extractStridedSlice S8192x64x1x32 ![0, 0, 1, 0] · slices_S8192x64x2x32_S8192x64x1x32_0_0_1_0) : (⟨S8192x64x2x32, .f32⟩ : BufTy).Contents (Elt F) → (⟨S8192x64x1x32, .f32⟩ : BufTy).Contents (Elt F)),
    binary main_v37 main_v38 main_v39 (addf : (⟨S8192x64x1x32, .f32⟩ : BufTy).Contents (Elt F) → (⟨S8192x64x1x32, .f32⟩ : BufTy).Contents (Elt F) → (⟨S8192x64x1x32, .f32⟩ : BufTy).Contents (Elt F)),
    binary main_v37 main_v38 main_v40 (subf : (⟨S8192x64x1x32, .f32⟩ : BufTy).Contents (Elt F) → (⟨S8192x64x1x32, .f32⟩ : BufTy).Contents (Elt F) → (⟨S8192x64x1x32, .f32⟩ : BufTy).Contents (Elt F)),
    binary main_v39 main_v40 main_v41 ((fun a b => concatenate S8192x64x2x32 2 [⟨S8192x64x1x32, a⟩, ⟨S8192x64x1x32, b⟩] concatenates_S8192x64x1x32_S8192x64x1x32_S8192x64x2x32_d2) : (⟨S8192x64x1x32, .f32⟩ : BufTy).Contents (Elt F) → (⟨S8192x64x1x32, .f32⟩ : BufTy).Contents (Elt F) → (⟨S8192x64x2x32, .f32⟩ : BufTy).Contents (Elt F)),
    reshape main_v41 main_v42 rfl shapeCasts_S8192x64x2x32_S8192x4096,
    reshape main_v42 main_v43 rfl shapeCasts_S8192x4096_S8192x32x2x64,
    unary main_v43 main_v44 ((extractStridedSlice S8192x32x1x64 ![0, 0, 0, 0] · slices_S8192x32x2x64_S8192x32x1x64_0_0_0_0) : (⟨S8192x32x2x64, .f32⟩ : BufTy).Contents (Elt F) → (⟨S8192x32x1x64, .f32⟩ : BufTy).Contents (Elt F)),
    unary main_v43 main_v45 ((extractStridedSlice S8192x32x1x64 ![0, 0, 1, 0] · slices_S8192x32x2x64_S8192x32x1x64_0_0_1_0) : (⟨S8192x32x2x64, .f32⟩ : BufTy).Contents (Elt F) → (⟨S8192x32x1x64, .f32⟩ : BufTy).Contents (Elt F)),
    binary main_v44 main_v45 main_v46 (addf : (⟨S8192x32x1x64, .f32⟩ : BufTy).Contents (Elt F) → (⟨S8192x32x1x64, .f32⟩ : BufTy).Contents (Elt F) → (⟨S8192x32x1x64, .f32⟩ : BufTy).Contents (Elt F)),
    binary main_v44 main_v45 main_v47 (subf : (⟨S8192x32x1x64, .f32⟩ : BufTy).Contents (Elt F) → (⟨S8192x32x1x64, .f32⟩ : BufTy).Contents (Elt F) → (⟨S8192x32x1x64, .f32⟩ : BufTy).Contents (Elt F)),
    binary main_v46 main_v47 main_v48 ((fun a b => concatenate S8192x32x2x64 2 [⟨S8192x32x1x64, a⟩, ⟨S8192x32x1x64, b⟩] concatenates_S8192x32x1x64_S8192x32x1x64_S8192x32x2x64_d2) : (⟨S8192x32x1x64, .f32⟩ : BufTy).Contents (Elt F) → (⟨S8192x32x1x64, .f32⟩ : BufTy).Contents (Elt F) → (⟨S8192x32x2x64, .f32⟩ : BufTy).Contents (Elt F)),
    reshape main_v48 main_v49 rfl shapeCasts_S8192x32x2x64_S8192x4096,
    reshape main_v49 main_v50 rfl shapeCasts_S8192x4096_S8192x16x2x128,
    unary main_v50 main_v51 ((extractStridedSlice S8192x16x1x128 ![0, 0, 0, 0] · slices_S8192x16x2x128_S8192x16x1x128_0_0_0_0) : (⟨S8192x16x2x128, .f32⟩ : BufTy).Contents (Elt F) → (⟨S8192x16x1x128, .f32⟩ : BufTy).Contents (Elt F)),
    unary main_v50 main_v52 ((extractStridedSlice S8192x16x1x128 ![0, 0, 1, 0] · slices_S8192x16x2x128_S8192x16x1x128_0_0_1_0) : (⟨S8192x16x2x128, .f32⟩ : BufTy).Contents (Elt F) → (⟨S8192x16x1x128, .f32⟩ : BufTy).Contents (Elt F)),
    binary main_v51 main_v52 main_v53 (addf : (⟨S8192x16x1x128, .f32⟩ : BufTy).Contents (Elt F) → (⟨S8192x16x1x128, .f32⟩ : BufTy).Contents (Elt F) → (⟨S8192x16x1x128, .f32⟩ : BufTy).Contents (Elt F)),
    binary main_v51 main_v52 main_v54 (subf : (⟨S8192x16x1x128, .f32⟩ : BufTy).Contents (Elt F) → (⟨S8192x16x1x128, .f32⟩ : BufTy).Contents (Elt F) → (⟨S8192x16x1x128, .f32⟩ : BufTy).Contents (Elt F)),
    binary main_v53 main_v54 main_v55 ((fun a b => concatenate S8192x16x2x128 2 [⟨S8192x16x1x128, a⟩, ⟨S8192x16x1x128, b⟩] concatenates_S8192x16x1x128_S8192x16x1x128_S8192x16x2x128_d2) : (⟨S8192x16x1x128, .f32⟩ : BufTy).Contents (Elt F) → (⟨S8192x16x1x128, .f32⟩ : BufTy).Contents (Elt F) → (⟨S8192x16x2x128, .f32⟩ : BufTy).Contents (Elt F)),
    reshape main_v55 main_v56 rfl shapeCasts_S8192x16x2x128_S8192x4096,
    reshape main_v56 main_v57 rfl shapeCasts_S8192x4096_S8192x8x2x256,
    unary main_v57 main_v58 ((extractStridedSlice S8192x8x1x256 ![0, 0, 0, 0] · slices_S8192x8x2x256_S8192x8x1x256_0_0_0_0) : (⟨S8192x8x2x256, .f32⟩ : BufTy).Contents (Elt F) → (⟨S8192x8x1x256, .f32⟩ : BufTy).Contents (Elt F)),
    unary main_v57 main_v59 ((extractStridedSlice S8192x8x1x256 ![0, 0, 1, 0] · slices_S8192x8x2x256_S8192x8x1x256_0_0_1_0) : (⟨S8192x8x2x256, .f32⟩ : BufTy).Contents (Elt F) → (⟨S8192x8x1x256, .f32⟩ : BufTy).Contents (Elt F)),
    binary main_v58 main_v59 main_v60 (addf : (⟨S8192x8x1x256, .f32⟩ : BufTy).Contents (Elt F) → (⟨S8192x8x1x256, .f32⟩ : BufTy).Contents (Elt F) → (⟨S8192x8x1x256, .f32⟩ : BufTy).Contents (Elt F)),
    binary main_v58 main_v59 main_v61 (subf : (⟨S8192x8x1x256, .f32⟩ : BufTy).Contents (Elt F) → (⟨S8192x8x1x256, .f32⟩ : BufTy).Contents (Elt F) → (⟨S8192x8x1x256, .f32⟩ : BufTy).Contents (Elt F)),
    binary main_v60 main_v61 main_v62 ((fun a b => concatenate S8192x8x2x256 2 [⟨S8192x8x1x256, a⟩, ⟨S8192x8x1x256, b⟩] concatenates_S8192x8x1x256_S8192x8x1x256_S8192x8x2x256_d2) : (⟨S8192x8x1x256, .f32⟩ : BufTy).Contents (Elt F) → (⟨S8192x8x1x256, .f32⟩ : BufTy).Contents (Elt F) → (⟨S8192x8x2x256, .f32⟩ : BufTy).Contents (Elt F)),
    reshape main_v62 main_v63 rfl shapeCasts_S8192x8x2x256_S8192x4096,
    reshape main_v63 main_v64 rfl shapeCasts_S8192x4096_S8192x4x2x512,
    unary main_v64 main_v65 ((extractStridedSlice S8192x4x1x512 ![0, 0, 0, 0] · slices_S8192x4x2x512_S8192x4x1x512_0_0_0_0) : (⟨S8192x4x2x512, .f32⟩ : BufTy).Contents (Elt F) → (⟨S8192x4x1x512, .f32⟩ : BufTy).Contents (Elt F)),
    unary main_v64 main_v66 ((extractStridedSlice S8192x4x1x512 ![0, 0, 1, 0] · slices_S8192x4x2x512_S8192x4x1x512_0_0_1_0) : (⟨S8192x4x2x512, .f32⟩ : BufTy).Contents (Elt F) → (⟨S8192x4x1x512, .f32⟩ : BufTy).Contents (Elt F)),
    binary main_v65 main_v66 main_v67 (addf : (⟨S8192x4x1x512, .f32⟩ : BufTy).Contents (Elt F) → (⟨S8192x4x1x512, .f32⟩ : BufTy).Contents (Elt F) → (⟨S8192x4x1x512, .f32⟩ : BufTy).Contents (Elt F)),
    binary main_v65 main_v66 main_v68 (subf : (⟨S8192x4x1x512, .f32⟩ : BufTy).Contents (Elt F) → (⟨S8192x4x1x512, .f32⟩ : BufTy).Contents (Elt F) → (⟨S8192x4x1x512, .f32⟩ : BufTy).Contents (Elt F)),
    binary main_v67 main_v68 main_v69 ((fun a b => concatenate S8192x4x2x512 2 [⟨S8192x4x1x512, a⟩, ⟨S8192x4x1x512, b⟩] concatenates_S8192x4x1x512_S8192x4x1x512_S8192x4x2x512_d2) : (⟨S8192x4x1x512, .f32⟩ : BufTy).Contents (Elt F) → (⟨S8192x4x1x512, .f32⟩ : BufTy).Contents (Elt F) → (⟨S8192x4x2x512, .f32⟩ : BufTy).Contents (Elt F)),
    reshape main_v69 main_v70 rfl shapeCasts_S8192x4x2x512_S8192x4096,
    reshape main_v70 main_v71 rfl shapeCasts_S8192x4096_S8192x2x2x1024,
    unary main_v71 main_v72 ((extractStridedSlice S8192x2x1x1024 ![0, 0, 0, 0] · slices_S8192x2x2x1024_S8192x2x1x1024_0_0_0_0) : (⟨S8192x2x2x1024, .f32⟩ : BufTy).Contents (Elt F) → (⟨S8192x2x1x1024, .f32⟩ : BufTy).Contents (Elt F)),
    unary main_v71 main_v73 ((extractStridedSlice S8192x2x1x1024 ![0, 0, 1, 0] · slices_S8192x2x2x1024_S8192x2x1x1024_0_0_1_0) : (⟨S8192x2x2x1024, .f32⟩ : BufTy).Contents (Elt F) → (⟨S8192x2x1x1024, .f32⟩ : BufTy).Contents (Elt F)),
    binary main_v72 main_v73 main_v74 (addf : (⟨S8192x2x1x1024, .f32⟩ : BufTy).Contents (Elt F) → (⟨S8192x2x1x1024, .f32⟩ : BufTy).Contents (Elt F) → (⟨S8192x2x1x1024, .f32⟩ : BufTy).Contents (Elt F)),
    binary main_v72 main_v73 main_v75 (subf : (⟨S8192x2x1x1024, .f32⟩ : BufTy).Contents (Elt F) → (⟨S8192x2x1x1024, .f32⟩ : BufTy).Contents (Elt F) → (⟨S8192x2x1x1024, .f32⟩ : BufTy).Contents (Elt F)),
    binary main_v74 main_v75 main_v76 ((fun a b => concatenate S8192x2x2x1024 2 [⟨S8192x2x1x1024, a⟩, ⟨S8192x2x1x1024, b⟩] concatenates_S8192x2x1x1024_S8192x2x1x1024_S8192x2x2x1024_d2) : (⟨S8192x2x1x1024, .f32⟩ : BufTy).Contents (Elt F) → (⟨S8192x2x1x1024, .f32⟩ : BufTy).Contents (Elt F) → (⟨S8192x2x2x1024, .f32⟩ : BufTy).Contents (Elt F)),
    reshape main_v76 main_v77 rfl shapeCasts_S8192x2x2x1024_S8192x4096,
    reshape main_v77 main_v78 rfl shapeCasts_S8192x4096_S8192x1x2x2048,
    unary main_v78 main_v79 ((extractStridedSlice S8192x1x1x2048 ![0, 0, 0, 0] · slices_S8192x1x2x2048_S8192x1x1x2048_0_0_0_0) : (⟨S8192x1x2x2048, .f32⟩ : BufTy).Contents (Elt F) → (⟨S8192x1x1x2048, .f32⟩ : BufTy).Contents (Elt F)),
    unary main_v78 main_v80 ((extractStridedSlice S8192x1x1x2048 ![0, 0, 1, 0] · slices_S8192x1x2x2048_S8192x1x1x2048_0_0_1_0) : (⟨S8192x1x2x2048, .f32⟩ : BufTy).Contents (Elt F) → (⟨S8192x1x1x2048, .f32⟩ : BufTy).Contents (Elt F)),
    binary main_v79 main_v80 main_v81 (addf : (⟨S8192x1x1x2048, .f32⟩ : BufTy).Contents (Elt F) → (⟨S8192x1x1x2048, .f32⟩ : BufTy).Contents (Elt F) → (⟨S8192x1x1x2048, .f32⟩ : BufTy).Contents (Elt F)),
    binary main_v79 main_v80 main_v82 (subf : (⟨S8192x1x1x2048, .f32⟩ : BufTy).Contents (Elt F) → (⟨S8192x1x1x2048, .f32⟩ : BufTy).Contents (Elt F) → (⟨S8192x1x1x2048, .f32⟩ : BufTy).Contents (Elt F)),
    binary main_v81 main_v82 main_v83 ((fun a b => concatenate S8192x1x2x2048 2 [⟨S8192x1x1x2048, a⟩, ⟨S8192x1x1x2048, b⟩] concatenates_S8192x1x1x2048_S8192x1x1x2048_S8192x1x2x2048_d2) : (⟨S8192x1x1x2048, .f32⟩ : BufTy).Contents (Elt F) → (⟨S8192x1x1x2048, .f32⟩ : BufTy).Contents (Elt F) → (⟨S8192x1x2x2048, .f32⟩ : BufTy).Contents (Elt F)),
    reshape main_v83 main_v84 rfl shapeCasts_S8192x1x2x2048_S8192x4096,
    nullary main_cst (constant S_ .f32 0x3C800000#32),
    unary main_cst main_v85 (broadcastInDim S8192x4096 ![] bcast_S_S8192x4096 : (⟨S_, .f32⟩ : BufTy).Contents (Elt F) → (⟨S8192x4096, .f32⟩ : BufTy).Contents (Elt F)),
    binary main_v84 main_v85 main_v86 (mulf : (⟨S8192x4096, .f32⟩ : BufTy).Contents (Elt F) → (⟨S8192x4096, .f32⟩ : BufTy).Contents (Elt F) → (⟨S8192x4096, .f32⟩ : BufTy).Contents (Elt F)),
    reshape main_v86 main_v87 rfl shapeCasts_S8192x4096_S4x2048x4096,
    binary main_v87 main_arg1 main_v88 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg2 main_v89 (broadcastInDim S1x1x4096 ![2] bcast_S4096_S1x1x4096_2 : (⟨S4096, .f32⟩ : BufTy).Contents (Elt F) → (⟨S1x1x4096, .f32⟩ : BufTy).Contents (Elt F)),
    unary main_v89 main_v90 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v88 main_v90 main_v91 (addf : (⟨S4x2048x4096, .f32⟩ : BufTy).Contents (Elt F) → (⟨S4x2048x4096, .f32⟩ : BufTy).Contents (Elt F) → (⟨S4x2048x4096, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., reshape_bufs_sub .., unary_bufs_sub .., unary_bufs_sub .., binary_bufs_sub .., binary_bufs_sub .., binary_bufs_sub .., reshape_bufs_sub .., nullary_bufs_sub .., unary_bufs_sub .., binary_bufs_sub .., reshape_bufs_sub .., binary_bufs_sub .., unary_bufs_sub .., unary_bufs_sub .., binary_bufs_sub ..⟩

/-- The buffers the operations write, in order. -/
def W : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_cst, main_v85, main_v86, main_v87, main_v88, main_v89, main_v90, main_v91]

set_option maxRecDepth 8192 in
/-- Operation n writes exactly the n-th of them. -/
theorem writes : List.Forall₂ (WritesRef (τ := τ)) (ops (F := F)) W := by
  unfold W
  repeat' (first | exact List.Forall₂.nil | refine List.Forall₂.cons ?_ ?_)
  all_goals (first | exact reshape_writes .. | exact unary_writes .. | exact binary_writes .. | exact nullary_writes ..)

/-- The line is in single-assignment form: the written buffers are numbered 3, 4, …, 95 in order. -/
theorem numbered : Numbered (ops (F := F)) W := Numbered.of_range writes 3 (by decide)

/-- What buffer y holds once all operations have run from the contents V. -/
abbrev A (V : Valuation τ sig (Elt F)) (y : Ref sig .tc) : (Proc.devRef .tc y : DevRef τ sig).ty.Contents (Elt F) :=
  after (ops (F := F)) V (Proc.devRef .tc y)

/-! ## The arguments are never written -/

theorem k_main_arg0 (V : Valuation τ sig (Elt F)) : A V main_arg0 = V (Proc.devRef .tc main_arg0) :=
  after_keep writes (by decide) V
theorem k_main_arg1 (V : Valuation τ sig (Elt F)) : A V main_arg1 = V (Proc.devRef .tc main_arg1) :=
  after_keep writes (by decide) V
theorem k_main_arg2 (V : Valuation τ sig (Elt F)) : A V main_arg2 = V (Proc.devRef .tc main_arg2) :=
  after_keep writes (by decide) V

/-! ## The run -/

/-- On every device, from any memory with zero counters: every weakly fair execution of @main terminates, and every
    buffer ends at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

end Cert.RefRun

end
-- ==== Proof.RefRunEqs.lean ====
/-
  The reference program's 93 operations as local equations between final buffer contents: for the operation
  y := f x …,  (final contents of y) = f (final contents of x …).  The line is in single-assignment form, so an operand is
  not written again after it is read and a result is not written again after it is made; nothing is expanded further.
-/
import proofs.«113425_j17712445129289_2_alg».proof.Proof.RefRun

noncomputable section

namespace Cert.RefRun

open Cert.ReferenceIdeal Cert.ReferenceIdeal.Gen Idealize.ShloMosaic Idealize.ShloMosaic.TcCoe Idealize.SL.Sem Idealize.ShloMosaic.StableHlo
open Cert.LibLocalEq

variable {F : FTy → Type} [FloatOps F]

theorem e_main_v0 (V : Valuation τ sig (Elt F)) : after (ops (F := F)) V (Proc.devRef .tc main_v0) = shapeCast _ (after (ops (F := F)) V (Proc.devRef .tc main_arg0)) shapeCasts_S4x2048x4096_S8192x4096 :=
  (eq_reshape numbered (n := 0) (x := main_arg0) (y := main_v0) rfl rfl (by decide) V).trans rfl

theorem e_main_v1 (V : Valuation τ sig (Elt F)) : after (ops (F := F)) V (Proc.devRef .tc main_v1) = shapeCast _ (after (ops (F := F)) V (Proc.devRef .tc main_v0)) shapeCasts_S8192x4096_S8192x2048x2x1 :=
  (eq_reshape numbered (n := 1) (x := main_v0) (y := main_v1) rfl rfl (by decide) V).trans rfl

theorem e_main_v2 (V : Valuation τ sig (Elt F)) : type_of% (eq_unary (numbered (F := F)) (n := 2) (x := main_v1) (y := main_v2) rfl rfl (by decide) V) :=
  eq_unary (numbered (F := F)) (n := 2) (x := main_v1) (y := main_v2) rfl rfl (by decide) V

theorem e_main_v3 (V : Valuation τ sig (Elt F)) : type_of% (eq_unary (numbered (F := F)) (n := 3) (x := main_v1) (y := main_v3) rfl rfl (by decide) V) :=
  eq_unary (numbered (F := F)) (n := 3) (x := main_v1) (y := main_v3) rfl rfl (by decide) V

theorem e_main_v4 (V : Valuation τ sig (Elt F)) : after (ops (F := F)) V (Proc.devRef .tc main_v4) = (addf (after (ops (F := F)) V (Proc.devRef .tc main_v2)) (after (ops (F := F)) V (Proc.devRef .tc main_v3)) : (⟨S8192x2048x1x1, .f32⟩ : BufTy).Contents (Elt F)) :=
  eq_binary numbered (n := 4) (a := main_v2) (b := main_v3) (y := main_v4) (f := (addf : (⟨S8192x2048x1x1, .f32⟩ : BufTy).Contents (Elt F) → (⟨S8192x2048x1x1, .f32⟩ : BufTy).Contents (Elt F) → (⟨S8192x2048x1x1, .f32⟩ : BufTy).Contents (Elt F))) rfl rfl (by decide) (by decide) V

theorem e_main_v5 (V : Valuation τ sig (Elt F)) : after (ops (F := F)) V (Proc.devRef .tc main_v5) = (subf (after (ops (F := F)) V (Proc.devRef .tc main_v2)) (after (ops (F := F)) V (Proc.devRef .tc main_v3)) : (⟨S8192x2048x1x1, .f32⟩ : BufTy).Contents (Elt F)) :=
  eq_binary numbered (n := 5) (a := main_v2) (b := main_v3) (y := main_v5) (f := (subf : (⟨S8192x2048x1x1, .f32⟩ : BufTy).Contents (Elt F) → (⟨S8192x2048x1x1, .f32⟩ : BufTy).Contents (Elt F) → (⟨S8192x2048x1x1, .f32⟩ : BufTy).Contents (Elt F))) rfl rfl (by decide) (by decide) V

theorem e_main_v6 (V : Valuation τ sig (Elt F)) : after (ops (F := F)) V (Proc.devRef .tc main_v6) = (concatenate S8192x2048x2x1 2 [⟨S8192x2048x1x1, (after (ops (F := F)) V (Proc.devRef .tc main_v4))⟩, ⟨S8192x2048x1x1, (after (ops (F := F)) V (Proc.devRef .tc main_v5))⟩] concatenates_S8192x2048x1x1_S8192x2048x1x1_S8192x2048x2x1_d2 : (⟨S8192x2048x2x1, .f32⟩ : BufTy).Contents (Elt F)) :=
  eq_binary numbered (n := 6) (a := main_v4) (b := main_v5) (y := main_v6) (f := ((fun a b => concatenate S8192x2048x2x1 2 [⟨S8192x2048x1x1, a⟩, ⟨S8192x2048x1x1, b⟩] concatenates_S8192x2048x1x1_S8192x2048x1x1_S8192x2048x2x1_d2) : (⟨S8192x2048x1x1, .f32⟩ : BufTy).Contents (Elt F) → (⟨S8192x2048x1x1, .f32⟩ : BufTy).Contents (Elt F) → (⟨S8192x2048x2x1, .f32⟩ : BufTy).Contents (Elt F))) rfl rfl (by decide) (by decide) V

theorem e_main_v7 (V : Valuation τ sig (Elt F)) : after (ops (F := F)) V (Proc.devRef .tc main_v7) = shapeCast _ (after (ops (F := F)) V (Proc.devRef .tc main_v6)) shapeCasts_S8192x2048x2x1_S8192x4096 :=
  (eq_reshape numbered (n := 7) (x := main_v6) (y := main_v7) rfl rfl (by decide) V).trans rfl

theorem e_main_v8 (V : Valuation τ sig (Elt F)) : after (ops (F := F)) V (Proc.devRef .tc main_v8) = shapeCast _ (after (ops (F := F)) V (Proc.devRef .tc main_v7)) shapeCasts_S8192x4096_S8192x1024x2x2 :=
  (eq_reshape numbered (n := 8) (x := main_v7) (y := main_v8) rfl rfl (by decide) V).trans rfl

theorem e_main_v9 (V : Valuation τ sig (Elt F)) : type_of% (eq_unary (numbered (F := F)) (n := 9) (x := main_v8) (y := main_v9) rfl rfl (by decide) V) :=
  eq_unary (numbered (F := F)) (n := 9) (x := main_v8) (y := main_v9) rfl rfl (by decide) V

theorem e_main_v10 (V : Valuation τ sig (Elt F)) : type_of% (eq_unary (numbered (F := F)) (n := 10) (x := main_v8) (y := main_v10) rfl rfl (by decide) V) :=
  eq_unary (numbered (F := F)) (n := 10) (x := main_v8) (y := main_v10) rfl rfl (by decide) V

theorem e_main_v11 (V : Valuation τ sig (Elt F)) : after (ops (F := F)) V (Proc.devRef .tc main_v11) = (addf (after (ops (F := F)) V (Proc.devRef .tc main_v9)) (after (ops (F := F)) V (Proc.devRef .tc main_v10)) : (⟨S8192x1024x1x2, .f32⟩ : BufTy).Contents (Elt F)) :=
  eq_binary numbered (n := 11) (a := main_v9) (b := main_v10) (y := main_v11) (f := (addf : (⟨S8192x1024x1x2, .f32⟩ : BufTy).Contents (Elt F) → (⟨S8192x1024x1x2, .f32⟩ : BufTy).Contents (Elt F) → (⟨S8192x1024x1x2, .f32⟩ : BufTy).Contents (Elt F))) rfl rfl (by decide) (by decide) V

theorem e_main_v12 (V : Valuation τ sig (Elt F)) : after (ops (F := F)) V (Proc.devRef .tc main_v12) = (subf (after (ops (F := F)) V (Proc.devRef .tc main_v9)) (after (ops (F := F)) V (Proc.devRef .tc main_v10)) : (⟨S8192x1024x1x2, .f32⟩ : BufTy).Contents (Elt F)) :=
  eq_binary numbered (n := 12) (a := main_v9) (b := main_v10) (y := main_v12) (f := (subf : (⟨S8192x1024x1x2, .f32⟩ : BufTy).Contents (Elt F) → (⟨S8192x1024x1x2, .f32⟩ : BufTy).Contents (Elt F) → (⟨S8192x1024x1x2, .f32⟩ : BufTy).Contents (Elt F))) rfl rfl (by decide) (by decide) V

theorem e_main_v13 (V : Valuation τ sig (Elt F)) : after (ops (F := F)) V (Proc.devRef .tc main_v13) = (concatenate S8192x1024x2x2 2 [⟨S8192x1024x1x2, (after (ops (F := F)) V (Proc.devRef .tc main_v11))⟩, ⟨S8192x1024x1x2, (after (ops (F := F)) V (Proc.devRef .tc main_v12))⟩] concatenates_S8192x1024x1x2_S8192x1024x1x2_S8192x1024x2x2_d2 : (⟨S8192x1024x2x2, .f32⟩ : BufTy).Contents (Elt F)) :=
  eq_binary numbered (n := 13) (a := main_v11) (b := main_v12) (y := main_v13) (f := ((fun a b => concatenate S8192x1024x2x2 2 [⟨S8192x1024x1x2, a⟩, ⟨S8192x1024x1x2, b⟩] concatenates_S8192x1024x1x2_S8192x1024x1x2_S8192x1024x2x2_d2) : (⟨S8192x1024x1x2, .f32⟩ : BufTy).Contents (Elt F) → (⟨S8192x1024x1x2, .f32⟩ : BufTy).Contents (Elt F) → (⟨S8192x1024x2x2, .f32⟩ : BufTy).Contents (Elt F))) rfl rfl (by decide) (by decide) V

theorem e_main_v14 (V : Valuation τ sig (Elt F)) : after (ops (F := F)) V (Proc.devRef .tc main_v14) = shapeCast _ (after (ops (F := F)) V (Proc.devRef .tc main_v13)) shapeCasts_S8192x1024x2x2_S8192x4096 :=
  (eq_reshape numbered (n := 14) (x := main_v13) (y := main_v14) rfl rfl (by decide) V).trans rfl

theorem e_main_v15 (V : Valuation τ sig (Elt F)) : after (ops (F := F)) V (Proc.devRef .tc main_v15) = shapeCast _ (after (ops (F := F)) V (Proc.devRef .tc main_v14)) shapeCasts_S8192x4096_S8192x512x2x4 :=
  (eq_reshape numbered (n := 15) (x := main_v14) (y := main_v15) rfl rfl (by decide) V).trans rfl

theorem e_main_v16 (V : Valuation τ sig (Elt F)) : type_of% (eq_unary (numbered (F := F)) (n := 16) (x := main_v15) (y := main_v16) rfl rfl (by decide) V) :=
  eq_unary (numbered (F := F)) (n := 16) (x := main_v15) (y := main_v16) rfl rfl (by decide) V

theorem e_main_v17 (V : Valuation τ sig (Elt F)) : type_of% (eq_unary (numbered (F := F)) (n := 17) (x := main_v15) (y := main_v17) rfl rfl (by decide) V) :=
  eq_unary (numbered (F := F)) (n := 17) (x := main_v15) (y := main_v17) rfl rfl (by decide) V

theorem e_main_v18 (V : Valuation τ sig (Elt F)) : after (ops (F := F)) V (Proc.devRef .tc main_v18) = (addf (after (ops (F := F)) V (Proc.devRef .tc main_v16)) (after (ops (F := F)) V (Proc.devRef .tc main_v17)) : (⟨S8192x512x1x4, .f32⟩ : BufTy).Contents (Elt F)) :=
  eq_binary numbered (n := 18) (a := main_v16) (b := main_v17) (y := main_v18) (f := (addf : (⟨S8192x512x1x4, .f32⟩ : BufTy).Contents (Elt F) → (⟨S8192x512x1x4, .f32⟩ : BufTy).Contents (Elt F) → (⟨S8192x512x1x4, .f32⟩ : BufTy).Contents (Elt F))) rfl rfl (by decide) (by decide) V

theorem e_main_v19 (V : Valuation τ sig (Elt F)) : after (ops (F := F)) V (Proc.devRef .tc main_v19) = (subf (after (ops (F := F)) V (Proc.devRef .tc main_v16)) (after (ops (F := F)) V (Proc.devRef .tc main_v17)) : (⟨S8192x512x1x4, .f32⟩ : BufTy).Contents (Elt F)) :=
  eq_binary numbered (n := 19) (a := main_v16) (b := main_v17) (y := main_v19) (f := (subf : (⟨S8192x512x1x4, .f32⟩ : BufTy).Contents (Elt F) → (⟨S8192x512x1x4, .f32⟩ : BufTy).Contents (Elt F) → (⟨S8192x512x1x4, .f32⟩ : BufTy).Contents (Elt F))) rfl rfl (by decide) (by decide) V

theorem e_main_v20 (V : Valuation τ sig (Elt F)) : after (ops (F := F)) V (Proc.devRef .tc main_v20) = (concatenate S8192x512x2x4 2 [⟨S8192x512x1x4, (after (ops (F := F)) V (Proc.devRef .tc main_v18))⟩, ⟨S8192x512x1x4, (after (ops (F := F)) V (Proc.devRef .tc main_v19))⟩] concatenates_S8192x512x1x4_S8192x512x1x4_S8192x512x2x4_d2 : (⟨S8192x512x2x4, .f32⟩ : BufTy).Contents (Elt F)) :=
  eq_binary numbered (n := 20) (a := main_v18) (b := main_v19) (y := main_v20) (f := ((fun a b => concatenate S8192x512x2x4 2 [⟨S8192x512x1x4, a⟩, ⟨S8192x512x1x4, b⟩] concatenates_S8192x512x1x4_S8192x512x1x4_S8192x512x2x4_d2) : (⟨S8192x512x1x4, .f32⟩ : BufTy).Contents (Elt F) → (⟨S8192x512x1x4, .f32⟩ : BufTy).Contents (Elt F) → (⟨S8192x512x2x4, .f32⟩ : BufTy).Contents (Elt F))) rfl rfl (by decide) (by decide) V

theorem e_main_v21 (V : Valuation τ sig (Elt F)) : after (ops (F := F)) V (Proc.devRef .tc main_v21) = shapeCast _ (after (ops (F := F)) V (Proc.devRef .tc main_v20)) shapeCasts_S8192x512x2x4_S8192x4096 :=
  (eq_reshape numbered (n := 21) (x := main_v20) (y := main_v21) rfl rfl (by decide) V).trans rfl

theorem e_main_v22 (V : Valuation τ sig (Elt F)) : after (ops (F := F)) V (Proc.devRef .tc main_v22) = shapeCast _ (after (ops (F := F)) V (Proc.devRef .tc main_v21)) shapeCasts_S8192x4096_S8192x256x2x8 :=
  (eq_reshape numbered (n := 22) (x := main_v21) (y := main_v22) rfl rfl (by decide) V).trans rfl

theorem e_main_v23 (V : Valuation τ sig (Elt F)) : type_of% (eq_unary (numbered (F := F)) (n := 23) (x := main_v22) (y := main_v23) rfl rfl (by decide) V) :=
  eq_unary (numbered (F := F)) (n := 23) (x := main_v22) (y := main_v23) rfl rfl (by decide) V

theorem e_main_v24 (V : Valuation τ sig (Elt F)) : type_of% (eq_unary (numbered (F := F)) (n := 24) (x := main_v22) (y := main_v24) rfl rfl (by decide) V) :=
  eq_unary (numbered (F := F)) (n := 24) (x := main_v22) (y := main_v24) rfl rfl (by decide) V

theorem e_main_v25 (V : Valuation τ sig (Elt F)) : after (ops (F := F)) V (Proc.devRef .tc main_v25) = (addf (after (ops (F := F)) V (Proc.devRef .tc main_v23)) (after (ops (F := F)) V (Proc.devRef .tc main_v24)) : (⟨S8192x256x1x8, .f32⟩ : BufTy).Contents (Elt F)) :=
  eq_binary numbered (n := 25) (a := main_v23) (b := main_v24) (y := main_v25) (f := (addf : (⟨S8192x256x1x8, .f32⟩ : BufTy).Contents (Elt F) → (⟨S8192x256x1x8, .f32⟩ : BufTy).Contents (Elt F) → (⟨S8192x256x1x8, .f32⟩ : BufTy).Contents (Elt F))) rfl rfl (by decide) (by decide) V

theorem e_main_v26 (V : Valuation τ sig (Elt F)) : after (ops (F := F)) V (Proc.devRef .tc main_v26) = (subf (after (ops (F := F)) V (Proc.devRef .tc main_v23)) (after (ops (F := F)) V (Proc.devRef .tc main_v24)) : (⟨S8192x256x1x8, .f32⟩ : BufTy).Contents (Elt F)) :=
  eq_binary numbered (n := 26) (a := main_v23) (b := main_v24) (y := main_v26) (f := (subf : (⟨S8192x256x1x8, .f32⟩ : BufTy).Contents (Elt F) → (⟨S8192x256x1x8, .f32⟩ : BufTy).Contents (Elt F) → (⟨S8192x256x1x8, .f32⟩ : BufTy).Contents (Elt F))) rfl rfl (by decide) (by decide) V

theorem e_main_v27 (V : Valuation τ sig (Elt F)) : after (ops (F := F)) V (Proc.devRef .tc main_v27) = (concatenate S8192x256x2x8 2 [⟨S8192x256x1x8, (after (ops (F := F)) V (Proc.devRef .tc main_v25))⟩, ⟨S8192x256x1x8, (after (ops (F := F)) V (Proc.devRef .tc main_v26))⟩] concatenates_S8192x256x1x8_S8192x256x1x8_S8192x256x2x8_d2 : (⟨S8192x256x2x8, .f32⟩ : BufTy).Contents (Elt F)) :=
  eq_binary numbered (n := 27) (a := main_v25) (b := main_v26) (y := main_v27) (f := ((fun a b => concatenate S8192x256x2x8 2 [⟨S8192x256x1x8, a⟩, ⟨S8192x256x1x8, b⟩] concatenates_S8192x256x1x8_S8192x256x1x8_S8192x256x2x8_d2) : (⟨S8192x256x1x8, .f32⟩ : BufTy).Contents (Elt F) → (⟨S8192x256x1x8, .f32⟩ : BufTy).Contents (Elt F) → (⟨S8192x256x2x8, .f32⟩ : BufTy).Contents (Elt F))) rfl rfl (by decide) (by decide) V

theorem e_main_v28 (V : Valuation τ sig (Elt F)) : after (ops (F := F)) V (Proc.devRef .tc main_v28) = shapeCast _ (after (ops (F := F)) V (Proc.devRef .tc main_v27)) shapeCasts_S8192x256x2x8_S8192x4096 :=
  (eq_reshape numbered (n := 28) (x := main_v27) (y := main_v28) rfl rfl (by decide) V).trans rfl

theorem e_main_v29 (V : Valuation τ sig (Elt F)) : after (ops (F := F)) V (Proc.devRef .tc main_v29) = shapeCast _ (after (ops (F := F)) V (Proc.devRef .tc main_v28)) shapeCasts_S8192x4096_S8192x128x2x16 :=
  (eq_reshape numbered (n := 29) (x := main_v28) (y := main_v29) rfl rfl (by decide) V).trans rfl

theorem e_main_v30 (V : Valuation τ sig (Elt F)) : type_of% (eq_unary (numbered (F := F)) (n := 30) (x := main_v29) (y := main_v30) rfl rfl (by decide) V) :=
  eq_unary (numbered (F := F)) (n := 30) (x := main_v29) (y := main_v30) rfl rfl (by decide) V

theorem e_main_v31 (V : Valuation τ sig (Elt F)) : type_of% (eq_unary (numbered (F := F)) (n := 31) (x := main_v29) (y := main_v31) rfl rfl (by decide) V) :=
  eq_unary (numbered (F := F)) (n := 31) (x := main_v29) (y := main_v31) rfl rfl (by decide) V

theorem e_main_v32 (V : Valuation τ sig (Elt F)) : after (ops (F := F)) V (Proc.devRef .tc main_v32) = (addf (after (ops (F := F)) V (Proc.devRef .tc main_v30)) (after (ops (F := F)) V (Proc.devRef .tc main_v31)) : (⟨S8192x128x1x16, .f32⟩ : BufTy).Contents (Elt F)) :=
  eq_binary numbered (n := 32) (a := main_v30) (b := main_v31) (y := main_v32) (f := (addf : (⟨S8192x128x1x16, .f32⟩ : BufTy).Contents (Elt F) → (⟨S8192x128x1x16, .f32⟩ : BufTy).Contents (Elt F) → (⟨S8192x128x1x16, .f32⟩ : BufTy).Contents (Elt F))) rfl rfl (by decide) (by decide) V

theorem e_main_v33 (V : Valuation τ sig (Elt F)) : after (ops (F := F)) V (Proc.devRef .tc main_v33) = (subf (after (ops (F := F)) V (Proc.devRef .tc main_v30)) (after (ops (F := F)) V (Proc.devRef .tc main_v31)) : (⟨S8192x128x1x16, .f32⟩ : BufTy).Contents (Elt F)) :=
  eq_binary numbered (n := 33) (a := main_v30) (b := main_v31) (y := main_v33) (f := (subf : (⟨S8192x128x1x16, .f32⟩ : BufTy).Contents (Elt F) → (⟨S8192x128x1x16, .f32⟩ : BufTy).Contents (Elt F) → (⟨S8192x128x1x16, .f32⟩ : BufTy).Contents (Elt F))) rfl rfl (by decide) (by decide) V

theorem e_main_v34 (V : Valuation τ sig (Elt F)) : after (ops (F := F)) V (Proc.devRef .tc main_v34) = (concatenate S8192x128x2x16 2 [⟨S8192x128x1x16, (after (ops (F := F)) V (Proc.devRef .tc main_v32))⟩, ⟨S8192x128x1x16, (after (ops (F := F)) V (Proc.devRef .tc main_v33))⟩] concatenates_S8192x128x1x16_S8192x128x1x16_S8192x128x2x16_d2 : (⟨S8192x128x2x16, .f32⟩ : BufTy).Contents (Elt F)) :=
  eq_binary numbered (n := 34) (a := main_v32) (b := main_v33) (y := main_v34) (f := ((fun a b => concatenate S8192x128x2x16 2 [⟨S8192x128x1x16, a⟩, ⟨S8192x128x1x16, b⟩] concatenates_S8192x128x1x16_S8192x128x1x16_S8192x128x2x16_d2) : (⟨S8192x128x1x16, .f32⟩ : BufTy).Contents (Elt F) → (⟨S8192x128x1x16, .f32⟩ : BufTy).Contents (Elt F) → (⟨S8192x128x2x16, .f32⟩ : BufTy).Contents (Elt F))) rfl rfl (by decide) (by decide) V

theorem e_main_v35 (V : Valuation τ sig (Elt F)) : after (ops (F := F)) V (Proc.devRef .tc main_v35) = shapeCast _ (after (ops (F := F)) V (Proc.devRef .tc main_v34)) shapeCasts_S8192x128x2x16_S8192x4096 :=
  (eq_reshape numbered (n := 35) (x := main_v34) (y := main_v35) rfl rfl (by decide) V).trans rfl

theorem e_main_v36 (V : Valuation τ sig (Elt F)) : after (ops (F := F)) V (Proc.devRef .tc main_v36) = shapeCast _ (after (ops (F := F)) V (Proc.devRef .tc main_v35)) shapeCasts_S8192x4096_S8192x64x2x32 :=
  (eq_reshape numbered (n := 36) (x := main_v35) (y := main_v36) rfl rfl (by decide) V).trans rfl

theorem e_main_v37 (V : Valuation τ sig (Elt F)) : type_of% (eq_unary (numbered (F := F)) (n := 37) (x := main_v36) (y := main_v37) rfl rfl (by decide) V) :=
  eq_unary (numbered (F := F)) (n := 37) (x := main_v36) (y := main_v37) rfl rfl (by decide) V

theorem e_main_v38 (V : Valuation τ sig (Elt F)) : type_of% (eq_unary (numbered (F := F)) (n := 38) (x := main_v36) (y := main_v38) rfl rfl (by decide) V) :=
  eq_unary (numbered (F := F)) (n := 38) (x := main_v36) (y := main_v38) rfl rfl (by decide) V

theorem e_main_v39 (V : Valuation τ sig (Elt F)) : after (ops (F := F)) V (Proc.devRef .tc main_v39) = (addf (after (ops (F := F)) V (Proc.devRef .tc main_v37)) (after (ops (F := F)) V (Proc.devRef .tc main_v38)) : (⟨S8192x64x1x32, .f32⟩ : BufTy).Contents (Elt F)) :=
  eq_binary numbered (n := 39) (a := main_v37) (b := main_v38) (y := main_v39) (f := (addf : (⟨S8192x64x1x32, .f32⟩ : BufTy).Contents (Elt F) → (⟨S8192x64x1x32, .f32⟩ : BufTy).Contents (Elt F) → (⟨S8192x64x1x32, .f32⟩ : BufTy).Contents (Elt F))) rfl rfl (by decide) (by decide) V

theorem e_main_v40 (V : Valuation τ sig (Elt F)) : after (ops (F := F)) V (Proc.devRef .tc main_v40) = (subf (after (ops (F := F)) V (Proc.devRef .tc main_v37)) (after (ops (F := F)) V (Proc.devRef .tc main_v38)) : (⟨S8192x64x1x32, .f32⟩ : BufTy).Contents (Elt F)) :=
  eq_binary numbered (n := 40) (a := main_v37) (b := main_v38) (y := main_v40) (f := (subf : (⟨S8192x64x1x32, .f32⟩ : BufTy).Contents (Elt F) → (⟨S8192x64x1x32, .f32⟩ : BufTy).Contents (Elt F) → (⟨S8192x64x1x32, .f32⟩ : BufTy).Contents (Elt F))) rfl rfl (by decide) (by decide) V

theorem e_main_v41 (V : Valuation τ sig (Elt F)) : after (ops (F := F)) V (Proc.devRef .tc main_v41) = (concatenate S8192x64x2x32 2 [⟨S8192x64x1x32, (after (ops (F := F)) V (Proc.devRef .tc main_v39))⟩, ⟨S8192x64x1x32, (after (ops (F := F)) V (Proc.devRef .tc main_v40))⟩] concatenates_S8192x64x1x32_S8192x64x1x32_S8192x64x2x32_d2 : (⟨S8192x64x2x32, .f32⟩ : BufTy).Contents (Elt F)) :=
  eq_binary numbered (n := 41) (a := main_v39) (b := main_v40) (y := main_v41) (f := ((fun a b => concatenate S8192x64x2x32 2 [⟨S8192x64x1x32, a⟩, ⟨S8192x64x1x32, b⟩] concatenates_S8192x64x1x32_S8192x64x1x32_S8192x64x2x32_d2) : (⟨S8192x64x1x32, .f32⟩ : BufTy).Contents (Elt F) → (⟨S8192x64x1x32, .f32⟩ : BufTy).Contents (Elt F) → (⟨S8192x64x2x32, .f32⟩ : BufTy).Contents (Elt F))) rfl rfl (by decide) (by decide) V

theorem e_main_v42 (V : Valuation τ sig (Elt F)) : after (ops (F := F)) V (Proc.devRef .tc main_v42) = shapeCast _ (after (ops (F := F)) V (Proc.devRef .tc main_v41)) shapeCasts_S8192x64x2x32_S8192x4096 :=
  (eq_reshape numbered (n := 42) (x := main_v41) (y := main_v42) rfl rfl (by decide) V).trans rfl

theorem e_main_v43 (V : Valuation τ sig (Elt F)) : after (ops (F := F)) V (Proc.devRef .tc main_v43) = shapeCast _ (after (ops (F := F)) V (Proc.devRef .tc main_v42)) shapeCasts_S8192x4096_S8192x32x2x64 :=
  (eq_reshape numbered (n := 43) (x := main_v42) (y := main_v43) rfl rfl (by decide) V).trans rfl

theorem e_main_v44 (V : Valuation τ sig (Elt F)) : type_of% (eq_unary (numbered (F := F)) (n := 44) (x := main_v43) (y := main_v44) rfl rfl (by decide) V) :=
  eq_unary (numbered (F := F)) (n := 44) (x := main_v43) (y := main_v44) rfl rfl (by decide) V

theorem e_main_v45 (V : Valuation τ sig (Elt F)) : type_of% (eq_unary (numbered (F := F)) (n := 45) (x := main_v43) (y := main_v45) rfl rfl (by decide) V) :=
  eq_unary (numbered (F := F)) (n := 45) (x := main_v43) (y := main_v45) rfl rfl (by decide) V

theorem e_main_v46 (V : Valuation τ sig (Elt F)) : after (ops (F := F)) V (Proc.devRef .tc main_v46) = (addf (after (ops (F := F)) V (Proc.devRef .tc main_v44)) (after (ops (F := F)) V (Proc.devRef .tc main_v45)) : (⟨S8192x32x1x64, .f32⟩ : BufTy).Contents (Elt F)) :=
  eq_binary numbered (n := 46) (a := main_v44) (b := main_v45) (y := main_v46) (f := (addf : (⟨S8192x32x1x64, .f32⟩ : BufTy).Contents (Elt F) → (⟨S8192x32x1x64, .f32⟩ : BufTy).Contents (Elt F) → (⟨S8192x32x1x64, .f32⟩ : BufTy).Contents (Elt F))) rfl rfl (by decide) (by decide) V

theorem e_main_v47 (V : Valuation τ sig (Elt F)) : after (ops (F := F)) V (Proc.devRef .tc main_v47) = (subf (after (ops (F := F)) V (Proc.devRef .tc main_v44)) (after (ops (F := F)) V (Proc.devRef .tc main_v45)) : (⟨S8192x32x1x64, .f32⟩ : BufTy).Contents (Elt F)) :=
  eq_binary numbered (n := 47) (a := main_v44) (b := main_v45) (y := main_v47) (f := (subf : (⟨S8192x32x1x64, .f32⟩ : BufTy).Contents (Elt F) → (⟨S8192x32x1x64, .f32⟩ : BufTy).Contents (Elt F) → (⟨S8192x32x1x64, .f32⟩ : BufTy).Contents (Elt F))) rfl rfl (by decide) (by decide) V

theorem e_main_v48 (V : Valuation τ sig (Elt F)) : after (ops (F := F)) V (Proc.devRef .tc main_v48) = (concatenate S8192x32x2x64 2 [⟨S8192x32x1x64, (after (ops (F := F)) V (Proc.devRef .tc main_v46))⟩, ⟨S8192x32x1x64, (after (ops (F := F)) V (Proc.devRef .tc main_v47))⟩] concatenates_S8192x32x1x64_S8192x32x1x64_S8192x32x2x64_d2 : (⟨S8192x32x2x64, .f32⟩ : BufTy).Contents (Elt F)) :=
  eq_binary numbered (n := 48) (a := main_v46) (b := main_v47) (y := main_v48) (f := ((fun a b => concatenate S8192x32x2x64 2 [⟨S8192x32x1x64, a⟩, ⟨S8192x32x1x64, b⟩] concatenates_S8192x32x1x64_S8192x32x1x64_S8192x32x2x64_d2) : (⟨S8192x32x1x64, .f32⟩ : BufTy).Contents (Elt F) → (⟨S8192x32x1x64, .f32⟩ : BufTy).Contents (Elt F) → (⟨S8192x32x2x64, .f32⟩ : BufTy).Contents (Elt F))) rfl rfl (by decide) (by decide) V

theorem e_main_v49 (V : Valuation τ sig (Elt F)) : after (ops (F := F)) V (Proc.devRef .tc main_v49) = shapeCast _ (after (ops (F := F)) V (Proc.devRef .tc main_v48)) shapeCasts_S8192x32x2x64_S8192x4096 :=
  (eq_reshape numbered (n := 49) (x := main_v48) (y := main_v49) rfl rfl (by decide) V).trans rfl

theorem e_main_v50 (V : Valuation τ sig (Elt F)) : after (ops (F := F)) V (Proc.devRef .tc main_v50) = shapeCast _ (after (ops (F := F)) V (Proc.devRef .tc main_v49)) shapeCasts_S8192x4096_S8192x16x2x128 :=
  (eq_reshape numbered (n := 50) (x := main_v49) (y := main_v50) rfl rfl (by decide) V).trans rfl

theorem e_main_v51 (V : Valuation τ sig (Elt F)) : type_of% (eq_unary (numbered (F := F)) (n := 51) (x := main_v50) (y := main_v51) rfl rfl (by decide) V) :=
  eq_unary (numbered (F := F)) (n := 51) (x := main_v50) (y := main_v51) rfl rfl (by decide) V

theorem e_main_v52 (V : Valuation τ sig (Elt F)) : type_of% (eq_unary (numbered (F := F)) (n := 52) (x := main_v50) (y := main_v52) rfl rfl (by decide) V) :=
  eq_unary (numbered (F := F)) (n := 52) (x := main_v50) (y := main_v52) rfl rfl (by decide) V

theorem e_main_v53 (V : Valuation τ sig (Elt F)) : after (ops (F := F)) V (Proc.devRef .tc main_v53) = (addf (after (ops (F := F)) V (Proc.devRef .tc main_v51)) (after (ops (F := F)) V (Proc.devRef .tc main_v52)) : (⟨S8192x16x1x128, .f32⟩ : BufTy).Contents (Elt F)) :=
  eq_binary numbered (n := 53) (a := main_v51) (b := main_v52) (y := main_v53) (f := (addf : (⟨S8192x16x1x128, .f32⟩ : BufTy).Contents (Elt F) → (⟨S8192x16x1x128, .f32⟩ : BufTy).Contents (Elt F) → (⟨S8192x16x1x128, .f32⟩ : BufTy).Contents (Elt F))) rfl rfl (by decide) (by decide) V

theorem e_main_v54 (V : Valuation τ sig (Elt F)) : after (ops (F := F)) V (Proc.devRef .tc main_v54) = (subf (after (ops (F := F)) V (Proc.devRef .tc main_v51)) (after (ops (F := F)) V (Proc.devRef .tc main_v52)) : (⟨S8192x16x1x128, .f32⟩ : BufTy).Contents (Elt F)) :=
  eq_binary numbered (n := 54) (a := main_v51) (b := main_v52) (y := main_v54) (f := (subf : (⟨S8192x16x1x128, .f32⟩ : BufTy).Contents (Elt F) → (⟨S8192x16x1x128, .f32⟩ : BufTy).Contents (Elt F) → (⟨S8192x16x1x128, .f32⟩ : BufTy).Contents (Elt F))) rfl rfl (by decide) (by decide) V

theorem e_main_v55 (V : Valuation τ sig (Elt F)) : after (ops (F := F)) V (Proc.devRef .tc main_v55) = (concatenate S8192x16x2x128 2 [⟨S8192x16x1x128, (after (ops (F := F)) V (Proc.devRef .tc main_v53))⟩, ⟨S8192x16x1x128, (after (ops (F := F)) V (Proc.devRef .tc main_v54))⟩] concatenates_S8192x16x1x128_S8192x16x1x128_S8192x16x2x128_d2 : (⟨S8192x16x2x128, .f32⟩ : BufTy).Contents (Elt F)) :=
  eq_binary numbered (n := 55) (a := main_v53) (b := main_v54) (y := main_v55) (f := ((fun a b => concatenate S8192x16x2x128 2 [⟨S8192x16x1x128, a⟩, ⟨S8192x16x1x128, b⟩] concatenates_S8192x16x1x128_S8192x16x1x128_S8192x16x2x128_d2) : (⟨S8192x16x1x128, .f32⟩ : BufTy).Contents (Elt F) → (⟨S8192x16x1x128, .f32⟩ : BufTy).Contents (Elt F) → (⟨S8192x16x2x128, .f32⟩ : BufTy).Contents (Elt F))) rfl rfl (by decide) (by decide) V

theorem e_main_v56 (V : Valuation τ sig (Elt F)) : after (ops (F := F)) V (Proc.devRef .tc main_v56) = shapeCast _ (after (ops (F := F)) V (Proc.devRef .tc main_v55)) shapeCasts_S8192x16x2x128_S8192x4096 :=
  (eq_reshape numbered (n := 56) (x := main_v55) (y := main_v56) rfl rfl (by decide) V).trans rfl

theorem e_main_v57 (V : Valuation τ sig (Elt F)) : after (ops (F := F)) V (Proc.devRef .tc main_v57) = shapeCast _ (after (ops (F := F)) V (Proc.devRef .tc main_v56)) shapeCasts_S8192x4096_S8192x8x2x256 :=
  (eq_reshape numbered (n := 57) (x := main_v56) (y := main_v57) rfl rfl (by decide) V).trans rfl

theorem e_main_v58 (V : Valuation τ sig (Elt F)) : type_of% (eq_unary (numbered (F := F)) (n := 58) (x := main_v57) (y := main_v58) rfl rfl (by decide) V) :=
  eq_unary (numbered (F := F)) (n := 58) (x := main_v57) (y := main_v58) rfl rfl (by decide) V

theorem e_main_v59 (V : Valuation τ sig (Elt F)) : type_of% (eq_unary (numbered (F := F)) (n := 59) (x := main_v57) (y := main_v59) rfl rfl (by decide) V) :=
  eq_unary (numbered (F := F)) (n := 59) (x := main_v57) (y := main_v59) rfl rfl (by decide) V

theorem e_main_v60 (V : Valuation τ sig (Elt F)) : after (ops (F := F)) V (Proc.devRef .tc main_v60) = (addf (after (ops (F := F)) V (Proc.devRef .tc main_v58)) (after (ops (F := F)) V (Proc.devRef .tc main_v59)) : (⟨S8192x8x1x256, .f32⟩ : BufTy).Contents (Elt F)) :=
  eq_binary numbered (n := 60) (a := main_v58) (b := main_v59) (y := main_v60) (f := (addf : (⟨S8192x8x1x256, .f32⟩ : BufTy).Contents (Elt F) → (⟨S8192x8x1x256, .f32⟩ : BufTy).Contents (Elt F) → (⟨S8192x8x1x256, .f32⟩ : BufTy).Contents (Elt F))) rfl rfl (by decide) (by decide) V

theorem e_main_v61 (V : Valuation τ sig (Elt F)) : after (ops (F := F)) V (Proc.devRef .tc main_v61) = (subf (after (ops (F := F)) V (Proc.devRef .tc main_v58)) (after (ops (F := F)) V (Proc.devRef .tc main_v59)) : (⟨S8192x8x1x256, .f32⟩ : BufTy).Contents (Elt F)) :=
  eq_binary numbered (n := 61) (a := main_v58) (b := main_v59) (y := main_v61) (f := (subf : (⟨S8192x8x1x256, .f32⟩ : BufTy).Contents (Elt F) → (⟨S8192x8x1x256, .f32⟩ : BufTy).Contents (Elt F) → (⟨S8192x8x1x256, .f32⟩ : BufTy).Contents (Elt F))) rfl rfl (by decide) (by decide) V

theorem e_main_v62 (V : Valuation τ sig (Elt F)) : after (ops (F := F)) V (Proc.devRef .tc main_v62) = (concatenate S8192x8x2x256 2 [⟨S8192x8x1x256, (after (ops (F := F)) V (Proc.devRef .tc main_v60))⟩, ⟨S8192x8x1x256, (after (ops (F := F)) V (Proc.devRef .tc main_v61))⟩] concatenates_S8192x8x1x256_S8192x8x1x256_S8192x8x2x256_d2 : (⟨S8192x8x2x256, .f32⟩ : BufTy).Contents (Elt F)) :=
  eq_binary numbered (n := 62) (a := main_v60) (b := main_v61) (y := main_v62) (f := ((fun a b => concatenate S8192x8x2x256 2 [⟨S8192x8x1x256, a⟩, ⟨S8192x8x1x256, b⟩] concatenates_S8192x8x1x256_S8192x8x1x256_S8192x8x2x256_d2) : (⟨S8192x8x1x256, .f32⟩ : BufTy).Contents (Elt F) → (⟨S8192x8x1x256, .f32⟩ : BufTy).Contents (Elt F) → (⟨S8192x8x2x256, .f32⟩ : BufTy).Contents (Elt F))) rfl rfl (by decide) (by decide) V

theorem e_main_v63 (V : Valuation τ sig (Elt F)) : after (ops (F := F)) V (Proc.devRef .tc main_v63) = shapeCast _ (after (ops (F := F)) V (Proc.devRef .tc main_v62)) shapeCasts_S8192x8x2x256_S8192x4096 :=
  (eq_reshape numbered (n := 63) (x := main_v62) (y := main_v63) rfl rfl (by decide) V).trans rfl

theorem e_main_v64 (V : Valuation τ sig (Elt F)) : after (ops (F := F)) V (Proc.devRef .tc main_v64) = shapeCast _ (after (ops (F := F)) V (Proc.devRef .tc main_v63)) shapeCasts_S8192x4096_S8192x4x2x512 :=
  (eq_reshape numbered (n := 64) (x := main_v63) (y := main_v64) rfl rfl (by decide) V).trans rfl

theorem e_main_v65 (V : Valuation τ sig (Elt F)) : type_of% (eq_unary (numbered (F := F)) (n := 65) (x := main_v64) (y := main_v65) rfl rfl (by decide) V) :=
  eq_unary (numbered (F := F)) (n := 65) (x := main_v64) (y := main_v65) rfl rfl (by decide) V

theorem e_main_v66 (V : Valuation τ sig (Elt F)) : type_of% (eq_unary (numbered (F := F)) (n := 66) (x := main_v64) (y := main_v66) rfl rfl (by decide) V) :=
  eq_unary (numbered (F := F)) (n := 66) (x := main_v64) (y := main_v66) rfl rfl (by decide) V

theorem e_main_v67 (V : Valuation τ sig (Elt F)) : after (ops (F := F)) V (Proc.devRef .tc main_v67) = (addf (after (ops (F := F)) V (Proc.devRef .tc main_v65)) (after (ops (F := F)) V (Proc.devRef .tc main_v66)) : (⟨S8192x4x1x512, .f32⟩ : BufTy).Contents (Elt F)) :=
  eq_binary numbered (n := 67) (a := main_v65) (b := main_v66) (y := main_v67) (f := (addf : (⟨S8192x4x1x512, .f32⟩ : BufTy).Contents (Elt F) → (⟨S8192x4x1x512, .f32⟩ : BufTy).Contents (Elt F) → (⟨S8192x4x1x512, .f32⟩ : BufTy).Contents (Elt F))) rfl rfl (by decide) (by decide) V

theorem e_main_v68 (V : Valuation τ sig (Elt F)) : after (ops (F := F)) V (Proc.devRef .tc main_v68) = (subf (after (ops (F := F)) V (Proc.devRef .tc main_v65)) (after (ops (F := F)) V (Proc.devRef .tc main_v66)) : (⟨S8192x4x1x512, .f32⟩ : BufTy).Contents (Elt F)) :=
  eq_binary numbered (n := 68) (a := main_v65) (b := main_v66) (y := main_v68) (f := (subf : (⟨S8192x4x1x512, .f32⟩ : BufTy).Contents (Elt F) → (⟨S8192x4x1x512, .f32⟩ : BufTy).Contents (Elt F) → (⟨S8192x4x1x512, .f32⟩ : BufTy).Contents (Elt F))) rfl rfl (by decide) (by decide) V

theorem e_main_v69 (V : Valuation τ sig (Elt F)) : after (ops (F := F)) V (Proc.devRef .tc main_v69) = (concatenate S8192x4x2x512 2 [⟨S8192x4x1x512, (after (ops (F := F)) V (Proc.devRef .tc main_v67))⟩, ⟨S8192x4x1x512, (after (ops (F := F)) V (Proc.devRef .tc main_v68))⟩] concatenates_S8192x4x1x512_S8192x4x1x512_S8192x4x2x512_d2 : (⟨S8192x4x2x512, .f32⟩ : BufTy).Contents (Elt F)) :=
  eq_binary numbered (n := 69) (a := main_v67) (b := main_v68) (y := main_v69) (f := ((fun a b => concatenate S8192x4x2x512 2 [⟨S8192x4x1x512, a⟩, ⟨S8192x4x1x512, b⟩] concatenates_S8192x4x1x512_S8192x4x1x512_S8192x4x2x512_d2) : (⟨S8192x4x1x512, .f32⟩ : BufTy).Contents (Elt F) → (⟨S8192x4x1x512, .f32⟩ : BufTy).Contents (Elt F) → (⟨S8192x4x2x512, .f32⟩ : BufTy).Contents (Elt F))) rfl rfl (by decide) (by decide) V

theorem e_main_v70 (V : Valuation τ sig (Elt F)) : after (ops (F := F)) V (Proc.devRef .tc main_v70) = shapeCast _ (after (ops (F := F)) V (Proc.devRef .tc main_v69)) shapeCasts_S8192x4x2x512_S8192x4096 :=
  (eq_reshape numbered (n := 70) (x := main_v69) (y := main_v70) rfl rfl (by decide) V).trans rfl

theorem e_main_v71 (V : Valuation τ sig (Elt F)) : after (ops (F := F)) V (Proc.devRef .tc main_v71) = shapeCast _ (after (ops (F := F)) V (Proc.devRef .tc main_v70)) shapeCasts_S8192x4096_S8192x2x2x1024 :=
  (eq_reshape numbered (n := 71) (x := main_v70) (y := main_v71) rfl rfl (by decide) V).trans rfl

theorem e_main_v72 (V : Valuation τ sig (Elt F)) : type_of% (eq_unary (numbered (F := F)) (n := 72) (x := main_v71) (y := main_v72) rfl rfl (by decide) V) :=
  eq_unary (numbered (F := F)) (n := 72) (x := main_v71) (y := main_v72) rfl rfl (by decide) V

theorem e_main_v73 (V : Valuation τ sig (Elt F)) : type_of% (eq_unary (numbered (F := F)) (n := 73) (x := main_v71) (y := main_v73) rfl rfl (by decide) V) :=
  eq_unary (numbered (F := F)) (n := 73) (x := main_v71) (y := main_v73) rfl rfl (by decide) V

theorem e_main_v74 (V : Valuation τ sig (Elt F)) : after (ops (F := F)) V (Proc.devRef .tc main_v74) = (addf (after (ops (F := F)) V (Proc.devRef .tc main_v72)) (after (ops (F := F)) V (Proc.devRef .tc main_v73)) : (⟨S8192x2x1x1024, .f32⟩ : BufTy).Contents (Elt F)) :=
  eq_binary numbered (n := 74) (a := main_v72) (b := main_v73) (y := main_v74) (f := (addf : (⟨S8192x2x1x1024, .f32⟩ : BufTy).Contents (Elt F) → (⟨S8192x2x1x1024, .f32⟩ : BufTy).Contents (Elt F) → (⟨S8192x2x1x1024, .f32⟩ : BufTy).Contents (Elt F))) rfl rfl (by decide) (by decide) V

theorem e_main_v75 (V : Valuation τ sig (Elt F)) : after (ops (F := F)) V (Proc.devRef .tc main_v75) = (subf (after (ops (F := F)) V (Proc.devRef .tc main_v72)) (after (ops (F := F)) V (Proc.devRef .tc main_v73)) : (⟨S8192x2x1x1024, .f32⟩ : BufTy).Contents (Elt F)) :=
  eq_binary numbered (n := 75) (a := main_v72) (b := main_v73) (y := main_v75) (f := (subf : (⟨S8192x2x1x1024, .f32⟩ : BufTy).Contents (Elt F) → (⟨S8192x2x1x1024, .f32⟩ : BufTy).Contents (Elt F) → (⟨S8192x2x1x1024, .f32⟩ : BufTy).Contents (Elt F))) rfl rfl (by decide) (by decide) V

theorem e_main_v76 (V : Valuation τ sig (Elt F)) : after (ops (F := F)) V (Proc.devRef .tc main_v76) = (concatenate S8192x2x2x1024 2 [⟨S8192x2x1x1024, (after (ops (F := F)) V (Proc.devRef .tc main_v74))⟩, ⟨S8192x2x1x1024, (after (ops (F := F)) V (Proc.devRef .tc main_v75))⟩] concatenates_S8192x2x1x1024_S8192x2x1x1024_S8192x2x2x1024_d2 : (⟨S8192x2x2x1024, .f32⟩ : BufTy).Contents (Elt F)) :=
  eq_binary numbered (n := 76) (a := main_v74) (b := main_v75) (y := main_v76) (f := ((fun a b => concatenate S8192x2x2x1024 2 [⟨S8192x2x1x1024, a⟩, ⟨S8192x2x1x1024, b⟩] concatenates_S8192x2x1x1024_S8192x2x1x1024_S8192x2x2x1024_d2) : (⟨S8192x2x1x1024, .f32⟩ : BufTy).Contents (Elt F) → (⟨S8192x2x1x1024, .f32⟩ : BufTy).Contents (Elt F) → (⟨S8192x2x2x1024, .f32⟩ : BufTy).Contents (Elt F))) rfl rfl (by decide) (by decide) V

theorem e_main_v77 (V : Valuation τ sig (Elt F)) : after (ops (F := F)) V (Proc.devRef .tc main_v77) = shapeCast _ (after (ops (F := F)) V (Proc.devRef .tc main_v76)) shapeCasts_S8192x2x2x1024_S8192x4096 :=
  (eq_reshape numbered (n := 77) (x := main_v76) (y := main_v77) rfl rfl (by decide) V).trans rfl

theorem e_main_v78 (V : Valuation τ sig (Elt F)) : after (ops (F := F)) V (Proc.devRef .tc main_v78) = shapeCast _ (after (ops (F := F)) V (Proc.devRef .tc main_v77)) shapeCasts_S8192x4096_S8192x1x2x2048 :=
  (eq_reshape numbered (n := 78) (x := main_v77) (y := main_v78) rfl rfl (by decide) V).trans rfl

theorem e_main_v79 (V : Valuation τ sig (Elt F)) : type_of% (eq_unary (numbered (F := F)) (n := 79) (x := main_v78) (y := main_v79) rfl rfl (by decide) V) :=
  eq_unary (numbered (F := F)) (n := 79) (x := main_v78) (y := main_v79) rfl rfl (by decide) V

theorem e_main_v80 (V : Valuation τ sig (Elt F)) : type_of% (eq_unary (numbered (F := F)) (n := 80) (x := main_v78) (y := main_v80) rfl rfl (by decide) V) :=
  eq_unary (numbered (F := F)) (n := 80) (x := main_v78) (y := main_v80) rfl rfl (by decide) V

theorem e_main_v81 (V : Valuation τ sig (Elt F)) : after (ops (F := F)) V (Proc.devRef .tc main_v81) = (addf (after (ops (F := F)) V (Proc.devRef .tc main_v79)) (after (ops (F := F)) V (Proc.devRef .tc main_v80)) : (⟨S8192x1x1x2048, .f32⟩ : BufTy).Contents (Elt F)) :=
  eq_binary numbered (n := 81) (a := main_v79) (b := main_v80) (y := main_v81) (f := (addf : (⟨S8192x1x1x2048, .f32⟩ : BufTy).Contents (Elt F) → (⟨S8192x1x1x2048, .f32⟩ : BufTy).Contents (Elt F) → (⟨S8192x1x1x2048, .f32⟩ : BufTy).Contents (Elt F))) rfl rfl (by decide) (by decide) V

theorem e_main_v82 (V : Valuation τ sig (Elt F)) : after (ops (F := F)) V (Proc.devRef .tc main_v82) = (subf (after (ops (F := F)) V (Proc.devRef .tc main_v79)) (after (ops (F := F)) V (Proc.devRef .tc main_v80)) : (⟨S8192x1x1x2048, .f32⟩ : BufTy).Contents (Elt F)) :=
  eq_binary numbered (n := 82) (a := main_v79) (b := main_v80) (y := main_v82) (f := (subf : (⟨S8192x1x1x2048, .f32⟩ : BufTy).Contents (Elt F) → (⟨S8192x1x1x2048, .f32⟩ : BufTy).Contents (Elt F) → (⟨S8192x1x1x2048, .f32⟩ : BufTy).Contents (Elt F))) rfl rfl (by decide) (by decide) V

theorem e_main_v83 (V : Valuation τ sig (Elt F)) : after (ops (F := F)) V (Proc.devRef .tc main_v83) = (concatenate S8192x1x2x2048 2 [⟨S8192x1x1x2048, (after (ops (F := F)) V (Proc.devRef .tc main_v81))⟩, ⟨S8192x1x1x2048, (after (ops (F := F)) V (Proc.devRef .tc main_v82))⟩] concatenates_S8192x1x1x2048_S8192x1x1x2048_S8192x1x2x2048_d2 : (⟨S8192x1x2x2048, .f32⟩ : BufTy).Contents (Elt F)) :=
  eq_binary numbered (n := 83) (a := main_v81) (b := main_v82) (y := main_v83) (f := ((fun a b => concatenate S8192x1x2x2048 2 [⟨S8192x1x1x2048, a⟩, ⟨S8192x1x1x2048, b⟩] concatenates_S8192x1x1x2048_S8192x1x1x2048_S8192x1x2x2048_d2) : (⟨S8192x1x1x2048, .f32⟩ : BufTy).Contents (Elt F) → (⟨S8192x1x1x2048, .f32⟩ : BufTy).Contents (Elt F) → (⟨S8192x1x2x2048, .f32⟩ : BufTy).Contents (Elt F))) rfl rfl (by decide) (by decide) V

theorem e_main_v84 (V : Valuation τ sig (Elt F)) : after (ops (F := F)) V (Proc.devRef .tc main_v84) = shapeCast _ (after (ops (F := F)) V (Proc.devRef .tc main_v83)) shapeCasts_S8192x1x2x2048_S8192x4096 :=
  (eq_reshape numbered (n := 84) (x := main_v83) (y := main_v84) rfl rfl (by decide) V).trans rfl

theorem e_main_cst (V : Valuation τ sig (Elt F)) : after (ops (F := F)) V (Proc.devRef .tc main_cst) = constant S_ .f32 0x3C800000#32 :=
  eq_nullary numbered (n := 85) (y := main_cst) rfl rfl V

theorem e_main_v85 (V : Valuation τ sig (Elt F)) : after (ops (F := F)) V (Proc.devRef .tc main_v85) = (broadcastInDim S8192x4096 ![] bcast_S_S8192x4096 (after (ops (F := F)) V (Proc.devRef .tc main_cst)) : (⟨S8192x4096, .f32⟩ : BufTy).Contents (Elt F)) :=
  eq_unary numbered (n := 86) (x := main_cst) (y := main_v85) (f := (broadcastInDim S8192x4096 ![] bcast_S_S8192x4096 : (⟨S_, .f32⟩ : BufTy).Contents (Elt F) → (⟨S8192x4096, .f32⟩ : BufTy).Contents (Elt F))) rfl rfl (by decide) V

theorem e_main_v86 (V : Valuation τ sig (Elt F)) : after (ops (F := F)) V (Proc.devRef .tc main_v86) = (mulf (after (ops (F := F)) V (Proc.devRef .tc main_v84)) (after (ops (F := F)) V (Proc.devRef .tc main_v85)) : (⟨S8192x4096, .f32⟩ : BufTy).Contents (Elt F)) :=
  eq_binary numbered (n := 87) (a := main_v84) (b := main_v85) (y := main_v86) (f := (mulf : (⟨S8192x4096, .f32⟩ : BufTy).Contents (Elt F) → (⟨S8192x4096, .f32⟩ : BufTy).Contents (Elt F) → (⟨S8192x4096, .f32⟩ : BufTy).Contents (Elt F))) rfl rfl (by decide) (by decide) V

theorem e_main_v87 (V : Valuation τ sig (Elt F)) : after (ops (F := F)) V (Proc.devRef .tc main_v87) = shapeCast _ (after (ops (F := F)) V (Proc.devRef .tc main_v86)) shapeCasts_S8192x4096_S4x2048x4096 :=
  (eq_reshape numbered (n := 88) (x := main_v86) (y := main_v87) rfl rfl (by decide) V).trans rfl

theorem e_main_v88 (V : Valuation τ sig (Elt F)) : after (ops (F := F)) V (Proc.devRef .tc main_v88) = (Host.dotGeneral dot_S4x2048x4096_S4096x4096_S4x2048x4096_2_1_01_0_n_n none (after (ops (F := F)) V (Proc.devRef .tc main_v87)) (after (ops (F := F)) V (Proc.devRef .tc main_arg1)) : (⟨S4x2048x4096, .f32⟩ : BufTy).Contents (Elt F)) :=
  eq_binary numbered (n := 89) (a := main_v87) (b := main_arg1) (y := main_v88) (f := ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F))) rfl rfl (by decide) (by decide) V

theorem e_main_v89 (V : Valuation τ sig (Elt F)) : after (ops (F := F)) V (Proc.devRef .tc main_v89) = (broadcastInDim S1x1x4096 ![2] bcast_S4096_S1x1x4096_2 (after (ops (F := F)) V (Proc.devRef .tc main_arg2)) : (⟨S1x1x4096, .f32⟩ : BufTy).Contents (Elt F)) :=
  eq_unary numbered (n := 90) (x := main_arg2) (y := main_v89) (f := (broadcastInDim S1x1x4096 ![2] bcast_S4096_S1x1x4096_2 : (⟨S4096, .f32⟩ : BufTy).Contents (Elt F) → (⟨S1x1x4096, .f32⟩ : BufTy).Contents (Elt F))) rfl rfl (by decide) V

theorem e_main_v90 (V : Valuation τ sig (Elt F)) : after (ops (F := F)) V (Proc.devRef .tc main_v90) = (broadcastInDim S4x2048x4096 ![0, 1, 2] bcast_S1x1x4096_S4x2048x4096_0_1_2 (after (ops (F := F)) V (Proc.devRef .tc main_v89)) : (⟨S4x2048x4096, .f32⟩ : BufTy).Contents (Elt F)) :=
  eq_unary numbered (n := 91) (x := main_v89) (y := main_v90) (f := (broadcastInDim S4x2048x4096 ![0, 1, 2] bcast_S1x1x4096_S4x2048x4096_0_1_2 : (⟨S1x1x4096, .f32⟩ : BufTy).Contents (Elt F) → (⟨S4x2048x4096, .f32⟩ : BufTy).Contents (Elt F))) rfl rfl (by decide) V

theorem e_main_v91 (V : Valuation τ sig (Elt F)) : after (ops (F := F)) V (Proc.devRef .tc main_v91) = (addf (after (ops (F := F)) V (Proc.devRef .tc main_v88)) (after (ops (F := F)) V (Proc.devRef .tc main_v90)) : (⟨S4x2048x4096, .f32⟩ : BufTy).Contents (Elt F)) :=
  eq_binary numbered (n := 92) (a := main_v88) (b := main_v90) (y := main_v91) (f := (addf : (⟨S4x2048x4096, .f32⟩ : BufTy).Contents (Elt F) → (⟨S4x2048x4096, .f32⟩ : BufTy).Contents (Elt F) → (⟨S4x2048x4096, .f32⟩ : BufTy).Contents (Elt F))) rfl rfl (by decide) (by decide) V

end Cert.RefRun

end
-- ==== Proof.RefValue.lean ====
/-
  The reference program's result, read index by index over the extended reals.

  The reference reshapes the activations to 8192 rows of length 4096 and runs twelve butterfly stages on every row.
  Stage k (h = 2^k) views a row as [4096/(2h), 2, h], takes the two halves a, b along the middle axis and lays
  [a + b, a - b] back along it: at position i = (q*2 + t)*h + e this is  z i + z (i + h)  when t = 0 (bit k of i clear)
  and  z (i - h) - z i  when t = 1 (bit k set), which is one butterfly pass at bit k.  After the twelve stages every
  entry is multiplied by 2^-6, the rows are contracted with the rows of the weights, and the bias is added:
      y[b,s,o] = (sum_d (passes 12 (x[b,s,:]) d * 2^-6) * W[o,d]) + bias[o].

  The two index facts about the partner of a position (adding 2^k where bit k is clear, subtracting it where it is set)
  are taken as hypotheses.
-/
import proofs.«113425_j17712445129289_2_alg».proof.Proof.RefRunEqs
import proofs.«113425_j17712445129289_2_alg».proof.Proof.Spec
import proofs.«113425_j17712445129289_2_alg».proof.Proof.LibWalshDef
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.RefSide

open Idealize.ShloMosaic Idealize.ShloMosaic.ValueIdx
open Cert.ReferenceIdeal Cert.ReferenceIdeal.Gen Idealize.ShloMosaic.StableHlo Idealize.ShloMosaic.TcCoe Idealize.SL.Sem
open Cert.RefRun

/-! ## Reshapes between a row of length N and its view as [Q, 2, H] -/

/-- Position (q, t, e) of the view [Q, 2, H] of a row is position (q*2 + t)*H + e of the row. -/
theorem cast24_apply {α : Type} {R Q H N : ℕ} (hN : Q * 2 * H = N)
    (B : (⟨2, ![R, N]⟩ : Shape).Idx → α)
    (h : (⟨2, ![R, N]⟩ : Shape).ShapeCasts ⟨4, ![R, Q, 2, H]⟩)
    (r : Fin R) (q : Fin Q) (t : Fin 2) (e : Fin H) (i : Fin N) (hi : i.val = (q.val * 2 + t.val) * H + e.val) :
    shapeCast ⟨4, ![R, Q, 2, H]⟩ B h (ix4 r q t e) = B (ix2 r i) := by
  refine shapeCast_apply B h _ _ ?_
  rw [Shape.rowMajor_val_two, Shape.rowMajor_val_four]
  show r.val * N + i.val = ((r.val * Q + q.val) * 2 + t.val) * H + e.val
  rw [hi, ← hN]; ring

/-- The same correspondence, read from the row's side. -/
theorem cast42_apply {α : Type} {R Q H N : ℕ} (hN : Q * 2 * H = N)
    (A : (⟨4, ![R, Q, 2, H]⟩ : Shape).Idx → α)
    (h : (⟨4, ![R, Q, 2, H]⟩ : Shape).ShapeCasts ⟨2, ![R, N]⟩)
    (r : Fin R) (q : Fin Q) (t : Fin 2) (e : Fin H) (i : Fin N) (hi : i.val = (q.val * 2 + t.val) * H + e.val) :
    shapeCast ⟨2, ![R, N]⟩ A h (ix2 r i) = A (ix4 r q t e) := by
  refine shapeCast_apply A h _ _ ?_
  rw [Shape.rowMajor_val_two, Shape.rowMajor_val_four]
  show ((r.val * Q + q.val) * 2 + t.val) * H + e.val = r.val * N + i.val
  rw [hi, ← hN]; ring

/-! ## One stage on the view -/

/-- The two halves along the middle axis, summed into the first half and differenced into the second. -/
theorem halves_apply {R Q H : ℕ} (A : FVec Ideal ⟨4, ![R, Q, 2, H]⟩ .f32)
    (hs0 : (⟨4, ![R, Q, 2, H]⟩ : Shape).Slices ![0, 0, 0, 0] ⟨4, ![R, Q, 1, H]⟩)
    (hs1 : (⟨4, ![R, Q, 2, H]⟩ : Shape).Slices ![0, 0, 1, 0] ⟨4, ![R, Q, 1, H]⟩)
    (hc : Shape.Concatenates [⟨4, ![R, Q, 1, H]⟩, ⟨4, ![R, Q, 1, H]⟩] ⟨4, ![R, Q, 2, H]⟩ 2)
    (r : Fin R) (q : Fin Q) (t : Fin 2) (e : Fin H) :
    concatenate ⟨4, ![R, Q, 2, H]⟩ 2
      [⟨⟨4, ![R, Q, 1, H]⟩, addf (extractStridedSlice ⟨4, ![R, Q, 1, H]⟩ ![0, 0, 0, 0] A hs0)
          (extractStridedSlice ⟨4, ![R, Q, 1, H]⟩ ![0, 0, 1, 0] A hs1)⟩,
       ⟨⟨4, ![R, Q, 1, H]⟩, subf (extractStridedSlice ⟨4, ![R, Q, 1, H]⟩ ![0, 0, 0, 0] A hs0)
          (extractStridedSlice ⟨4, ![R, Q, 1, H]⟩ ![0, 0, 1, 0] A hs1)⟩] hc (ix4 r q t e)
      = if t.val = 0 then A (ix4 r q 0 e) + A (ix4 r q 1 e) else A (ix4 r q 0 e) - A (ix4 r q 1 e) := by
  have e0 : extractStridedSlice ⟨4, ![R, Q, 1, H]⟩ ![0, 0, 0, 0] A hs0 (ix4 r q (0 : Fin 1) e) = A (ix4 r q 0 e) :=
    slice4_axis2_apply 0 A hs0 r q 0 e 0 rfl
  have e1 : extractStridedSlice ⟨4, ![R, Q, 1, H]⟩ ![0, 0, 1, 0] A hs1 (ix4 r q (0 : Fin 1) e) = A (ix4 r q 1 e) :=
    slice4_axis2_apply 1 A hs1 r q 0 e 1 rfl
  obtain ⟨tv, ht⟩ := t
  match tv, ht with
  | 0, ht =>
    rw [if_pos rfl]
    refine (concatenate_pair_apply_left (t := ⟨4, ![R, Q, 2, H]⟩) (s₁ := ⟨4, ![R, Q, 1, H]⟩) (s₂ := ⟨4, ![R, Q, 1, H]⟩) (2 : Fin 4) _ _ hc (ix4 r q ⟨0, ht⟩ e) rfl (ix4 r q (0 : Fin 1) e) ?_).trans ?_
    · intro b
      match b with
      | ⟨0, _⟩ => rfl
      | ⟨1, _⟩ => rfl
      | ⟨2, _⟩ => rfl
      | ⟨3, _⟩ => rfl
    · rw [addf_apply, e0, e1]
  | 1, ht =>
    rw [if_neg Nat.one_ne_zero]
    refine (concatenate_pair_apply_right (t := ⟨4, ![R, Q, 2, H]⟩) (s₁ := ⟨4, ![R, Q, 1, H]⟩) (s₂ := ⟨4, ![R, Q, 1, H]⟩) (2 : Fin 4) _ _ hc (ix4 r q ⟨1, ht⟩ e) rfl rfl (ix4 r q (0 : Fin 1) e) ?_ ?_).trans ?_
    · intro b hb
      match b, hb with
      | ⟨0, _⟩, _ => rfl
      | ⟨1, _⟩, _ => rfl
      | ⟨2, _⟩, hb => exact absurd rfl hb
      | ⟨3, _⟩, _ => rfl
    · rfl
    · rw [subf_apply, e0, e1]

/-! ## One stage on a row is one butterfly pass -/

/-- What the view holds on row r: position (q, t, e) of the view is entry (q*2 + t)*H + e of the vector v. -/
def Holds {R Q H N : ℕ} (A : (⟨4, ![R, Q, 2, H]⟩ : Shape).Idx → EReal) (r : Fin R) (v : Fin N → EReal) : Prop :=
  ∀ (q : Fin Q) (t : Fin 2) (e : Fin H) (i : Fin N), i.val = (q.val * 2 + t.val) * H + e.val → A (ix4 r q t e) = v i

/-- At position i = (a*2 + t)*H + e with H = 2^k and e < H, bit k of i is t and the partner of i is the position with
    the other t: the sum or difference of the two halves is the butterfly pass at bit k. -/
theorem pass_of_coords {N H k : ℕ} (hH : H = 2 ^ k) (v : Fin N → EReal)
    (hadd : ∀ i : Fin N, i.val.testBit k = false → (Walsh.flip N k i).val = i.val + 2 ^ k)
    (hsub : ∀ i : Fin N, i.val.testBit k = true → (Walsh.flip N k i).val + 2 ^ k = i.val)
    (a t e : ℕ) (ht : t < 2) (he : e < H) (i i0 i1 : Fin N)
    (hi : i.val = (a * 2 + t) * H + e) (hi0 : i0.val = (a * 2 + 0) * H + e) (hi1 : i1.val = (a * 2 + 1) * H + e) :
    (if t = 0 then v i0 + v i1 else v i0 - v i1) = Walsh.pass k v i := by
  have hHpos : 0 < H := by rw [hH]; exact Nat.two_pow_pos k
  have hdiv : i.val / 2 ^ k = a * 2 + t := by
    rw [← hH, hi, Nat.add_comm, Nat.add_mul_div_right _ _ hHpos, Nat.div_eq_of_lt he, Nat.zero_add]
  have hsplit : (a * 2 + 1) * H = (a * 2 + 0) * H + H := by ring
  unfold Walsh.pass
  rcases (by omega : t = 0 ∨ t = 1) with h0 | h1
  · subst h0
    have hb : i.val.testBit k = false := by
      rw [Nat.testBit_eq_decide_div_mod_eq, hdiv]; exact decide_eq_false (by omega)
    have hf := hadd i hb
    have e0 : i0 = i := Fin.ext (by rw [hi0, hi])
    have e1 : i1 = Walsh.flip N k i := Fin.ext (by rw [hf, hi1, hi, ← hH, hsplit]; omega)
    rw [if_pos rfl, hb, e0, e1]; rfl
  · subst h1
    have hb : i.val.testBit k = true := by
      rw [Nat.testBit_eq_decide_div_mod_eq, hdiv]; exact decide_eq_true (by omega)
    have hf := hsub i hb
    have e1 : i1 = i := Fin.ext (by rw [hi1, hi])
    have e0 : i0 = Walsh.flip N k i := Fin.ext (by rw [hi0]; rw [hi, ← hH, hsplit] at hf; omega)
    rw [if_neg Nat.one_ne_zero, hb, e0, e1]; rfl

/-- One stage of the reference on a row: the halves of the view summed and differenced, laid back as a row, are the
    butterfly pass at bit k of what the view held. -/
theorem stage_row {R Q H N k : ℕ} (hN : Q * 2 * H = N) (hH : H = 2 ^ k)
    (A : FVec Ideal ⟨4, ![R, Q, 2, H]⟩ .f32)
    (hs0 : (⟨4, ![R, Q, 2, H]⟩ : Shape).Slices ![0, 0, 0, 0] ⟨4, ![R, Q, 1, H]⟩)
    (hs1 : (⟨4, ![R, Q, 2, H]⟩ : Shape).Slices ![0, 0, 1, 0] ⟨4, ![R, Q, 1, H]⟩)
    (hc : Shape.Concatenates [⟨4, ![R, Q, 1, H]⟩, ⟨4, ![R, Q, 1, H]⟩] ⟨4, ![R, Q, 2, H]⟩ 2)
    (h2 : (⟨4, ![R, Q, 2, H]⟩ : Shape).ShapeCasts ⟨2, ![R, N]⟩)
    (r : Fin R) (v : Fin N → EReal) (hA : Holds A r v)
    (hadd : ∀ i : Fin N, i.val.testBit k = false → (Walsh.flip N k i).val = i.val + 2 ^ k)
    (hsub : ∀ i : Fin N, i.val.testBit k = true → (Walsh.flip N k i).val + 2 ^ k = i.val)
    (i : Fin N) :
    shapeCast ⟨2, ![R, N]⟩ (concatenate ⟨4, ![R, Q, 2, H]⟩ 2
      [⟨⟨4, ![R, Q, 1, H]⟩, addf (extractStridedSlice ⟨4, ![R, Q, 1, H]⟩ ![0, 0, 0, 0] A hs0)
          (extractStridedSlice ⟨4, ![R, Q, 1, H]⟩ ![0, 0, 1, 0] A hs1)⟩,
       ⟨⟨4, ![R, Q, 1, H]⟩, subf (extractStridedSlice ⟨4, ![R, Q, 1, H]⟩ ![0, 0, 0, 0] A hs0)
          (extractStridedSlice ⟨4, ![R, Q, 1, H]⟩ ![0, 0, 1, 0] A hs1)⟩] hc) h2 (ix2 r i)
      = Walsh.pass k v i := by
  have hHpos : 0 < H := by rw [hH]; exact Nat.two_pow_pos k
  have hq : i.val / (2 * H) < Q := by
    apply Nat.div_lt_of_lt_mul
    calc i.val < N := i.isLt
      _ = 2 * H * Q := by rw [← hN]; ring
  have he : i.val % H < H := Nat.mod_lt _ hHpos
  have ht : (i.val / H) % 2 < 2 := Nat.mod_lt _ (by decide)
  have hi : i.val = ((i.val / (2 * H)) * 2 + (i.val / H) % 2) * H + i.val % H := by
    have h1 := Nat.div_add_mod i.val H
    have h3 : i.val / (2 * H) = i.val / H / 2 := by rw [Nat.mul_comm, Nat.div_div_eq_div_mul]
    have h4 : (i.val / H / 2) * 2 + (i.val / H) % 2 = i.val / H := by omega
    rw [h3, h4, Nat.mul_comm]; exact h1.symm
  have hle : (i.val / (2 * H) + 1) * 2 * H ≤ N :=
    le_of_le_of_eq (Nat.mul_le_mul_right _ (Nat.mul_le_mul_right _ (Nat.succ_le_of_lt hq))) hN
  have i0lt : (i.val / (2 * H) * 2 + 0) * H + i.val % H < N := by
    have : (i.val / (2 * H) + 1) * 2 * H = (i.val / (2 * H) * 2 + 0) * H + H + H := by ring
    omega
  have i1lt : (i.val / (2 * H) * 2 + 1) * H + i.val % H < N := by
    have : (i.val / (2 * H) + 1) * 2 * H = (i.val / (2 * H) * 2 + 1) * H + H := by ring
    omega
  rw [cast42_apply hN _ h2 r ⟨_, hq⟩ ⟨_, ht⟩ ⟨_, he⟩ i hi, halves_apply A hs0 hs1 hc r ⟨_, hq⟩ ⟨_, ht⟩ ⟨_, he⟩,
    hA ⟨_, hq⟩ 0 ⟨_, he⟩ ⟨_, i0lt⟩ rfl, hA ⟨_, hq⟩ 1 ⟨_, he⟩ ⟨_, i1lt⟩ rfl]
  exact pass_of_coords hH v hadd hsub _ _ _ ht he i _ _ hi rfl rfl

/-- One stage followed by the next stage's view: the next view holds the pass of what this view held. -/
theorem stage_view {R Q H N k Q' H' : ℕ} (hN : Q * 2 * H = N) (hH : H = 2 ^ k) (hN' : Q' * 2 * H' = N)
    (A : FVec Ideal ⟨4, ![R, Q, 2, H]⟩ .f32)
    (hs0 : (⟨4, ![R, Q, 2, H]⟩ : Shape).Slices ![0, 0, 0, 0] ⟨4, ![R, Q, 1, H]⟩)
    (hs1 : (⟨4, ![R, Q, 2, H]⟩ : Shape).Slices ![0, 0, 1, 0] ⟨4, ![R, Q, 1, H]⟩)
    (hc : Shape.Concatenates [⟨4, ![R, Q, 1, H]⟩, ⟨4, ![R, Q, 1, H]⟩] ⟨4, ![R, Q, 2, H]⟩ 2)
    (h2 : (⟨4, ![R, Q, 2, H]⟩ : Shape).ShapeCasts ⟨2, ![R, N]⟩)
    (h4 : (⟨2, ![R, N]⟩ : Shape).ShapeCasts ⟨4, ![R, Q', 2, H']⟩)
    (r : Fin R) (v : Fin N → EReal) (hA : Holds A r v)
    (hadd : ∀ i : Fin N, i.val.testBit k = false → (Walsh.flip N k i).val = i.val + 2 ^ k)
    (hsub : ∀ i : Fin N, i.val.testBit k = true → (Walsh.flip N k i).val + 2 ^ k = i.val) :
    Holds (shapeCast ⟨4, ![R, Q', 2, H']⟩ (shapeCast ⟨2, ![R, N]⟩ (concatenate ⟨4, ![R, Q, 2, H]⟩ 2
      [⟨⟨4, ![R, Q, 1, H]⟩, addf (extractStridedSlice ⟨4, ![R, Q, 1, H]⟩ ![0, 0, 0, 0] A hs0)
          (extractStridedSlice ⟨4, ![R, Q, 1, H]⟩ ![0, 0, 1, 0] A hs1)⟩,
       ⟨⟨4, ![R, Q, 1, H]⟩, subf (extractStridedSlice ⟨4, ![R, Q, 1, H]⟩ ![0, 0, 0, 0] A hs0)
          (extractStridedSlice ⟨4, ![R, Q, 1, H]⟩ ![0, 0, 1, 0] A hs1)⟩] hc) h2) h4) r (Walsh.pass k v) :=
  fun q t e i hi => (cast24_apply hN' _ h4 r q t e i hi).trans (stage_row hN hH A hs0 hs1 hc h2 r v hA hadd hsub i)

/-! ## The first view, and the tail: scale, contraction with the weights' rows, bias -/

/-- Row b*S + s of the activations laid out as B*S rows is row (b, s). -/
theorem cast32_apply {α : Type} {B S N R : ℕ}
    (x : (⟨3, ![B, S, N]⟩ : Shape).Idx → α)
    (h : (⟨3, ![B, S, N]⟩ : Shape).ShapeCasts ⟨2, ![R, N]⟩)
    (b : Fin B) (s : Fin S) (r : Fin R) (hr : r.val = b.val * S + s.val) (i : Fin N) :
    shapeCast ⟨2, ![R, N]⟩ x h (ix2 r i) = x (ix3 b s i) := by
  refine shapeCast_apply x h _ _ ?_
  rw [Shape.rowMajor_val_two, Shape.rowMajor_val_three]
  show (b.val * S + s.val) * N + i.val = r.val * N + i.val
  rw [hr]

/-- The same, from the side of the rows. -/
theorem cast23_apply {α : Type} {B S N R : ℕ}
    (z : (⟨2, ![R, N]⟩ : Shape).Idx → α)
    (h : (⟨2, ![R, N]⟩ : Shape).ShapeCasts ⟨3, ![B, S, N]⟩)
    (b : Fin B) (s : Fin S) (r : Fin R) (hr : r.val = b.val * S + s.val) (i : Fin N) :
    shapeCast ⟨3, ![B, S, N]⟩ z h (ix3 b s i) = z (ix2 r i) := by
  refine shapeCast_apply z h _ _ ?_
  rw [Shape.rowMajor_val_two, Shape.rowMajor_val_three]
  show r.val * N + i.val = (b.val * S + s.val) * N + i.val
  rw [hr]

/-- The first stage's view holds row (b, s) of the activations. -/
theorem first_view {B S N R Q H : ℕ} (hN : Q * 2 * H = N)
    (x : (⟨3, ![B, S, N]⟩ : Shape).Idx → EReal)
    (h0 : (⟨3, ![B, S, N]⟩ : Shape).ShapeCasts ⟨2, ![R, N]⟩)
    (h4 : (⟨2, ![R, N]⟩ : Shape).ShapeCasts ⟨4, ![R, Q, 2, H]⟩)
    (b : Fin B) (s : Fin S) (r : Fin R) (hr : r.val = b.val * S + s.val) :
    Holds (shapeCast ⟨4, ![R, Q, 2, H]⟩ (shapeCast ⟨2, ![R, N]⟩ x h0) h4) r (fun d => x (ix3 b s d)) :=
  fun q t e i hi => (cast24_apply hN _ h4 r q t e i hi).trans (cast32_apply x h0 b s r hr i)

local notation "DOT" => dot_S4x2048x4096_S4096x4096_S4x2048x4096_2_1_01_0_n_n

theorem lhs_0 (j : S4x2048x4096.Idx) (q : (DOT).contr.Idx) : ((DOT).lhsIdx j q 0).val = (j 0).val := by
  unfold DotDims.lhsIdx
  rw [dif_neg (show ¬(0 : Fin S4x2048x4096.rank) ∈ (DOT).lhsBatch by decide), dif_pos (show (0 : Fin S4x2048x4096.rank) ∈ (DOT).lhsNonContracting by decide)]
  rfl
theorem lhs_1 (j : S4x2048x4096.Idx) (q : (DOT).contr.Idx) : ((DOT).lhsIdx j q 1).val = (j 1).val := by
  unfold DotDims.lhsIdx
  rw [dif_neg (show ¬(1 : Fin S4x2048x4096.rank) ∈ (DOT).lhsBatch by decide), dif_pos (show (1 : Fin S4x2048x4096.rank) ∈ (DOT).lhsNonContracting by decide)]
  rfl
theorem lhs_2 (j : S4x2048x4096.Idx) (q : (DOT).contr.Idx) : ((DOT).lhsIdx j q 2).val = (q ⟨0, by decide⟩).val :=
  (DOT).lhsIdx_val_of_single rfl j q
theorem rhs_0 (j : S4x2048x4096.Idx) (q : (DOT).contr.Idx) : ((DOT).rhsIdx j q 0).val = (j 2).val := by
  unfold DotDims.rhsIdx
  rw [dif_neg (show ¬(0 : Fin S4096x4096.rank) ∈ (DOT).rhsBatch by decide), dif_pos (show (0 : Fin S4096x4096.rank) ∈ (DOT).rhsNonContracting by decide)]
  rfl
theorem rhs_1 (j : S4x2048x4096.Idx) (q : (DOT).contr.Idx) : ((DOT).rhsIdx j q 1).val = (q ⟨0, by decide⟩).val :=
  (DOT).rhsIdx_val_of_single rfl j q

/-- The contraction at (b, s, o): the sum over d of the left operand's row (b, s) times the weights' row o. -/
theorem dot_apply (l : FVec Ideal S4x2048x4096 .f32) (w : FVec Ideal S4096x4096 .f32) (b : Fin 4) (s : Fin 2048) (o : Fin 4096) :
    Host.dotGeneral (DOT) none l w (ix3 b s o) = ∑ d : Fin 4096, l (ix3 b s d) * w (ix2 o d) := by
  simp only [Host.dotGeneral]
  rw [Ideal.dotGeneral_apply, ← Equiv.sum_comp (contrEquiv1 (DOT) 4096 rfl rfl).symm]
  refine Finset.sum_congr rfl fun k _ => ?_
  have hk := contrEquiv1_symm_val (DOT) 4096 rfl rfl k
  have el : (DOT).lhsIdx (ix3 b s o) ((contrEquiv1 (DOT) 4096 rfl rfl).symm k) = ix3 b s k := funext fun a => Fin.ext (by
    match a with
    | ⟨0, _⟩ => exact lhs_0 _ _
    | ⟨1, _⟩ => exact lhs_1 _ _
    | ⟨2, _⟩ => exact (lhs_2 _ _).trans hk)
  have er : (DOT).rhsIdx (ix3 b s o) ((contrEquiv1 (DOT) 4096 rfl rfl).symm k) = ix2 o k := funext fun a => Fin.ext (by
    match a with
    | ⟨0, _⟩ => exact rhs_0 _ _
    | ⟨1, _⟩ => exact (rhs_1 _ _).trans hk)
  rw [el, er]

/-- The bias row laid along every (b, s). -/
theorem bias_apply (bias : FVec Ideal S4096 .f32) (b : Fin 4) (s : Fin 2048) (o : Fin 4096) :
    broadcastInDim S4x2048x4096 ![0, 1, 2] bcast_S1x1x4096_S4x2048x4096_0_1_2
      (broadcastInDim S1x1x4096 ![2] bcast_S4096_S1x1x4096_2 bias) (ix3 b s o) = bias (ix1 o) := by
  rw [broadcastInDim_apply _ _ _ (ix3 b s o) (ix3 (0 : Fin 1) (0 : Fin 1) o) (fun a => by
      match a with
      | ⟨0, _⟩ => rfl
      | ⟨1, _⟩ => rfl
      | ⟨2, _⟩ => rfl),
    broadcastInDim_apply _ _ _ (ix3 (0 : Fin 1) (0 : Fin 1) o) (ix1 o) (fun a => by
      match a with
      | ⟨0, _⟩ => rfl)]

/-- The tail at (b, s, o): every entry of row b*2048 + s times the scale, contracted with row o of the weights, plus
    the bias at o. -/
theorem tail_apply (Z : FVec Ideal S8192x4096 .f32) (W : FVec Ideal S4096x4096 .f32) (bias : FVec Ideal S4096 .f32)
    (b : Fin 4) (s : Fin 2048) (o : Fin 4096) (r : Fin 8192) (hr : r.val = b.val * 2048 + s.val)
    (u : Fin 4096 → EReal) (hZ : ∀ d, Z (ix2 r d) = u d) :
    addf (Host.dotGeneral (DOT) none
        (shapeCast S4x2048x4096 (mulf Z (broadcastInDim S8192x4096 ![] bcast_S_S8192x4096 (constant (F := Ideal) S_ .f32 0x3C800000#32)))
          shapeCasts_S8192x4096_S4x2048x4096) W)
      (broadcastInDim S4x2048x4096 ![0, 1, 2] bcast_S1x1x4096_S4x2048x4096_0_1_2
        (broadcastInDim S1x1x4096 ![2] bcast_S4096_S1x1x4096_2 bias)) (ix3 b s o)
      = (∑ d : Fin 4096, (u d * Ideal.ofBits .f32 0x3C800000#32) * W (ix2 o d)) + bias (ix1 o) := by
  rw [addf_apply, dot_apply, bias_apply]
  congr 1
  refine Finset.sum_congr rfl fun d _ => ?_
  rw [cast23_apply _ _ b s r hr d, mulf_apply, hZ, broadcastInDim_scalar_apply, constant_apply]

/-! ## The whole reference at an index -/

/-- The reference's result array is the specification's function of the three argument arrays: twelve passes on row
    (b, s) of the activations, the scale, the contraction with row o of the weights, the bias. -/
theorem value_eq
    (hadd : ∀ (k : ℕ) (hk : k < 12) (i : Fin 4096), i.val.testBit k = false → (Walsh.flip 4096 k i).val = i.val + 2 ^ k)
    (hsub : ∀ (k : ℕ) (hk : k < 12) (i : Fin 4096), i.val.testBit k = true → (Walsh.flip 4096 k i).val + 2 ^ k = i.val)
    (V : Valuation τ sig (Elt Ideal)) :
    (after (ops (F := Ideal)) V (Proc.devRef .tc main_v91) : FVec Ideal S4x2048x4096 .f32)
      = Cert.Spec.refOut (V (Proc.devRef .tc main_arg0)) (V (Proc.devRef .tc main_arg1)) (V (Proc.devRef .tc main_arg2)) := by
  have ka0 : after (ops (F := Ideal)) V (Proc.devRef .tc main_arg0) = V (Proc.devRef .tc main_arg0) := k_main_arg0 V
  have ka1 : after (ops (F := Ideal)) V (Proc.devRef .tc main_arg1) = V (Proc.devRef .tc main_arg1) := k_main_arg1 V
  have ka2 : after (ops (F := Ideal)) V (Proc.devRef .tc main_arg2) = V (Proc.devRef .tc main_arg2) := k_main_arg2 V
  funext j
  obtain ⟨b, s, o, rfl⟩ : ∃ (b : Fin 4) (s : Fin 2048) (o : Fin 4096), j = ix3 b s o := ⟨j 0, j 1, j 2, eq_ix3 j⟩
  have hrlt : b.val * 2048 + s.val < 8192 := by omega
  obtain ⟨r, hr⟩ : ∃ r : Fin 8192, r.val = b.val * 2048 + s.val := ⟨⟨_, hrlt⟩, rfl⟩
  obtain ⟨v0, hv0⟩ : ∃ v0 : Fin 4096 → EReal, v0 = Cert.Spec.rowX (V (Proc.devRef .tc main_arg0)) b s := ⟨_, rfl⟩
  have I0 : Holds (R := 8192) (Q := 2048) (H := 1) (N := 4096) (after (ops (F := Ideal)) V (Proc.devRef .tc main_v1)) r v0 := by
    rw [hv0, e_main_v1, e_main_v0, ka0]; exact first_view rfl _ _ _ b s r hr
  have I1 : Holds (R := 8192) (Q := 1024) (H := 2) (N := 4096) (after (ops (F := Ideal)) V (Proc.devRef .tc main_v8)) r (Walsh.passes 1 v0) := by
    rw [e_main_v8, e_main_v7, e_main_v6, e_main_v4, e_main_v5, e_main_v2, e_main_v3]
    exact stage_view (R := 8192) (Q := 2048) (H := 1) (N := 4096) (k := 0) (Q' := 1024) (H' := 2) rfl rfl rfl (after (ops (F := Ideal)) V (Proc.devRef .tc main_v1)) _ _ _ _ _ r _ I0
      (hadd 0 (by decide)) (hsub 0 (by decide))
  have I2 : Holds (R := 8192) (Q := 512) (H := 4) (N := 4096) (after (ops (F := Ideal)) V (Proc.devRef .tc main_v15)) r (Walsh.passes 2 v0) := by
    rw [e_main_v15, e_main_v14, e_main_v13, e_main_v11, e_main_v12, e_main_v9, e_main_v10]
    exact stage_view (R := 8192) (Q := 1024) (H := 2) (N := 4096) (k := 1) (Q' := 512) (H' := 4) rfl rfl rfl (after (ops (F := Ideal)) V (Proc.devRef .tc main_v8)) _ _ _ _ _ r _ I1
      (hadd 1 (by decide)) (hsub 1 (by decide))
  have I3 : Holds (R := 8192) (Q := 256) (H := 8) (N := 4096) (after (ops (F := Ideal)) V (Proc.devRef .tc main_v22)) r (Walsh.passes 3 v0) := by
    rw [e_main_v22, e_main_v21, e_main_v20, e_main_v18, e_main_v19, e_main_v16, e_main_v17]
    exact stage_view (R := 8192) (Q := 512) (H := 4) (N := 4096) (k := 2) (Q' := 256) (H' := 8) rfl rfl rfl (after (ops (F := Ideal)) V (Proc.devRef .tc main_v15)) _ _ _ _ _ r _ I2
      (hadd 2 (by decide)) (hsub 2 (by decide))
  have I4 : Holds (R := 8192) (Q := 128) (H := 16) (N := 4096) (after (ops (F := Ideal)) V (Proc.devRef .tc main_v29)) r (Walsh.passes 4 v0) := by
    rw [e_main_v29, e_main_v28, e_main_v27, e_main_v25, e_main_v26, e_main_v23, e_main_v24]
    exact stage_view (R := 8192) (Q := 256) (H := 8) (N := 4096) (k := 3) (Q' := 128) (H' := 16) rfl rfl rfl (after (ops (F := Ideal)) V (Proc.devRef .tc main_v22)) _ _ _ _ _ r _ I3
      (hadd 3 (by decide)) (hsub 3 (by decide))
  have I5 : Holds (R := 8192) (Q := 64) (H := 32) (N := 4096) (after (ops (F := Ideal)) V (Proc.devRef .tc main_v36)) r (Walsh.passes 5 v0) := by
    rw [e_main_v36, e_main_v35, e_main_v34, e_main_v32, e_main_v33, e_main_v30, e_main_v31]
    exact stage_view (R := 8192) (Q := 128) (H := 16) (N := 4096) (k := 4) (Q' := 64) (H' := 32) rfl rfl rfl (after (ops (F := Ideal)) V (Proc.devRef .tc main_v29)) _ _ _ _ _ r _ I4
      (hadd 4 (by decide)) (hsub 4 (by decide))
  have I6 : Holds (R := 8192) (Q := 32) (H := 64) (N := 4096) (after (ops (F := Ideal)) V (Proc.devRef .tc main_v43)) r (Walsh.passes 6 v0) := by
    rw [e_main_v43, e_main_v42, e_main_v41, e_main_v39, e_main_v40, e_main_v37, e_main_v38]
    exact stage_view (R := 8192) (Q := 64) (H := 32) (N := 4096) (k := 5) (Q' := 32) (H' := 64) rfl rfl rfl (after (ops (F := Ideal)) V (Proc.devRef .tc main_v36)) _ _ _ _ _ r _ I5
      (hadd 5 (by decide)) (hsub 5 (by decide))
  have I7 : Holds (R := 8192) (Q := 16) (H := 128) (N := 4096) (after (ops (F := Ideal)) V (Proc.devRef .tc main_v50)) r (Walsh.passes 7 v0) := by
    rw [e_main_v50, e_main_v49, e_main_v48, e_main_v46, e_main_v47, e_main_v44, e_main_v45]
    exact stage_view (R := 8192) (Q := 32) (H := 64) (N := 4096) (k := 6) (Q' := 16) (H' := 128) rfl rfl rfl (after (ops (F := Ideal)) V (Proc.devRef .tc main_v43)) _ _ _ _ _ r _ I6
      (hadd 6 (by decide)) (hsub 6 (by decide))
  have I8 : Holds (R := 8192) (Q := 8) (H := 256) (N := 4096) (after (ops (F := Ideal)) V (Proc.devRef .tc main_v57)) r (Walsh.passes 8 v0) := by
    rw [e_main_v57, e_main_v56, e_main_v55, e_main_v53, e_main_v54, e_main_v51, e_main_v52]
    exact stage_view (R := 8192) (Q := 16) (H := 128) (N := 4096) (k := 7) (Q' := 8) (H' := 256) rfl rfl rfl (after (ops (F := Ideal)) V (Proc.devRef .tc main_v50)) _ _ _ _ _ r _ I7
      (hadd 7 (by decide)) (hsub 7 (by decide))
  have I9 : Holds (R := 8192) (Q := 4) (H := 512) (N := 4096) (after (ops (F := Ideal)) V (Proc.devRef .tc main_v64)) r (Walsh.passes 9 v0) := by
    rw [e_main_v64, e_main_v63, e_main_v62, e_main_v60, e_main_v61, e_main_v58, e_main_v59]
    exact stage_view (R := 8192) (Q := 8) (H := 256) (N := 4096) (k := 8) (Q' := 4) (H' := 512) rfl rfl rfl (after (ops (F := Ideal)) V (Proc.devRef .tc main_v57)) _ _ _ _ _ r _ I8
      (hadd 8 (by decide)) (hsub 8 (by decide))
  have I10 : Holds (R := 8192) (Q := 2) (H := 1024) (N := 4096) (after (ops (F := Ideal)) V (Proc.devRef .tc main_v71)) r (Walsh.passes 10 v0) := by
    rw [e_main_v71, e_main_v70, e_main_v69, e_main_v67, e_main_v68, e_main_v65, e_main_v66]
    exact stage_view (R := 8192) (Q := 4) (H := 512) (N := 4096) (k := 9) (Q' := 2) (H' := 1024) rfl rfl rfl (after (ops (F := Ideal)) V (Proc.devRef .tc main_v64)) _ _ _ _ _ r _ I9
      (hadd 9 (by decide)) (hsub 9 (by decide))
  have I11 : Holds (R := 8192) (Q := 1) (H := 2048) (N := 4096) (after (ops (F := Ideal)) V (Proc.devRef .tc main_v78)) r (Walsh.passes 11 v0) := by
    rw [e_main_v78, e_main_v77, e_main_v76, e_main_v74, e_main_v75, e_main_v72, e_main_v73]
    exact stage_view (R := 8192) (Q := 2) (H := 1024) (N := 4096) (k := 10) (Q' := 1) (H' := 2048) rfl rfl rfl (after (ops (F := Ideal)) V (Proc.devRef .tc main_v71)) _ _ _ _ _ r _ I10
      (hadd 10 (by decide)) (hsub 10 (by decide))
  have hZ : ∀ d : Fin 4096, (after (ops (F := Ideal)) V (Proc.devRef .tc main_v84) : FVec Ideal S8192x4096 .f32) (ix2 r d) = Walsh.passes 12 v0 d := by
    intro d
    rw [e_main_v84, e_main_v83, e_main_v81, e_main_v82, e_main_v79, e_main_v80]
    exact stage_row (R := 8192) (Q := 1) (H := 2048) (N := 4096) (k := 11) rfl rfl (after (ops (F := Ideal)) V (Proc.devRef .tc main_v78)) _ _ _ _ r _ I11
      (hadd 11 (by decide)) (hsub 11 (by decide)) d
  rw [e_main_v91, e_main_v88, e_main_v90, e_main_v89, e_main_v87, e_main_v86, e_main_v85, e_main_cst, ka1, ka2]
  refine (tail_apply (after (ops (F := Ideal)) V (Proc.devRef .tc main_v84)) _ _ b s o r hr _ hZ).trans ?_
  rw [hv0]
  rfl

/-! ## The reference's run -/

/-- Every weakly fair execution of the reference ends with its result at the specification's function of the three
    argument arrays, and the arguments unchanged. -/
theorem run
    (hadd : ∀ (k : ℕ) (hk : k < 12) (i : Fin 4096), i.val.testBit k = false → (Walsh.flip 4096 k i).val = i.val + 2 ^ k)
    (hsub : ∀ (k : ℕ) (hk : k < 12) (i : Fin 4096), i.val.testBit k = true → (Walsh.flip 4096 k i).val + 2 ^ k = i.val)
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v91)
        = Cert.Spec.refOut (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c main_v91).trans (value_eq hadd hsub (launchContents m c)),
      (h c main_arg0).trans (k_main_arg0 _), (h c main_arg1).trans (k_main_arg1 _), (h c main_arg2).trans (k_main_arg2 _)⟩)
    (Cert.RefRun.run_after (F := Ideal) m ρ)

end Cert.RefSide

end
-- ==== Proof.lean ====
/-
  The certificate of  y = x · fwht(W)ᵀ + b  (two kernels: a roll-and-select Walsh-Hadamard rotation of W's rows, then a
  matmul contracting last axes with the bias added)  against  y = fwht(x) · Wᵀ + b  (the rotation written with reshapes,
  slices and concatenations, applied to x's rows), over the extended reals under the precondition that every input is
  finite.

  Both programs apply the same linear map T to rows of length 4096: the butterfly passes at bits 0 … 11, then the scale
  2^-6.  The reference's result is  sum_d T(x_row)[d] * W_row[d] + b  and the kernel's  sum_d x_row[d] * T(W_row)[d] + b.
  Every pass is self-adjoint for the dot product and passes at different bits commute, so T is self-adjoint on real
  vectors; finiteness of x and W is what makes the rows real (the law moves factors across sums, which fails at the
  infinities). The bias needs no finiteness.

  The kernel's two frames are the generated ones; the reference's is its run (a straight line of host operations, read one
  operation at a time) with the result dropped; the ideal pass
  rewrote nothing, so the preservation claim is trivial.
-/
import proofs.«113425_j17712445129289_2_alg».proof.Defs
import proofs.«113425_j17712445129289_2_alg».proof.Proof.Gen.Kernel
import proofs.«113425_j17712445129289_2_alg».proof.Proof.Gen.Kernel.Skeleton
import proofs.«113425_j17712445129289_2_alg».proof.Proof.Gen.Kernel.Launch
import proofs.«113425_j17712445129289_2_alg».proof.Proof.Gen.Kernel.Points
import proofs.«113425_j17712445129289_2_alg».proof.Proof.Gen.Kernel.Frame
import proofs.«113425_j17712445129289_2_alg».proof.Proof.Gen.KernelIdeal
import proofs.«113425_j17712445129289_2_alg».proof.Proof.Gen.KernelIdeal.Skeleton
import proofs.«113425_j17712445129289_2_alg».proof.Proof.Gen.KernelIdeal.Launch
import proofs.«113425_j17712445129289_2_alg».proof.Proof.Gen.KernelIdeal.Points
import proofs.«113425_j17712445129289_2_alg».proof.Proof.Gen.KernelIdeal.Frame
import proofs.«113425_j17712445129289_2_alg».proof.Proof.Gen.ReferenceIdeal
import proofs.«113425_j17712445129289_2_alg».proof.Proof.Gen.Pre_finite_inputs
import proofs.«113425_j17712445129289_2_alg».proof.Proof.LibWalsh
import proofs.«113425_j17712445129289_2_alg».proof.Proof.Spec
import proofs.«113425_j17712445129289_2_alg».proof.Proof.SpecEq
import proofs.«113425_j17712445129289_2_alg».proof.Proof.Finite
import proofs.«113425_j17712445129289_2_alg».proof.Proof.KerBody0
import proofs.«113425_j17712445129289_2_alg».proof.Proof.KerBody1
import proofs.«113425_j17712445129289_2_alg».proof.Proof.KerValue
import proofs.«113425_j17712445129289_2_alg».proof.Proof.RefRun
import proofs.«113425_j17712445129289_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run ends with every buffer at the fold of its operations, and no operation writes an
    argument. -/
theorem frame_ri : Cert.frame_ReferenceIdeal := fun m ρ _ =>
  (θ_run Cert.ReferenceIdeal.defs _ _).mono (fun _ h c =>
      ⟨(h c Cert.ReferenceIdeal.main_arg0).trans (Cert.RefRun.k_main_arg0 _),
       (h c Cert.ReferenceIdeal.main_arg1).trans (Cert.RefRun.k_main_arg1 _),
       (h c Cert.ReferenceIdeal.main_arg2).trans (Cert.RefRun.k_main_arg2 _)⟩)
    (Cert.RefRun.run_after (F := Ideal) m ρ)

/-- The kernel ends at its whole-array function of the arguments, the reference at its own, from agreeing arguments;
    the two functions agree where x and W are real, which the precondition gives. -/
theorem algebraic : Cert.algebraic_KernelIdeal_ReferenceIdeal := by
  intro m ρ m' ρ' hpre hagree
  refine ⟨_, Cert.KerSide.run Cert.KerRot.out0_1_apply Cert.KerBody.out1_3_apply m ρ, ?_⟩
  refine (θ_run Cert.ReferenceIdeal.defs _ _).mono (fun _ h c => ⟨(h c).1.trans ?_, (h c).2⟩)
    (Cert.RefSide.run
      (fun k hk => Walsh.flip_val_add (n := 4096) (K := 12) (by norm_num) hk)
      (fun k hk => Walsh.flip_val_sub (n := 4096) (K := 12) (by norm_num) hk) m' ρ')
  rw [(hagree c).1, (hagree c).2.1, (hagree c).2.2]
  obtain ⟨hx, hW⟩ := Cert.Finite.real_of_pre _ _ _ (hpre c)
  exact (Cert.Spec.kerOut_eq_refOut _ _ _ hx hW).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
